-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S2048x6144 : Shape := ⟨2, ![2048, 6144]⟩
abbrev S6144 : Shape := ⟨1, ![6144]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S2048x6144 : S_.BroadcastsInDim S2048x6144 (![] : Fin 0 → Fin S2048x6144.rank)
  reducesTo_S2048x6144_S_d0_1 : S2048x6144.ReducesTo [0, 1] S_
  bcast_S_S6144 : S_.BroadcastsInDim S6144 (![] : Fin 0 → Fin S6144.rank)
  reducesTo_S6144_S_d0 : S6144.ReducesTo [0] S_

variable [Facts]

def fn_part2 {F : FTy → Type} [FloatOps F] (main_arg7 : FVec F S6144 .f32) (main_v33 : IVec S_ 1) : IVec S_ 1 :=
  let main_v34 : FVec F S6144 .f32 := Host.absf main_arg7
  let main_cst_12 : FVec F S_ .f32 := constant S_ .f32 0x7F800000#32
  let main_v35 : FVec F S6144 .f32 := broadcastInDim S6144 ![] bcast_S_S6144 main_cst_12
  let main_v36 : IVec S6144 1 := cmpf .olt main_v34 main_v35
  let main_c_13 : IVec S_ 1 := constantI S_ 1 1#1
  let main_v37 : IVec S_ 1 := (fun x v => Host.reduce IntOp.andi x v reducesTo_S6144_S_d0 h_S_) main_v36 main_c_13
  let main_v38 : IVec S_ 1 := andi main_v33 main_v37
  main_v38

def fn_part1 {F : FTy → Type} [FloatOps F] (main_arg4 : FVec F S2048x6144 .f32) (main_arg5 : FVec F S2048x6144 .f32) (main_arg6 : FVec F S6144 .f32) (main_arg7 : FVec F S6144 .f32) (main_v13 : IVec S_ 1) (main_v16 : IVec S2048x6144 1) : IVec S_ 1 :=
  let main_c_5 : IVec S_ 1 := constantI S_ 1 1#1
  let main_v17 : IVec S_ 1 := (fun x v => Host.reduce IntOp.andi x v reducesTo_S2048x6144_S_d0_1 h_S_) main_v16 main_c_5
  let main_v18 : IVec S_ 1 := andi main_v13 main_v17
  let main_v19 : FVec F S2048x6144 .f32 := Host.absf main_arg4
  let main_cst_6 : FVec F S_ .f32 := constant S_ .f32 0x7F800000#32
  let main_v20 : FVec F S2048x6144 .f32 := broadcastInDim S2048x6144 ![] bcast_S_S2048x6144 main_cst_6
  let main_v21 : IVec S2048x6144 1 := cmpf .olt main_v19 main_v20
  let main_c_7 : IVec S_ 1 := constantI S_ 1 1#1
  let main_v22 : IVec S_ 1 := (fun x v => Host.reduce IntOp.andi x v reducesTo_S2048x6144_S_d0_1 h_S_) main_v21 main_c_7
  let main_v23 : IVec S_ 1 := andi main_v18 main_v22
  let main_v24 : FVec F S2048x6144 .f32 := Host.absf main_arg5
  let main_cst_8 : FVec F S_ .f32 := constant S_ .f32 0x7F800000#32
  let main_v25 : FVec F S2048x6144 .f32 := broadcastInDim S2048x6144 ![] bcast_S_S2048x6144 main_cst_8
  let main_v26 : IVec S2048x6144 1 := cmpf .olt main_v24 main_v25
  let main_c_9 : IVec S_ 1 := constantI S_ 1 1#1
  let main_v27 : IVec S_ 1 := (fun x v => Host.reduce IntOp.andi x v reducesTo_S2048x6144_S_d0_1 h_S_) main_v26 main_c_9
  let main_v28 : IVec S_ 1 := andi main_v23 main_v27
  let main_v29 : FVec F S6144 .f32 := Host.absf main_arg6
  let main_cst_10 : FVec F S_ .f32 := constant S_ .f32 0x7F800000#32
  let main_v30 : FVec F S6144 .f32 := broadcastInDim S6144 ![] bcast_S_S6144 main_cst_10
  let main_v31 : IVec S6144 1 := cmpf .olt main_v29 main_v30
  let main_c_11 : IVec S_ 1 := constantI S_ 1 1#1
  let main_v32 : IVec S_ 1 := (fun x v => Host.reduce IntOp.andi x v reducesTo_S6144_S_d0 h_S_) main_v31 main_c_11
  let main_v33 : IVec S_ 1 := andi main_v28 main_v32
  fn_part2 (F := F) main_arg7 main_v33

def fn {F : FTy → Type} [FloatOps F] (main_arg0 : FVec F S1024x4096 .f32) (main_arg1 : FVec F S1024x4096 .f32) (main_arg2 : FVec F S2048x6144 .f32) (main_arg3 : FVec F S2048x6144 .f32) (main_arg4 : FVec F S2048x6144 .f32) (main_arg5 : FVec F S2048x6144 .f32) (main_arg6 : FVec F S6144 .f32) (main_arg7 : FVec F S6144 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S2048x6144 .f32 := Host.absf main_arg2
  let main_cst_2 : FVec F S_ .f32 := constant S_ .f32 0x7F800000#32
  let main_v10 : FVec F S2048x6144 .f32 := broadcastInDim S2048x6144 ![] bcast_S_S2048x6144 main_cst_2
  let main_v11 : IVec S2048x6144 1 := cmpf .olt main_v9 main_v10
  let main_c_3 : IVec S_ 1 := constantI S_ 1 1#1
  let main_v12 : IVec S_ 1 := (fun x v => Host.reduce IntOp.andi x v reducesTo_S2048x6144_S_d0_1 h_S_) main_v11 main_c_3
  let main_v13 : IVec S_ 1 := andi main_v8 main_v12
  let main_v14 : FVec F S2048x6144 .f32 := Host.absf main_arg3
  let main_cst_4 : FVec F S_ .f32 := constant S_ .f32 0x7F800000#32
  let main_v15 : FVec F S2048x6144 .f32 := broadcastInDim S2048x6144 ![] bcast_S_S2048x6144 main_cst_4
  let main_v16 : IVec S2048x6144 1 := cmpf .olt main_v14 main_v15
  fn_part1 (F := F) main_arg4 main_arg5 main_arg6 main_arg7 main_v13 main_v16
-- ==== Kernel.lean ====
abbrev S1024x4096 : Shape := ⟨2, ![1024, 4096]⟩
abbrev S2048x6144 : Shape := ⟨2, ![2048, 6144]⟩
abbrev S6144 : Shape := ⟨1, ![6144]⟩
abbrev S2048x2048 : Shape := ⟨2, ![2048, 2048]⟩
abbrev S2048x4096 : Shape := ⟨2, ![2048, 4096]⟩
abbrev S4096x4096 : Shape := ⟨2, ![4096, 4096]⟩
abbrev S2048 : Shape := ⟨1, ![2048]⟩
abbrev S4096 : Shape := ⟨1, ![4096]⟩
abbrev S1x4096 : Shape := ⟨2, ![1, 4096]⟩
abbrev S128x4096 : Shape := ⟨2, ![128, 4096]⟩
abbrev S4096x512 : Shape := ⟨2, ![4096, 512]⟩
abbrev S1x512 : Shape := ⟨2, ![1, 512]⟩
abbrev S128x512 : Shape := ⟨2, ![128, 512]⟩

abbrev nBuf : Space → Nat
  | .hbm => 67
  | .vmem => 42
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S2048x6144, .f32⟩
  | .hbm, ⟨3, _⟩ => ⟨S2048x6144, .f32⟩
  | .hbm, ⟨4, _⟩ => ⟨S2048x6144, .f32⟩
  | .hbm, ⟨5, _⟩ => ⟨S2048x6144, .f32⟩
  | .hbm, ⟨6, _⟩ => ⟨S6144, .f32⟩
  | .hbm, ⟨7, _⟩ => ⟨S6144, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x4096, .f32⟩
  | .hbm, ⟨12, _⟩ => ⟨S2048x4096, .f32⟩
  | .hbm, ⟨13, _⟩ => ⟨S4096x4096, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x4096, .f32⟩
  | .hbm, ⟨18, _⟩ => ⟨S2048x4096, .f32⟩
  | .hbm, ⟨19, _⟩ => ⟨S4096x4096, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x4096, .f32⟩
  | .hbm, ⟨24, _⟩ => ⟨S2048x4096, .f32⟩
  | .hbm, ⟨25, _⟩ => ⟨S4096x4096, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x4096, .f32⟩
  | .hbm, ⟨30, _⟩ => ⟨S2048x4096, .f32⟩
  | .hbm, ⟨31, _⟩ => ⟨S4096x4096, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x4096, .f32⟩
  | .hbm, ⟨36, _⟩ => ⟨S2048x4096, .f32⟩
  | .hbm, ⟨37, _⟩ => ⟨S4096x4096, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x4096, .f32⟩
  | .hbm, ⟨42, _⟩ => ⟨S2048x4096, .f32⟩
  | .hbm, ⟨43, _⟩ => ⟨S4096x4096, .f32⟩
  | .hbm, ⟨44, _⟩ => ⟨S2048, .f32⟩
  | .hbm, ⟨45, _⟩ => ⟨S2048, .f32⟩
  | .hbm, ⟨46, _⟩ => ⟨S4096, .f32⟩
  | .hbm, ⟨47, _⟩ => ⟨S1x4096, .f32⟩
  | .hbm, ⟨48, _⟩ => ⟨S2048, .f32⟩
  | .hbm, ⟨49, _⟩ => ⟨S2048, .f32⟩
  | .hbm, ⟨50, _⟩ => ⟨S4096, .f32⟩
  | .hbm, ⟨51, _⟩ => ⟨S1x4096, .f32⟩
  | .hbm, ⟨52, _⟩ => ⟨S2048, .f32⟩
  | .hbm, ⟨53, _⟩ => ⟨S2048, .f32⟩
  | .hbm, ⟨54, _⟩ => ⟨S4096, .f32⟩
  | .hbm, ⟨55, _⟩ => ⟨S1x4096, .f32⟩
  | .hbm, ⟨56, _⟩ => ⟨S4096x4096, .bf16⟩
  | .hbm, ⟨57, _⟩ => ⟨S4096x4096, .bf16⟩
  | .hbm, ⟨58, _⟩ => ⟨S4096x4096, .bf16⟩
  | .hbm, ⟨59, _⟩ => ⟨S4096x4096, .bf16⟩
  | .hbm, ⟨60, _⟩ => ⟨S4096x4096, .bf16⟩
  | .hbm, ⟨61, _⟩ => ⟨S4096x4096, .bf16⟩
  | .hbm, ⟨62, _⟩ => ⟨S1024x4096, .bf16⟩
  | .hbm, ⟨63, _⟩ => ⟨S1024x4096, .bf16⟩
  | .hbm, ⟨64, _⟩ => ⟨S1024x4096, .f32⟩
  | .hbm, ⟨65, _⟩ => ⟨S1024x4096, .f32⟩
  | .hbm, ⟨66, _⟩ => ⟨S1024x4096, .f32⟩
  | .local _ .vmem, ⟨0, _⟩ => ⟨S128x4096, .bf16⟩
  | .local _ .vmem, ⟨1, _⟩ => ⟨S128x4096, .bf16⟩
  | .local _ .vmem, ⟨2, _⟩ => ⟨S128x4096, .bf16⟩
  | .local _ .vmem, ⟨3, _⟩ => ⟨S128x4096, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S1x512, .f32⟩
  | .local _ .vmem, ⟨9, _⟩ => ⟨S1x512, .f32⟩
  | .local _ .vmem, ⟨10, _⟩ => ⟨S128x512, .f32⟩
  | .local _ .vmem, ⟨11, _⟩ => ⟨S128x512, .f32⟩
  | .local _ .vmem, ⟨12, _⟩ => ⟨S128x4096, .bf16⟩
  | .local _ .vmem, ⟨13, _⟩ => ⟨S128x4096, .bf16⟩
  | .local _ .vmem, ⟨14, _⟩ => ⟨S128x4096, .bf16⟩
  | .local _ .vmem, ⟨15, _⟩ => ⟨S128x4096, .bf16⟩
  | .local _ .vmem, ⟨16, _⟩ => ⟨S4096x512, .bf16⟩
  | .local _ .vmem, ⟨17, _⟩ => ⟨S4096x512, .bf16⟩
  | .local _ .vmem, ⟨18, _⟩ => ⟨S4096x512, .bf16⟩
  | .local _ .vmem, ⟨19, _⟩ => ⟨S4096x512, .bf16⟩
  | .local _ .vmem, ⟨20, _⟩ => ⟨S1x512, .f32⟩
  | .local _ .vmem, ⟨21, _⟩ => ⟨S1x512, .f32⟩
  | .local _ .vmem, ⟨22, _⟩ => ⟨S128x512, .f32⟩
  | .local _ .vmem, ⟨23, _⟩ => ⟨S128x512, .f32⟩
  | .local _ .vmem, ⟨24, _⟩ => ⟨S128x4096, .bf16⟩
  | .local _ .vmem, ⟨25, _⟩ => ⟨S128x4096, .bf16⟩
  | .local _ .vmem, ⟨26, _⟩ => ⟨S4096x512, .bf16⟩
  | .local _ .vmem, ⟨27, _⟩ => ⟨S4096x512, .bf16⟩
  | .local _ .vmem, ⟨28, _⟩ => ⟨S128x4096, .f32⟩
  | .local _ .vmem, ⟨29, _⟩ => ⟨S128x4096, .f32⟩
  | .local _ .vmem, ⟨30, _⟩ => ⟨S128x4096, .f32⟩
  | .local _ .vmem, ⟨31, _⟩ => ⟨S128x4096, .f32⟩
  | .local _ .vmem, ⟨32, _⟩ => ⟨S4096x512, .bf16⟩
  | .local _ .vmem, ⟨33, _⟩ => ⟨S4096x512, .bf16⟩
  | .local _ .vmem, ⟨34, _⟩ => ⟨S128x512, .f32⟩
  | .local _ .vmem, ⟨35, _⟩ => ⟨S128x512, .f32⟩
  | .local _ .vmem, ⟨36, _⟩ => ⟨S128x512, .f32⟩
  | .local _ .vmem, ⟨37, _⟩ => ⟨S128x512, .f32⟩
  | .local _ .vmem, ⟨38, _⟩ => ⟨S1x512, .f32⟩
  | .local _ .vmem, ⟨39, _⟩ => ⟨S1x512, .f32⟩
  | .local _ .vmem, ⟨40, _⟩ => ⟨S128x512, .f32⟩
  | .local _ .vmem, ⟨41, _⟩ => ⟨S128x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc2_stg6_0 : Ref sig .tc := ⟨.vmem, 36, rfl⟩
abbrev cc2_stg6_1 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37
abbrev cc2_sem7_0 : DmaSem sig := 38
abbrev cc2_sem7_1 : DmaSem sig := 39
abbrev cc2_sem8_0 : DmaSem sig := 40
abbrev cc2_sem8_1 : DmaSem sig := 41

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S128x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S128x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S128x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S128x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S128x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S128x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S4096x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S128x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S128x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S1x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S128x512 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

class Facts₀ : Prop where
  slices_S2048x6144_S2048x2048_0_0 : S2048x6144.Slices ![0, 0] S2048x2048
  concatenates_S2048x2048_S2048x2048_S2048x4096_d1 : Shape.Concatenates [S2048x2048, S2048x2048] S2048x4096 1
  concatenates_S2048x4096_S2048x4096_S4096x4096_d0 : Shape.Concatenates [S2048x4096, S2048x4096] S4096x4096 0
  slices_S2048x6144_S2048x2048_0_2048 : S2048x6144.Slices ![0, 2048] S2048x2048
  slices_S2048x6144_S2048x2048_0_4096 : S2048x6144.Slices ![0, 4096] S2048x2048
  slices_S6144_S2048_0 : S6144.Slices ![0] S2048
  concatenates_S2048_S2048_S4096_d0 : Shape.Concatenates [S2048, S2048] S4096 0
  shapeCasts_S4096_S1x4096 : S4096.ShapeCasts S1x4096
  slices_S6144_S2048_2048 : S6144.Slices ![2048] S2048
  slices_S6144_S2048_4096 : S6144.Slices ![4096] S2048
  bitsLt_bf16_f32 : FTy.bits .bf16 < FTy.bits .f32
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  dot_S128x4096_S4096x512_S128x512_1_0_0_1_n_n_wf : DotDims.WF S128x4096 S4096x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S1024x4096.size a
  hwx0_0 : ∀ i : grid0.Coords, EltTy.bits .bf16 = 32 ∨ (Rect.block (s := S1024x4096) S128x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S1024x4096.size a
  hwx0_1 : ∀ i : grid0.Coords, EltTy.bits .bf16 = 32 ∨ (Rect.block (s := S1024x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x4096.size a
  hwx0_2 : ∀ i : grid0.Coords, EltTy.bits .bf16 = 32 ∨ (Rect.block (s := S4096x4096) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x4096.size a
  hwx0_3 : ∀ i : grid0.Coords, EltTy.bits .bf16 = 32 ∨ (Rect.block (s := S4096x4096) S4096x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S1024x4096.size a
  hwx0_5 : ∀ i : grid0.Coords, EltTy.bits .f32 = 32 ∨ (Rect.block (s := S1024x4096) S128x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S1024x4096.size a
  hwx1_0 : ∀ i : grid1.Coords, EltTy.bits .bf16 = 32 ∨ (Rect.block (s := S1024x4096) S128x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S1024x4096.size a
  hwx1_1 : ∀ i : grid1.Coords, EltTy.bits .bf16 = 32 ∨ (Rect.block (s := S1024x4096) S128x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x512.size a ≤ S4096x4096.size a
  hwx1_2 : ∀ i : grid1.Coords, EltTy.bits .bf16 = 32 ∨ (Rect.block (s := S4096x4096) S4096x512.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x512.size a ≤ S4096x4096.size a
  hwx1_3 : ∀ i : grid1.Coords, EltTy.bits .bf16 = 32 ∨ (Rect.block (s := S4096x4096) S4096x512.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x4096.size a
  hwx1_4 : ∀ i : grid1.Coords, EltTy.bits .f32 = 32 ∨ (Rect.block (s := S1x4096) S1x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x512.size a ≤ S1024x4096.size a
  hwx1_5 : ∀ i : grid1.Coords, EltTy.bits .f32 = 32 ∨ (Rect.block (s := S1024x4096) S128x512.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x4096.size a ≤ S1024x4096.size a
  hwx2_0 : ∀ i : grid2.Coords, EltTy.bits .bf16 = 32 ∨ (Rect.block (s := S1024x4096) S128x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x512.size a ≤ S4096x4096.size a
  hwx2_1 : ∀ i : grid2.Coords, EltTy.bits .bf16 = 32 ∨ (Rect.block (s := S4096x4096) S4096x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x4096.size a ≤ S1024x4096.size a
  hwx2_2 : ∀ i : grid2.Coords, EltTy.bits .f32 = 32 ∨ (Rect.block (s := S1024x4096) S128x4096.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S128x4096.size a ≤ S1024x4096.size a
  hwx2_3 : ∀ i : grid2.Coords, EltTy.bits .f32 = 32 ∨ (Rect.block (s := S1024x4096) S128x4096.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4096x512.size a ≤ S4096x4096.size a
  hwx2_4 : ∀ i : grid2.Coords, EltTy.bits .bf16 = 32 ∨ (Rect.block (s := S4096x4096) S4096x512.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S128x512.size a ≤ S1024x4096.size a
  hwx2_5 : ∀ i : grid2.Coords, EltTy.bits .f32 = 32 ∨ (Rect.block (s := S1024x4096) S128x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S128x512.size a ≤ S1024x4096.size a
  hwx2_6 : ∀ i : grid2.Coords, EltTy.bits .f32 = 32 ∨ (Rect.block (s := S1024x4096) S128x512.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x512.size a ≤ S1x4096.size a
  hwx2_7 : ∀ i : grid2.Coords, EltTy.bits .f32 = 32 ∨ (Rect.block (s := S1x4096) S1x512.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S128x512.size a ≤ S1024x4096.size a
  hwx2_8 : ∀ i : grid2.Coords, EltTy.bits .f32 = 32 ∨ (Rect.block (s := S1024x4096) S128x512.size (cc2_transform_8 i) (hinb2_8 i)).WholeWords (EltTy.packing .f32)

variable [Facts₀]

def dot_S128x4096_S4096x512_S128x512_1_0_0_1_n_n : DotDims S128x4096 S4096x512 S128x512 where
  lhsContracting := [1]
  rhsContracting := [0]
  lhsNonContracting := [0]
  rhsNonContracting := [1]
  lhsBatch := []
  rhsBatch := []
  wf := dot_S128x4096_S4096x512_S128x512_1_0_0_1_n_n_wf

abbrev win0_0 : Pipeline.Window sig grid0 :=
  Pipeline.Window.ofSpec (Memref.whole main_v54) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S4096x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v51) S4096x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v56) S128x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v54) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S4096x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S4096x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v57) S128x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S128x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S4096x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v57) S128x4096.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg1) S128x4096.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v53) S4096x512.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v56) S128x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg1) S128x512.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v47) S1x512.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_v58) S128x512.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S1024x4096 : Shape := ⟨2, ![1024, 4096]⟩
abbrev S2048x6144 : Shape := ⟨2, ![2048, 6144]⟩
abbrev S6144 : Shape := ⟨1, ![6144]⟩
abbrev S2048x2048 : Shape := ⟨2, ![2048, 2048]⟩
abbrev S2048x4096 : Shape := ⟨2, ![2048, 4096]⟩
abbrev S4096x4096 : Shape := ⟨2, ![4096, 4096]⟩
abbrev S2048 : Shape := ⟨1, ![2048]⟩
abbrev S4096 : Shape := ⟨1, ![4096]⟩
abbrev S1x4096 : Shape := ⟨2, ![1, 4096]⟩
abbrev S_ : Shape := ⟨0, ![]⟩

abbrev nBuf : Space → Nat
  | .hbm => 107
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S2048x6144, .f32⟩
  | .hbm, ⟨3, _⟩ => ⟨S2048x6144, .f32⟩
  | .hbm, ⟨4, _⟩ => ⟨S2048x6144, .f32⟩
  | .hbm, ⟨5, _⟩ => ⟨S2048x6144, .f32⟩
  | .hbm, ⟨6, _⟩ => ⟨S6144, .f32⟩
  | .hbm, ⟨7, _⟩ => ⟨S6144, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x4096, .f32⟩
  | .hbm, ⟨12, _⟩ => ⟨S2048x4096, .f32⟩
  | .hbm, ⟨13, _⟩ => ⟨S4096x4096, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x4096, .f32⟩
  | .hbm, ⟨18, _⟩ => ⟨S2048x4096, .f32⟩
  | .hbm, ⟨19, _⟩ => ⟨S4096x4096, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x4096, .f32⟩
  | .hbm, ⟨24, _⟩ => ⟨S2048x4096, .f32⟩
  | .hbm, ⟨25, _⟩ => ⟨S4096x4096, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x4096, .f32⟩
  | .hbm, ⟨30, _⟩ => ⟨S2048x4096, .f32⟩
  | .hbm, ⟨31, _⟩ => ⟨S4096x4096, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x4096, .f32⟩
  | .hbm, ⟨36, _⟩ => ⟨S2048x4096, .f32⟩
  | .hbm, ⟨37, _⟩ => ⟨S4096x4096, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x4096, .f32⟩
  | .hbm, ⟨42, _⟩ => ⟨S2048x4096, .f32⟩
  | .hbm, ⟨43, _⟩ => ⟨S4096x4096, .f32⟩
  | .hbm, ⟨44, _⟩ => ⟨S2048, .f32⟩
  | .hbm, ⟨45, _⟩ => ⟨S2048, .f32⟩
  | .hbm, ⟨46, _⟩ => ⟨S4096, .f32⟩
  | .hbm, ⟨47, _⟩ => ⟨S2048, .f32⟩
  | .hbm, ⟨48, _⟩ => ⟨S2048, .f32⟩
  | .hbm, ⟨49, _⟩ => ⟨S4096, .f32⟩
  | .hbm, ⟨50, _⟩ => ⟨S2048, .f32⟩
  | .hbm, ⟨51, _⟩ => ⟨S2048, .f32⟩
  | .hbm, ⟨52, _⟩ => ⟨S4096, .f32⟩
  | .hbm, ⟨53, _⟩ => ⟨S1024x4096, .f32⟩
  | .hbm, ⟨54, _⟩ => ⟨S1x4096, .f32⟩
  | .hbm, ⟨55, _⟩ => ⟨S1024x4096, .f32⟩
  | .hbm, ⟨56, _⟩ => ⟨S1024x4096, .f32⟩
  | .hbm, ⟨57, _⟩ => ⟨S1024x4096, .f32⟩
  | .hbm, ⟨58, _⟩ => ⟨S1x4096, .f32⟩
  | .hbm, ⟨59, _⟩ => ⟨S1024x4096, .f32⟩
  | .hbm, ⟨60, _⟩ => ⟨S1024x4096, .f32⟩
  | .hbm, ⟨61, _⟩ => ⟨S1024x4096, .f32⟩
  | .hbm, ⟨62, _⟩ => ⟨S1x4096, .f32⟩
  | .hbm, ⟨63, _⟩ => ⟨S1024x4096, .f32⟩
  | .hbm, ⟨64, _⟩ => ⟨S1024x4096, .f32⟩
  | .hbm, ⟨65, _⟩ => ⟨S1024x4096, .f32⟩
  | .hbm, ⟨66, _⟩ => ⟨S1024x4096, .f32⟩
  | .hbm, ⟨67, _⟩ => ⟨S_, .f32⟩
  | .hbm, ⟨68, _⟩ => ⟨S1024x4096, .f32⟩
  | .hbm, ⟨69, _⟩ => ⟨S1024x4096, .f32⟩
  | .hbm, ⟨70, _⟩ => ⟨S_, .f32⟩
  | .hbm, ⟨71, _⟩ => ⟨S1024x4096, .f32⟩
  | .hbm, ⟨72, _⟩ => ⟨S1024x4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1024x4096, .f32⟩
  | .hbm, ⟨77, _⟩ => ⟨S1024x4096, .f32⟩
  | .hbm, ⟨78, _⟩ => ⟨S_, .f32⟩
  | .hbm, ⟨79, _⟩ => ⟨S1024x4096, .f32⟩
  | .hbm, ⟨80, _⟩ => ⟨S1024x4096, .f32⟩
  | .hbm, ⟨81, _⟩ => ⟨S1024x4096, .f32⟩
  | .hbm, ⟨82, _⟩ => ⟨S1024x4096, .f32⟩
  | .hbm, ⟨83, _⟩ => ⟨S_, .f32⟩
  | .hbm, ⟨84, _⟩ => ⟨S1024x4096, .f32⟩
  | .hbm, ⟨85, _⟩ => ⟨S1024x4096, .f32⟩
  | .hbm, ⟨86, _⟩ => ⟨S_, .f32⟩
  | .hbm, ⟨87, _⟩ => ⟨S1024x4096, .f32⟩
  | .hbm, ⟨88, _⟩ => ⟨S1024x4096, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S1024x4096, .f32⟩
  | .hbm, ⟨93, _⟩ => ⟨S1024x4096, .f32⟩
  | .hbm, ⟨94, _⟩ => ⟨S_, .f32⟩
  | .hbm, ⟨95, _⟩ => ⟨S1024x4096, .f32⟩
  | .hbm, ⟨96, _⟩ => ⟨S1024x4096, .f32⟩
  | .hbm, ⟨97, _⟩ => ⟨S1024x4096, .f32⟩
  | .hbm, ⟨98, _⟩ => ⟨S1024x4096, .f32⟩
  | .hbm, ⟨99, _⟩ => ⟨S1024x4096, .f32⟩
  | .hbm, ⟨100, _⟩ => ⟨S1024x4096, .f32⟩
  | .hbm, ⟨101, _⟩ => ⟨S1024x4096, .f32⟩
  | .hbm, ⟨102, _⟩ => ⟨S_, .f32⟩
  | .hbm, ⟨103, _⟩ => ⟨S1024x4096, .f32⟩
  | .hbm, ⟨104, _⟩ => ⟨S1024x4096, .f32⟩
  | .hbm, ⟨105, _⟩ => ⟨S1024x4096, .f32⟩
  | .hbm, ⟨106, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_cst : Ref sig .tc := ⟨.hbm, 67, rfl⟩
abbrev main_v59 : Ref sig .tc := ⟨.hbm, 68, rfl⟩
abbrev main_v60 : Ref sig .tc := ⟨.hbm, 69, rfl⟩
abbrev main_cst_0 : Ref sig .tc := ⟨.hbm, 70, rfl⟩
abbrev main_v61 : Ref sig .tc := ⟨.hbm, 71, rfl⟩
abbrev main_v62 : Ref sig .tc := ⟨.hbm, 72, rfl⟩
abbrev main_cst_1 : Ref sig .tc := ⟨.hbm, 73, rfl⟩
abbrev main_cst_2 : Ref sig .tc := ⟨.hbm, 74, rfl⟩
abbrev main_call0_v0 : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_3 : Ref sig .tc := ⟨.hbm, 83, rfl⟩
abbrev main_v66 : Ref sig .tc := ⟨.hbm, 84, rfl⟩
abbrev main_v67 : Ref sig .tc := ⟨.hbm, 85, rfl⟩
abbrev main_cst_4 : Ref sig .tc := ⟨.hbm, 86, rfl⟩
abbrev main_v68 : Ref sig .tc := ⟨.hbm, 87, rfl⟩
abbrev main_v69 : Ref sig .tc := ⟨.hbm, 88, rfl⟩
abbrev main_cst_5 : Ref sig .tc := ⟨.hbm, 89, rfl⟩
abbrev main_cst_6 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_call1_v3 : Ref sig .tc := ⟨.hbm, 94, rfl⟩
abbrev main_call1_v4 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_7 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]

class Facts₀ : Prop where
  slices_S2048x6144_S2048x2048_0_0 : S2048x6144.Slices ![0, 0] S2048x2048
  concatenates_S2048x2048_S2048x2048_S2048x4096_d1 : Shape.Concatenates [S2048x2048, S2048x2048] S2048x4096 1
  concatenates_S2048x4096_S2048x4096_S4096x4096_d0 : Shape.Concatenates [S2048x4096, S2048x4096] S4096x4096 0
  slices_S2048x6144_S2048x2048_0_2048 : S2048x6144.Slices ![0, 2048] S2048x2048
  slices_S2048x6144_S2048x2048_0_4096 : S2048x6144.Slices ![0, 4096] S2048x2048
  slices_S6144_S2048_0 : S6144.Slices ![0] S2048
  concatenates_S2048_S2048_S4096_d0 : Shape.Concatenates [S2048, S2048] S4096 0
  slices_S6144_S2048_2048 : S6144.Slices ![2048] S2048
  slices_S6144_S2048_4096 : S6144.Slices ![4096] S2048
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  bcast_S_S1024x4096 : S_.BroadcastsInDim S1024x4096 (![] : Fin 0 → Fin S1024x4096.rank)
  dot_S1024x4096_S4096x4096_S1024x4096_1_0_0_1_n_n_wf : DotDims.WF S1024x4096 S4096x4096 S1024x4096 [1] [0] [0] [1] [] []

variable [Facts₀]

def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.Spec.lean ====
/-
  The value both programs compute, as one function of eleven arrays of extended reals.

  A complex-valued GRU cell in its real block form.  With x the input rows, h the previous state, and for each of
  the three gates a pair of square matrices (K on the input, R on the state) and a bias row b:

    gate K R b      = min 1 (max 0 (c₂ · ((x·K + h·R) + b) + c₅))         (a hard sigmoid; z and r)
    cand r K R b    = tanh ((x·K + (r ∘ h)·R) + b)                        (the candidate state)
    out             = z ∘ h + (1 − z) ∘ cand

  where x·K at (p, n) is the plain sum over the contracted axis, ∑ k, x p k * K k n, and ∘ is the entrywise product.
  The constants c₂, c₅, the clip bounds and the 1 are parameters here: both programs spell them by the same words,
  so nothing below depends on their values.

  The one law that joins the two programs is about three addends: one program adds the bias last,
  (x·K + h·R) + b, the other adds it in the middle, (x·K + b) + h·R.  Addition of extended reals is commutative
  and associative at the infinities too, so the two agree on every input (`pre_comm`); no finiteness is used.
-/
import Mathlib.Data.EReal.Basic
import Mathlib.Data.EReal.Operations
import Mathlib.Algebra.BigOperators.Group.Finset.Basic
import Mathlib.Algebra.BigOperators.Fin

noncomputable section

namespace Cert.Spec

variable {B D : ℕ}

/-- The matrix product at an entry: the plain sum over the contracted axis. -/
def dot (a : Fin B → Fin D → EReal) (w : Fin D → Fin D → EReal) (p : Fin B) (n : Fin D) : EReal :=
  ∑ k : Fin D, a p k * w k n

/-- A gate's argument with the bias added last: (x·K + h·R) + b. -/
def pre (x h : Fin B → Fin D → EReal) (K R : Fin D → Fin D → EReal) (b : Fin D → EReal) (p : Fin B) (n : Fin D) : EReal :=
  (dot x K p n + dot h R p n) + b n

/-- The same argument with the bias added in the middle: (x·K + b) + h·R. -/
def preMid (x h : Fin B → Fin D → EReal) (K R : Fin D → Fin D → EReal) (b : Fin D → EReal) (p : Fin B) (n : Fin D) : EReal :=
  (dot x K p n + b n) + dot h R p n

/-- The two groupings of the three addends agree on all extended reals. -/
theorem pre_comm (x h : Fin B → Fin D → EReal) (K R : Fin D → Fin D → EReal) (b : Fin D → EReal) (p : Fin B) (n : Fin D) :
    preMid x h K R b p n = pre x h K R b p n := by
  unfold preMid pre
  exact add_right_comm _ _ _

/-- The hard sigmoid of a gate: the affine map c₂ · s + c₅ clipped to [lo, hi], the lower bound applied first. -/
def gate (c₂ c₅ lo hi : EReal) (x h : Fin B → Fin D → EReal) (K R : Fin D → Fin D → EReal) (b : Fin D → EReal)
    (p : Fin B) (n : Fin D) : EReal :=
  min hi (max lo (c₂ * pre x h K R b p n + c₅))

/-- The candidate state: tanh of the argument whose state operand is the reset gate times the state, entrywise. -/
def cand (th : EReal → EReal) (x h r : Fin B → Fin D → EReal) (K R : Fin D → Fin D → EReal) (b : Fin D → EReal)
    (p : Fin B) (n : Fin D) : EReal :=
  th (pre x (fun p k => r p k * h p k) K R b p n)

/-- The new state: z ∘ h + (1 − z) ∘ cand, with z and r the two gates. -/
def out (th : EReal → EReal) (c₂ c₅ lo hi one : EReal) (x h : Fin B → Fin D → EReal)
    (Kz Rz Kr Rr Kh Rh : Fin D → Fin D → EReal) (bz br bh : Fin D → EReal) (p : Fin B) (n : Fin D) : EReal :=
  let z := gate c₂ c₅ lo hi x h Kz Rz bz
  let r := gate c₂ c₅ lo hi x h Kr Rr br
  z p n * h p n + (one - z p n) * cand th x h r Kh Rh bh p n

end Cert.Spec

end
-- ==== Proof.RefIsSpec.lean ====
/-
  The reference program computes the specification.

  The reference is a plain GRU cell over eight arrays: the input rows, the previous state, two pairs of weight
  arrays (one pair applied to the input, one to the state) and two bias arrays.  From each pair of weight arrays
  it cuts, for each of the three gates, two square windows A and B of 2048 columns and joins them into the
  4096 × 4096 block matrix [[A, −B], [B, A]] (the real form of a complex matrix A + iB); from the two bias arrays
  it cuts two windows of 2048 entries and lays them end to end.  These nine arrays are named below by the
  operations that build them and are never opened: every statement here reads them at an index and nothing more.

  With those nine arrays fixed, each entry of the result is a composition of entrywise operations and six matrix
  products, each product an ordinary sum over the contracted axis.  Reading the program stage by stage at an entry
  (p, n) gives the specification's `out` at (p, n), except that the program adds each bias between the two
  products, (x·K + b) + h·R, where the specification adds it last; the two groupings agree on all extended reals
  (`Cert.Spec.pre_comm`), so no finiteness is needed anywhere.
-/
import proofs.«115772_j51677046505498_1_alg».proof.Proof.Spec
import proofs.«115772_j51677046505498_1_alg».proof.Proof.Gen.ReferenceIdeal.Read
import Idealize.ShloMosaic.Lib.ValueIdx
import Idealize.ShloMosaic.PureOps.Ideal

noncomputable section

namespace Cert.RefSpec

open Cert.ReferenceIdeal Cert.ReferenceIdeal.Gen Idealize.ShloMosaic Idealize.ShloMosaic.TcCoe Idealize.SL.Sem Idealize.ShloMosaic.StableHlo
open Idealize.ShloMosaic.ValueIdx (ix1 ix2 eq_ix2)

/-! ## The nine arrays the host operations build -/

/-- The update gate's input matrix: the real block form [[A, −B], [B, A]] of columns 0 … 2047 of the two input-weight arrays. -/
def Kz (a2 a3 : FVec Ideal S2048x6144 .f32) : FVec Ideal S4096x4096 .f32 :=
  concatenate S4096x4096 0
    [⟨S2048x4096, concatenate S2048x4096 1 [⟨S2048x2048, extractStridedSlice S2048x2048 ![0, 0] a2 slices_S2048x6144_S2048x2048_0_0⟩, ⟨S2048x2048, Host.negf (F := Ideal) (extractStridedSlice S2048x2048 ![0, 0] a3 slices_S2048x6144_S2048x2048_0_0)⟩] concatenates_S2048x2048_S2048x2048_S2048x4096_d1⟩,
     ⟨S2048x4096, concatenate S2048x4096 1 [⟨S2048x2048, extractStridedSlice S2048x2048 ![0, 0] a3 slices_S2048x6144_S2048x2048_0_0⟩, ⟨S2048x2048, extractStridedSlice S2048x2048 ![0, 0] a2 slices_S2048x6144_S2048x2048_0_0⟩] concatenates_S2048x2048_S2048x2048_S2048x4096_d1⟩]
    concatenates_S2048x4096_S2048x4096_S4096x4096_d0

/-- The reset gate's input matrix: the same block form of columns 2048 … 4095. -/
def Kr (a2 a3 : FVec Ideal S2048x6144 .f32) : FVec Ideal S4096x4096 .f32 :=
  concatenate S4096x4096 0
    [⟨S2048x4096, concatenate S2048x4096 1 [⟨S2048x2048, extractStridedSlice S2048x2048 ![0, 2048] a2 slices_S2048x6144_S2048x2048_0_2048⟩, ⟨S2048x2048, Host.negf (F := Ideal) (extractStridedSlice S2048x2048 ![0, 2048] a3 slices_S2048x6144_S2048x2048_0_2048)⟩] concatenates_S2048x2048_S2048x2048_S2048x4096_d1⟩,
     ⟨S2048x4096, concatenate S2048x4096 1 [⟨S2048x2048, extractStridedSlice S2048x2048 ![0, 2048] a3 slices_S2048x6144_S2048x2048_0_2048⟩, ⟨S2048x2048, extractStridedSlice S2048x2048 ![0, 2048] a2 slices_S2048x6144_S2048x2048_0_2048⟩] concatenates_S2048x2048_S2048x2048_S2048x4096_d1⟩]
    concatenates_S2048x4096_S2048x4096_S4096x4096_d0

/-- The candidate's input matrix: the same block form of columns 4096 … 6143. -/
def Kh (a2 a3 : FVec Ideal S2048x6144 .f32) : FVec Ideal S4096x4096 .f32 :=
  concatenate S4096x4096 0
    [⟨S2048x4096, concatenate S2048x4096 1 [⟨S2048x2048, extractStridedSlice S2048x2048 ![0, 4096] a2 slices_S2048x6144_S2048x2048_0_4096⟩, ⟨S2048x2048, Host.negf (F := Ideal) (extractStridedSlice S2048x2048 ![0, 4096] a3 slices_S2048x6144_S2048x2048_0_4096)⟩] concatenates_S2048x2048_S2048x2048_S2048x4096_d1⟩,
     ⟨S2048x4096, concatenate S2048x4096 1 [⟨S2048x2048, extractStridedSlice S2048x2048 ![0, 4096] a3 slices_S2048x6144_S2048x2048_0_4096⟩, ⟨S2048x2048, extractStridedSlice S2048x2048 ![0, 4096] a2 slices_S2048x6144_S2048x2048_0_4096⟩] concatenates_S2048x2048_S2048x2048_S2048x4096_d1⟩]
    concatenates_S2048x4096_S2048x4096_S4096x4096_d0

/-- The update gate's state matrix: the block form [[A, −B], [B, A]] of columns 0 … 2047 of the two state-weight arrays. -/
def Rz (a4 a5 : FVec Ideal S2048x6144 .f32) : FVec Ideal S4096x4096 .f32 :=
  concatenate S4096x4096 0
    [⟨S2048x4096, concatenate S2048x4096 1 [⟨S2048x2048, extractStridedSlice S2048x2048 ![0, 0] a4 slices_S2048x6144_S2048x2048_0_0⟩, ⟨S2048x2048, Host.negf (F := Ideal) (extractStridedSlice S2048x2048 ![0, 0] a5 slices_S2048x6144_S2048x2048_0_0)⟩] concatenates_S2048x2048_S2048x2048_S2048x4096_d1⟩,
     ⟨S2048x4096, concatenate S2048x4096 1 [⟨S2048x2048, extractStridedSlice S2048x2048 ![0, 0] a5 slices_S2048x6144_S2048x2048_0_0⟩, ⟨S2048x2048, extractStridedSlice S2048x2048 ![0, 0] a4 slices_S2048x6144_S2048x2048_0_0⟩] concatenates_S2048x2048_S2048x2048_S2048x4096_d1⟩]
    concatenates_S2048x4096_S2048x4096_S4096x4096_d0

/-- The reset gate's state matrix: columns 2048 … 4095. -/
def Rr (a4 a5 : FVec Ideal S2048x6144 .f32) : FVec Ideal S4096x4096 .f32 :=
  concatenate S4096x4096 0
    [⟨S2048x4096, concatenate S2048x4096 1 [⟨S2048x2048, extractStridedSlice S2048x2048 ![0, 2048] a4 slices_S2048x6144_S2048x2048_0_2048⟩, ⟨S2048x2048, Host.negf (F := Ideal) (extractStridedSlice S2048x2048 ![0, 2048] a5 slices_S2048x6144_S2048x2048_0_2048)⟩] concatenates_S2048x2048_S2048x2048_S2048x4096_d1⟩,
     ⟨S2048x4096, concatenate S2048x4096 1 [⟨S2048x2048, extractStridedSlice S2048x2048 ![0, 2048] a5 slices_S2048x6144_S2048x2048_0_2048⟩, ⟨S2048x2048, extractStridedSlice S2048x2048 ![0, 2048] a4 slices_S2048x6144_S2048x2048_0_2048⟩] concatenates_S2048x2048_S2048x2048_S2048x4096_d1⟩]
    concatenates_S2048x4096_S2048x4096_S4096x4096_d0

/-- The candidate's state matrix: columns 4096 … 6143. -/
def Rh (a4 a5 : FVec Ideal S2048x6144 .f32) : FVec Ideal S4096x4096 .f32 :=
  concatenate S4096x4096 0
    [⟨S2048x4096, concatenate S2048x4096 1 [⟨S2048x2048, extractStridedSlice S2048x2048 ![0, 4096] a4 slices_S2048x6144_S2048x2048_0_4096⟩, ⟨S2048x2048, Host.negf (F := Ideal) (extractStridedSlice S2048x2048 ![0, 4096] a5 slices_S2048x6144_S2048x2048_0_4096)⟩] concatenates_S2048x2048_S2048x2048_S2048x4096_d1⟩,
     ⟨S2048x4096, concatenate S2048x4096 1 [⟨S2048x2048, extractStridedSlice S2048x2048 ![0, 4096] a5 slices_S2048x6144_S2048x2048_0_4096⟩, ⟨S2048x2048, extractStridedSlice S2048x2048 ![0, 4096] a4 slices_S2048x6144_S2048x2048_0_4096⟩] concatenates_S2048x2048_S2048x2048_S2048x4096_d1⟩]
    concatenates_S2048x4096_S2048x4096_S4096x4096_d0

/-- The update gate's bias row: entries 0 … 2047 of the two bias arrays, one after the other. -/
def bz (a6 a7 : FVec Ideal S6144 .f32) : FVec Ideal S4096 .f32 :=
  concatenate S4096 0 [⟨S2048, extractStridedSlice S2048 ![0] a6 slices_S6144_S2048_0⟩, ⟨S2048, extractStridedSlice S2048 ![0] a7 slices_S6144_S2048_0⟩] concatenates_S2048_S2048_S4096_d0

/-- The reset gate's bias row: entries 2048 … 4095 of each. -/
def br (a6 a7 : FVec Ideal S6144 .f32) : FVec Ideal S4096 .f32 :=
  concatenate S4096 0 [⟨S2048, extractStridedSlice S2048 ![2048] a6 slices_S6144_S2048_2048⟩, ⟨S2048, extractStridedSlice S2048 ![2048] a7 slices_S6144_S2048_2048⟩] concatenates_S2048_S2048_S4096_d0

/-- The candidate's bias row: entries 4096 … 6143 of each. -/
def bh (a6 a7 : FVec Ideal S6144 .f32) : FVec Ideal S4096 .f32 :=
  concatenate S4096 0 [⟨S2048, extractStridedSlice S2048 ![4096] a6 slices_S6144_S2048_4096⟩, ⟨S2048, extractStridedSlice S2048 ![4096] a7 slices_S6144_S2048_4096⟩] concatenates_S2048_S2048_S4096_d0

/-! Each is the stage of the same name in the generated reading of the program. -/

theorem Kz_eq (a2 a3 : FVec Ideal S2048x6144 .f32) : Read.val_main_v5 (F := Ideal) a2 a3 = Kz a2 a3 := rfl
theorem Kr_eq (a2 a3 : FVec Ideal S2048x6144 .f32) : Read.val_main_v11 (F := Ideal) a2 a3 = Kr a2 a3 := rfl
theorem Kh_eq (a2 a3 : FVec Ideal S2048x6144 .f32) : Read.val_main_v17 (F := Ideal) a2 a3 = Kh a2 a3 := rfl
theorem Rz_eq (a4 a5 : FVec Ideal S2048x6144 .f32) : Read.val_main_v23 (F := Ideal) a4 a5 = Rz a4 a5 := rfl
theorem Rr_eq (a4 a5 : FVec Ideal S2048x6144 .f32) : Read.val_main_v29 (F := Ideal) a4 a5 = Rr a4 a5 := rfl
theorem Rh_eq (a4 a5 : FVec Ideal S2048x6144 .f32) : Read.val_main_v35 (F := Ideal) a4 a5 = Rh a4 a5 := rfl
theorem bz_eq (a6 a7 : FVec Ideal S6144 .f32) : Read.val_main_v38 (F := Ideal) a6 a7 = bz a6 a7 := rfl
theorem br_eq (a6 a7 : FVec Ideal S6144 .f32) : Read.val_main_v41 (F := Ideal) a6 a7 = br a6 a7 := rfl
theorem bh_eq (a6 a7 : FVec Ideal S6144 .f32) : Read.val_main_v44 (F := Ideal) a6 a7 = bh a6 a7 := rfl

/-! ## The specification at the program's arrays -/

/-- The specification's new state over the two data arrays read by their two coordinates, the six block
    matrices and the three bias rows; the scale 0.2, the offset 0.5, the clip bounds 0 and 1 and the 1 of
    1 − z are the program's own words, kept as words. -/
def spec (a0 a1 : FVec Ideal S1024x4096 .f32) (a2 a3 a4 a5 : FVec Ideal S2048x6144 .f32) (a6 a7 : FVec Ideal S6144 .f32) :
    FVec Ideal S1024x4096 .f32 := fun i =>
  Cert.Spec.out Ideal.tanh (Ideal.ofBits .f32 0x3E4CCCCD#32) (Ideal.ofBits .f32 0x3F000000#32) (Ideal.ofBits .f32 0x00000000#32) (Ideal.ofBits .f32 0x3F800000#32) (Ideal.ofBits .f32 0x3F800000#32)
    (fun (p : Fin 1024) (k : Fin 4096) => a0 (ix2 p k)) (fun (p : Fin 1024) (k : Fin 4096) => a1 (ix2 p k))
    (fun (k n : Fin 4096) => Kz a2 a3 (ix2 k n)) (fun (k n : Fin 4096) => Rz a4 a5 (ix2 k n))
    (fun (k n : Fin 4096) => Kr a2 a3 (ix2 k n)) (fun (k n : Fin 4096) => Rr a4 a5 (ix2 k n))
    (fun (k n : Fin 4096) => Kh a2 a3 (ix2 k n)) (fun (k n : Fin 4096) => Rh a4 a5 (ix2 k n))
    (fun (n : Fin 4096) => bz a6 a7 (ix1 n)) (fun (n : Fin 4096) => br a6 a7 (ix1 n)) (fun (n : Fin 4096) => bh a6 a7 (ix1 n)) (i 0) (i 1)

theorem spec_apply (a0 a1 : FVec Ideal S1024x4096 .f32) (a2 a3 a4 a5 : FVec Ideal S2048x6144 .f32) (a6 a7 : FVec Ideal S6144 .f32)
    (p : Fin 1024) (n : Fin 4096) :
    spec a0 a1 a2 a3 a4 a5 a6 a7 (ix2 p n) =
      Cert.Spec.out Ideal.tanh (Ideal.ofBits .f32 0x3E4CCCCD#32) (Ideal.ofBits .f32 0x3F000000#32) (Ideal.ofBits .f32 0x00000000#32) (Ideal.ofBits .f32 0x3F800000#32) (Ideal.ofBits .f32 0x3F800000#32)
        (fun (p : Fin 1024) (k : Fin 4096) => a0 (ix2 p k)) (fun (p : Fin 1024) (k : Fin 4096) => a1 (ix2 p k))
        (fun (k n : Fin 4096) => Kz a2 a3 (ix2 k n)) (fun (k n : Fin 4096) => Rz a4 a5 (ix2 k n))
        (fun (k n : Fin 4096) => Kr a2 a3 (ix2 k n)) (fun (k n : Fin 4096) => Rr a4 a5 (ix2 k n))
        (fun (k n : Fin 4096) => Kh a2 a3 (ix2 k n)) (fun (k n : Fin 4096) => Rh a4 a5 (ix2 k n))
        (fun (n : Fin 4096) => bz a6 a7 (ix1 n)) (fun (n : Fin 4096) => br a6 a7 (ix1 n)) (fun (n : Fin 4096) => bh a6 a7 (ix1 n)) p n := rfl

/-! ## Reading the stages at an entry -/

section
variable (a0 a1 : FVec Ideal S1024x4096 .f32) (a2 a3 a4 a5 : FVec Ideal S2048x6144 .f32) (a6 a7 : FVec Ideal S6144 .f32)

/-- A product's sum at the entry (p, n), once its two index functions are known to pick row p of the left
    operand and column n of the right, is the specification's `dot`. -/
theorem dot_read (x : FVec Ideal S1024x4096 .f32) (W : FVec Ideal S4096x4096 .f32) (p : Fin 1024) (n : Fin 4096)
    (l : Fin 4096 → S1024x4096.Idx) (r : Fin 4096 → S4096x4096.Idx)
    (hl : ∀ k, l k = ix2 p k) (hr : ∀ k, r k = ix2 k n) :
    (∑ k : Fin 4096, x (l k) * W (r k)) =
      Cert.Spec.dot (fun (p : Fin 1024) (k : Fin 4096) => x (ix2 p k)) (fun (k n : Fin 4096) => W (ix2 k n)) p n := by
  unfold Cert.Spec.dot
  exact Finset.sum_congr rfl fun k _ => by rw [hl k, hr k]

/-- The six matrix products. -/
theorem v45_read (p : Fin 1024) (n : Fin 4096) :
    Read.val_main_v45 (F := Ideal) a0 a2 a3 (ix2 p n) = Cert.Spec.dot (fun (p : Fin 1024) (k : Fin 4096) => a0 (ix2 p k)) (fun (k n : Fin 4096) => Kz a2 a3 (ix2 k n)) p n := by
  rw [Read.val_main_v45_apply, Kz_eq]
  exact dot_read a0 (Kz a2 a3) p n _ _ (fun k => funext fun a => Fin.ext (by match a with | ⟨0, _⟩ => rfl | ⟨1, _⟩ => rfl)) (fun k => funext fun a => Fin.ext (by match a with | ⟨0, _⟩ => rfl | ⟨1, _⟩ => rfl))

theorem v49_read (p : Fin 1024) (n : Fin 4096) :
    Read.val_main_v49 (F := Ideal) a0 a2 a3 (ix2 p n) = Cert.Spec.dot (fun (p : Fin 1024) (k : Fin 4096) => a0 (ix2 p k)) (fun (k n : Fin 4096) => Kr a2 a3 (ix2 k n)) p n := by
  rw [Read.val_main_v49_apply, Kr_eq]
  exact dot_read a0 (Kr a2 a3) p n _ _ (fun k => funext fun a => Fin.ext (by match a with | ⟨0, _⟩ => rfl | ⟨1, _⟩ => rfl)) (fun k => funext fun a => Fin.ext (by match a with | ⟨0, _⟩ => rfl | ⟨1, _⟩ => rfl))

theorem v53_read (p : Fin 1024) (n : Fin 4096) :
    Read.val_main_v53 (F := Ideal) a0 a2 a3 (ix2 p n) = Cert.Spec.dot (fun (p : Fin 1024) (k : Fin 4096) => a0 (ix2 p k)) (fun (k n : Fin 4096) => Kh a2 a3 (ix2 k n)) p n := by
  rw [Read.val_main_v53_apply, Kh_eq]
  exact dot_read a0 (Kh a2 a3) p n _ _ (fun k => funext fun a => Fin.ext (by match a with | ⟨0, _⟩ => rfl | ⟨1, _⟩ => rfl)) (fun k => funext fun a => Fin.ext (by match a with | ⟨0, _⟩ => rfl | ⟨1, _⟩ => rfl))

theorem v57_read (p : Fin 1024) (n : Fin 4096) :
    Read.val_main_v57 (F := Ideal) a1 a4 a5 (ix2 p n) = Cert.Spec.dot (fun (p : Fin 1024) (k : Fin 4096) => a1 (ix2 p k)) (fun (k n : Fin 4096) => Rz a4 a5 (ix2 k n)) p n := by
  rw [Read.val_main_v57_apply, Rz_eq]
  exact dot_read a1 (Rz a4 a5) p n _ _ (fun k => funext fun a => Fin.ext (by match a with | ⟨0, _⟩ => rfl | ⟨1, _⟩ => rfl)) (fun k => funext fun a => Fin.ext (by match a with | ⟨0, _⟩ => rfl | ⟨1, _⟩ => rfl))

theorem v64_read (p : Fin 1024) (n : Fin 4096) :
    Read.val_main_v64 (F := Ideal) a1 a4 a5 (ix2 p n) = Cert.Spec.dot (fun (p : Fin 1024) (k : Fin 4096) => a1 (ix2 p k)) (fun (k n : Fin 4096) => Rr a4 a5 (ix2 k n)) p n := by
  rw [Read.val_main_v64_apply, Rr_eq]
  exact dot_read a1 (Rr a4 a5) p n _ _ (fun k => funext fun a => Fin.ext (by match a with | ⟨0, _⟩ => rfl | ⟨1, _⟩ => rfl)) (fun k => funext fun a => Fin.ext (by match a with | ⟨0, _⟩ => rfl | ⟨1, _⟩ => rfl))

/-- The three bias rows, each spread over the rows of the result: the entry (p, n) reads entry n. -/
theorem v47_read (p : Fin 1024) (n : Fin 4096) :
    Read.val_main_v47 (F := Ideal) a6 a7 (ix2 p n) = bz a6 a7 (ix1 n) := by
  rw [Read.val_main_v47_apply, Read.val_main_v46_apply, bz_eq]
  exact congrArg (bz a6 a7) (funext fun a => Fin.ext (by match a with | ⟨0, _⟩ => rfl))

theorem v51_read (p : Fin 1024) (n : Fin 4096) :
    Read.val_main_v51 (F := Ideal) a6 a7 (ix2 p n) = br a6 a7 (ix1 n) := by
  rw [Read.val_main_v51_apply, Read.val_main_v50_apply, br_eq]
  exact congrArg (br a6 a7) (funext fun a => Fin.ext (by match a with | ⟨0, _⟩ => rfl))

theorem v55_read (p : Fin 1024) (n : Fin 4096) :
    Read.val_main_v55 (F := Ideal) a6 a7 (ix2 p n) = bh a6 a7 (ix1 n) := by
  rw [Read.val_main_v55_apply, Read.val_main_v54_apply, bh_eq]
  exact congrArg (bh a6 a7) (funext fun a => Fin.ext (by match a with | ⟨0, _⟩ => rfl))

/-- The constants, each spread over the whole result. -/
theorem v59_read (i : S1024x4096.Idx) : Read.val_main_v59 (F := Ideal) i = Ideal.ofBits .f32 0x3E4CCCCD#32 := by
  rw [Read.val_main_v59_apply, Read.val_main_cst_apply]; rfl
theorem v61_read (i : S1024x4096.Idx) : Read.val_main_v61 (F := Ideal) i = Ideal.ofBits .f32 0x3F000000#32 := by
  rw [Read.val_main_v61_apply, Read.val_main_cst_0_apply]; rfl
theorem v66_read (i : S1024x4096.Idx) : Read.val_main_v66 (F := Ideal) i = Ideal.ofBits .f32 0x3E4CCCCD#32 := by
  rw [Read.val_main_v66_apply, Read.val_main_cst_3_apply]; rfl
theorem v68_read (i : S1024x4096.Idx) : Read.val_main_v68 (F := Ideal) i = Ideal.ofBits .f32 0x3F000000#32 := by
  rw [Read.val_main_v68_apply, Read.val_main_cst_4_apply]; rfl
theorem v76_read (i : S1024x4096.Idx) : Read.val_main_v76 (F := Ideal) i = Ideal.ofBits .f32 0x3F800000#32 := by
  rw [Read.val_main_v76_apply, Read.val_main_cst_7_apply]; rfl
theorem lo0_read (i : S1024x4096.Idx) : Read.val_main_call0_v1 (F := Ideal) i = Ideal.ofBits .f32 0x00000000#32 := by
  rw [Read.val_main_call0_v1_apply, Read.val_main_call0_v0_apply, Read.val_main_cst_1_apply]; rfl
theorem hi0_read (i : S1024x4096.Idx) : Read.val_main_call0_v4 (F := Ideal) i = Ideal.ofBits .f32 0x3F800000#32 := by
  rw [Read.val_main_call0_v4_apply, Read.val_main_call0_v3_apply, Read.val_main_cst_2_apply]; rfl
theorem lo1_read (i : S1024x4096.Idx) : Read.val_main_call1_v1 (F := Ideal) i = Ideal.ofBits .f32 0x00000000#32 := by
  rw [Read.val_main_call1_v1_apply, Read.val_main_call1_v0_apply, Read.val_main_cst_5_apply]; rfl
theorem hi1_read (i : S1024x4096.Idx) : Read.val_main_call1_v4 (F := Ideal) i = Ideal.ofBits .f32 0x3F800000#32 := by
  rw [Read.val_main_call1_v4_apply, Read.val_main_call1_v3_apply, Read.val_main_cst_6_apply]; rfl

/-- The update gate z: the clipped affine image of (x·Kz + bz) + h·Rz, which is the gate of the specification
    by the regrouping of the three addends. -/
theorem v63_read (p : Fin 1024) (n : Fin 4096) :
    Read.val_main_v63 (F := Ideal) a0 a1 a2 a3 a4 a5 a6 a7 (ix2 p n) = Cert.Spec.gate (Ideal.ofBits .f32 0x3E4CCCCD#32) (Ideal.ofBits .f32 0x3F000000#32) (Ideal.ofBits .f32 0x00000000#32) (Ideal.ofBits .f32 0x3F800000#32) (fun (p : Fin 1024) (k : Fin 4096) => a0 (ix2 p k)) (fun (p : Fin 1024) (k : Fin 4096) => a1 (ix2 p k)) (fun (k n : Fin 4096) => Kz a2 a3 (ix2 k n)) (fun (k n : Fin 4096) => Rz a4 a5 (ix2 k n)) (fun (n : Fin 4096) => bz a6 a7 (ix1 n)) p n := by
  rw [Read.val_main_v63_apply, hi0_read, Read.val_main_call0_v2_apply, lo0_read, Read.val_main_v62_apply,
    Read.val_main_v60_apply, v59_read, v61_read, Read.val_main_v58_apply, Read.val_main_v48_apply,
    v45_read, v47_read, v57_read]
  unfold Cert.Spec.gate
  rw [← Cert.Spec.pre_comm]
  rfl

/-- The reset gate r, in the same way. -/
theorem v70_read (p : Fin 1024) (n : Fin 4096) :
    Read.val_main_v70 (F := Ideal) a0 a1 a2 a3 a4 a5 a6 a7 (ix2 p n) = Cert.Spec.gate (Ideal.ofBits .f32 0x3E4CCCCD#32) (Ideal.ofBits .f32 0x3F000000#32) (Ideal.ofBits .f32 0x00000000#32) (Ideal.ofBits .f32 0x3F800000#32) (fun (p : Fin 1024) (k : Fin 4096) => a0 (ix2 p k)) (fun (p : Fin 1024) (k : Fin 4096) => a1 (ix2 p k)) (fun (k n : Fin 4096) => Kr a2 a3 (ix2 k n)) (fun (k n : Fin 4096) => Rr a4 a5 (ix2 k n)) (fun (n : Fin 4096) => br a6 a7 (ix1 n)) p n := by
  rw [Read.val_main_v70_apply, hi1_read, Read.val_main_call1_v2_apply, lo1_read, Read.val_main_v69_apply,
    Read.val_main_v67_apply, v66_read, v68_read, Read.val_main_v65_apply, Read.val_main_v52_apply,
    v49_read, v51_read, v64_read]
  unfold Cert.Spec.gate
  rw [← Cert.Spec.pre_comm]
  rfl

/-- The candidate: tanh of (x·Kh + bh) + (r ∘ h)·Rh. -/
theorem v74_read (p : Fin 1024) (n : Fin 4096) :
    Read.val_main_v74 (F := Ideal) a0 a1 a2 a3 a4 a5 a6 a7 (ix2 p n) =
      Cert.Spec.cand Ideal.tanh (fun (p : Fin 1024) (k : Fin 4096) => a0 (ix2 p k)) (fun (p : Fin 1024) (k : Fin 4096) => a1 (ix2 p k)) (Cert.Spec.gate (Ideal.ofBits .f32 0x3E4CCCCD#32) (Ideal.ofBits .f32 0x3F000000#32) (Ideal.ofBits .f32 0x00000000#32) (Ideal.ofBits .f32 0x3F800000#32) (fun (p : Fin 1024) (k : Fin 4096) => a0 (ix2 p k)) (fun (p : Fin 1024) (k : Fin 4096) => a1 (ix2 p k)) (fun (k n : Fin 4096) => Kr a2 a3 (ix2 k n)) (fun (k n : Fin 4096) => Rr a4 a5 (ix2 k n)) (fun (n : Fin 4096) => br a6 a7 (ix1 n))) (fun (k n : Fin 4096) => Kh a2 a3 (ix2 k n)) (fun (k n : Fin 4096) => Rh a4 a5 (ix2 k n)) (fun (n : Fin 4096) => bh a6 a7 (ix1 n)) p n := by
  have e72 : Read.val_main_v72 (F := Ideal) a0 a1 a2 a3 a4 a5 a6 a7 (ix2 p n) =
      Cert.Spec.dot (fun (p : Fin 1024) (k : Fin 4096) => (Cert.Spec.gate (Ideal.ofBits .f32 0x3E4CCCCD#32) (Ideal.ofBits .f32 0x3F000000#32) (Ideal.ofBits .f32 0x00000000#32) (Ideal.ofBits .f32 0x3F800000#32) (fun (p : Fin 1024) (k : Fin 4096) => a0 (ix2 p k)) (fun (p : Fin 1024) (k : Fin 4096) => a1 (ix2 p k)) (fun (k n : Fin 4096) => Kr a2 a3 (ix2 k n)) (fun (k n : Fin 4096) => Rr a4 a5 (ix2 k n)) (fun (n : Fin 4096) => br a6 a7 (ix1 n))) p k * a1 (ix2 p k)) (fun (k n : Fin 4096) => Rh a4 a5 (ix2 k n)) p n := by
    rw [Read.val_main_v72_apply, Rh_eq]
    refine (dot_read (Read.val_main_v71 (F := Ideal) a0 a1 a2 a3 a4 a5 a6 a7) (Rh a4 a5) p n _ _ (fun k => funext fun a => Fin.ext (by match a with | ⟨0, _⟩ => rfl | ⟨1, _⟩ => rfl)) (fun k => funext fun a => Fin.ext (by match a with | ⟨0, _⟩ => rfl | ⟨1, _⟩ => rfl))).trans ?_
    refine congrArg (fun x => Cert.Spec.dot x (fun (k n : Fin 4096) => Rh a4 a5 (ix2 k n)) p n) ?_
    funext p k
    rw [Read.val_main_v71_apply, v70_read]
    rfl
  rw [Read.val_main_v74_apply, Read.val_main_v73_apply, Read.val_main_v56_apply, v53_read, v55_read, e72]
  unfold Cert.Spec.cand
  rw [← Cert.Spec.pre_comm]
  rfl

end

/-! ## The reference is the specification -/

/-- The last stage of the program, as a function of the eight argument arrays, is the specification. -/
theorem ref_is_spec (a0 a1 : FVec Ideal S1024x4096 .f32) (a2 a3 a4 a5 : FVec Ideal S2048x6144 .f32) (a6 a7 : FVec Ideal S6144 .f32) :
    Read.val_main_v79 (F := Ideal) a0 a1 a2 a3 a4 a5 a6 a7 = spec a0 a1 a2 a3 a4 a5 a6 a7 := by
  funext i
  obtain ⟨p, n, rfl⟩ : ∃ (p : Fin 1024) (n : Fin 4096), i = ix2 p n := ⟨i 0, i 1, eq_ix2 i⟩
  rw [spec_apply, Read.val_main_v79_apply, Read.val_main_v75_apply, Read.val_main_v78_apply, Read.val_main_v77_apply,
    v76_read, v63_read, v74_read]
  rfl

/-- The same about the term the generated run names: on every device the run's result is the specification of
    the argument arrays as the run found them. -/
theorem res_is_spec (m : (ℓ : Loc nD τ sig) → Buf (Elt Ideal) ℓ) (c : Dev nD) :
    Cert.ReferenceIdeal.Value.res_main_v79 (F := Ideal) m c =
      spec (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7)) :=
  (Read.val_main_v79_eq m c).trans (ref_is_spec _ _ _ _ _ _ _ _)

end Cert.RefSpec

end
-- ==== Proof.K.Gate0.lean ====
/-
  The class-A half of pipeline 0 of @main (the first gate kernel), at any float instance.

  The body reads each of its five input blocks whole, reads the output buffer once without using the value, and
  stores one payload over the whole output block. So what it leaves in the output buffer is a closed function of
  the five input blocks at the point, and what it finds in an input buffer is that window's block at the point,
  whether or not the block was fetched at that point (the two weight windows and the bias window move only when
  the outer grid coordinate does).
-/
import proofs.«115772_j51677046505498_1_alg».proof.Proof.Gen.Kernel.Launch
import proofs.«115772_j51677046505498_1_alg».proof.Proof.Gen.Kernel.Skeleton
import proofs.«115772_j51677046505498_1_alg».proof.Proof.Gen.Kernel.Points
import Idealize.ShloMosaic.Lib.Pipeline.FrameBody
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The blocks -/

/-- The block of window `w` at grid point `t`: the part of the window's array, as the region finds it, that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes: each one a whole block -/

abbrev whole0_x : Rect S128x4096 := Rect.unit (s := S128x4096) ![0, 0] S128x4096.size inb_S128x4096_S128x4096_0_0
abbrev whole0_k : Rect S4096x512 := Rect.unit (s := S4096x512) ![0, 0] S4096x512.size inb_S4096x512_S4096x512_0_0
abbrev whole0_b : Rect S1x512 := Rect.unit (s := S1x512) ![0, 0] S1x512.size inb_S1x512_S1x512_0_0
abbrev whole0_o : Rect S128x512 := Rect.unit (s := S128x512) ![0, 0] S128x512.size inb_S128x512_S128x512_0_0

/-! ## The output block the body leaves -/

/-- What the body leaves in the output buffer, from the contents `x0 … x4` of input windows 0 … 4: the payload of its
    one store, laid over the whole block. The payload takes the loads in program order, which is windows
    0, 2, 1, 3, 4. -/
def out0_5 (x0 : Vec F S128x4096 .bf16) (x1 : Vec F S128x4096 .bf16) (x2 x3 : Vec F S4096x512 .bf16) (x4 : Vec F S1x512 .f32) : Vec F S128x512 .f32 :=
  View.canon [⟨whole0_o, k0_pay1 (View.ld x0 whole0_x) (View.ld x2 whole0_k) (View.ld x1 whole0_x) (View.ld x3 whole0_k) (View.ld x4 whole0_b)⟩]

/-- One store of the whole block covers the block: a tiling by a single tile. -/
theorem covers0_5 (p : Vec F S128x512 .f32) (y : S128x512.Idx) :
    ∃ pc ∈ ([⟨whole0_o, p⟩] : List (View.Piece (Elt F) S128x512 .f32)), y ∈ pc.1.set :=
  View.cover_of_tiled [⟨whole0_o, p⟩] S128x512.size (by rfl) y

/-! ## The body on its six buffers -/

set_option maxHeartbeats 1000000 in
/-- Run on six whole buffers, the five inputs reading `x0 … x4` and the output holding anything, the body ends with the
    inputs unchanged and the output reading `out0_5 x0 x1 x2 x3 x4`. The function is first replaced by its
    skeleton over the named payload; the skeleton is then run operation by operation, and what the output buffer
    reads after the single covering store is the canonical contents of that store. -/
theorem sound_kernel0 (c : Dev nD) (E : Set ℕ) (i : grid0.Coords)
    (arg2 : Memref sig .tc .vmem S128x4096 .bf16) (harg2 : arg2.IsWhole) (arg3 : Memref sig .tc .vmem S128x4096 .bf16) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S1x512 .f32) (harg6 : arg6.IsWhole) (arg7 : Memref sig .tc .vmem S128x512 .f32) (harg7 : arg7.IsWhole)
    (x0 x1 : Vec F S128x4096 .bf16) (x2 x3 : Vec F S4096x512 .bf16) (x4 : Vec F S1x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E
          (cc0__gate_kernel i arg2 harg2 arg3 harg3 arg4 harg4 arg5 harg5 arg6 harg6 arg7 harg7) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers0_5 _)

/-! ## The proof data of the pipeline -/

/-- The data of pipeline 0 on core `c`: the windowed arrays as the region finds them; after the body at point
    `t`, every input buffer still at its block and the output buffer at `out0_5` of the five input blocks; the
    invariant that of a body which touches nothing but its windows; nothing owed; every share full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The arrays of the data are the contents at region entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by
  dsimp only [dat0]

/-! ## What the body finds in an input buffer

An input window whose body leaves the block in place holds, at every point, the block a fetch at that point would
bring — also at a point where nothing was fetched, because there the block index has not moved since the point
before, whose block the buffer still holds. The windows are uncut and never idle, so the fetched contents are the
block itself. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The body obligation -/

/-- What the body is handed at point `t`: the invariant, what the core owes, and each window's current buffer at what
    it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input buffer holds its block, so the run of the body on six buffers applies; the
    invariant and what the core owes are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Gate1.lean ====
/-
  The class-A half of pipeline 1 of @main (the second gate kernel), at any float instance.

  The body reads each of its five input blocks whole, reads the output buffer once without using the value, and
  stores one payload over the whole output block. So what it leaves in the output buffer is a closed function of
  the five input blocks at the point, and what it finds in an input buffer is that window's block at the point,
  whether or not the block was fetched at that point (the two weight windows and the bias window move only when
  the outer grid coordinate does).
-/
import proofs.«115772_j51677046505498_1_alg».proof.Proof.Gen.Kernel.Launch
import proofs.«115772_j51677046505498_1_alg».proof.Proof.Gen.Kernel.Skeleton
import proofs.«115772_j51677046505498_1_alg».proof.Proof.Gen.Kernel.Points
import Idealize.ShloMosaic.Lib.Pipeline.FrameBody
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The blocks -/

/-- The block of window `w` at grid point `t`: the part of the window's array, as the region finds it, that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes: each one a whole block -/

abbrev whole1_x : Rect S128x4096 := Rect.unit (s := S128x4096) ![0, 0] S128x4096.size inb_S128x4096_S128x4096_0_0
abbrev whole1_k : Rect S4096x512 := Rect.unit (s := S4096x512) ![0, 0] S4096x512.size inb_S4096x512_S4096x512_0_0
abbrev whole1_b : Rect S1x512 := Rect.unit (s := S1x512) ![0, 0] S1x512.size inb_S1x512_S1x512_0_0
abbrev whole1_o : Rect S128x512 := Rect.unit (s := S128x512) ![0, 0] S128x512.size inb_S128x512_S128x512_0_0

/-! ## The output block the body leaves -/

/-- What the body leaves in the output buffer, from the contents `x0 … x4` of input windows 0 … 4: the payload of its
    one store, laid over the whole block. The payload takes the loads in program order, which is windows
    0, 2, 1, 3, 4. -/
def out1_5 (x0 : Vec F S128x4096 .bf16) (x1 : Vec F S128x4096 .bf16) (x2 x3 : Vec F S4096x512 .bf16) (x4 : Vec F S1x512 .f32) : Vec F S128x512 .f32 :=
  View.canon [⟨whole1_o, k1_pay1 (View.ld x0 whole1_x) (View.ld x2 whole1_k) (View.ld x1 whole1_x) (View.ld x3 whole1_k) (View.ld x4 whole1_b)⟩]

/-- One store of the whole block covers the block: a tiling by a single tile. -/
theorem covers1_5 (p : Vec F S128x512 .f32) (y : S128x512.Idx) :
    ∃ pc ∈ ([⟨whole1_o, p⟩] : List (View.Piece (Elt F) S128x512 .f32)), y ∈ pc.1.set :=
  View.cover_of_tiled [⟨whole1_o, p⟩] S128x512.size (by rfl) y

/-! ## The body on its six buffers -/

set_option maxHeartbeats 1000000 in
/-- Run on six whole buffers, the five inputs reading `x0 … x4` and the output holding anything, the body ends with the
    inputs unchanged and the output reading `out1_5 x0 x1 x2 x3 x4`. The function is first replaced by its
    skeleton over the named payload; the skeleton is then run operation by operation, and what the output buffer
    reads after the single covering store is the canonical contents of that store. -/
theorem sound_kernel1 (c : Dev nD) (E : Set ℕ) (i : grid1.Coords)
    (arg2 : Memref sig .tc .vmem S128x4096 .bf16) (harg2 : arg2.IsWhole) (arg3 : Memref sig .tc .vmem S128x4096 .bf16) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S1x512 .f32) (harg6 : arg6.IsWhole) (arg7 : Memref sig .tc .vmem S128x512 .f32) (harg7 : arg7.IsWhole)
    (x0 x1 : Vec F S128x4096 .bf16) (x2 x3 : Vec F S4096x512 .bf16) (x4 : Vec F S1x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E
          (cc1__gate_kernel i arg2 harg2 arg3 harg3 arg4 harg4 arg5 harg5 arg6 harg6 arg7 harg7) K := by
  simp only [cc1__gate_kernel_eq_skeleton]; unfold cc1__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers1_5 _)

/-! ## The proof data of the pipeline -/

/-- The data of pipeline 1 on core `c`: the windowed arrays as the region finds them; after the body at point
    `t`, every input buffer still at its block and the output buffer at `out1_5` of the five input blocks; the
    invariant that of a body which touches nothing but its windows; nothing owed; every share full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The arrays of the data are the contents at region entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by
  dsimp only [dat1]

/-! ## What the body finds in an input buffer

An input window whose body leaves the block in place holds, at every point, the block a fetch at that point would
bring — also at a point where nothing was fetched, because there the block index has not moved since the point
before, whose block the buffer still holds. The windows are uncut and never idle, so the fetched contents are the
block itself. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The body obligation -/

/-- What the body is handed at point `t`: the invariant, what the core owes, and each window's current buffer at what
    it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: each input buffer holds its block, so the run of the body on six buffers applies; the
    invariant and what the core owes are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Hh2.lean ====
/-
  The third kernel region (the candidate state and the final combine), seen from one core, at any float instance.

  The region has nine windows.  Eight are read: the input rows x (window 0), the candidate's input matrix (1), the
  reset gate r (2), the previous state h as full rows (3), the candidate's state matrix (4), the update gate z (5),
  the previous state h once more as a tile (6) and the bias row (7).  Window 8 is written.  Windows 3 and 6 read
  ONE array: the core holds the left half of its share through window 3 and the right half through window 6, which
  is enough for reading.

  At a grid point the body loads each input block whole and stores, whole, one value computed from them
  (`out2_8`): z ∘ h + (1 − z) ∘ tanh ((x·K + (r ∘ h)·R) + b) on the blocks.  It leaves every input block in place,
  so an input buffer holds its array's block at every point, whether the pipeline fetched it there or the block
  index did not move.  The invariant carried from point to point is only what the body never touches.
-/
import proofs.«115772_j51677046505498_1_alg».proof.Proof.Gen.Kernel.Launch
import proofs.«115772_j51677046505498_1_alg».proof.Proof.Gen.Kernel.Skeleton
import proofs.«115772_j51677046505498_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window whose body leaves the block in place holds its block at every point. -/
theorem before2_of {c : Dev nD} (dat : Dat τ (Elt F) Unit ℕ (UR sig nD τ) ℕ cfg2 c) (w : Fin cfg2.W)
    (hin : (cfg2.win w).isOut = false) (hlive : ∀ i, cfg2.idle w i = false)
    (hclip : ∀ t t' : Fin cfg2.N, (cfg2.win w).index t = (cfg2.win w).index t' →
      (cfg2.win w).clip (cfg2.grid.coords t) = (cfg2.win w).clip (cfg2.grid.coords t'))
    (hkeep : ∀ t, (cfg2.win w).cut (cfg2.grid.coords t) (dat.after w t) = dat.blockOf w t)
    (t : Fin cfg2.N) (d) : dat.before w t d = dat.fetched w t d :=
  dat.before_in_eq_fetched w hin hlive hclip hkeep t d

/-! ## The body's accesses: every load and the store take a whole buffer -/

abbrev rRow : Rect S128x4096 := Rect.unit (s := S128x4096) ![0, 0] S128x4096.size inb_S128x4096_S128x4096_0_0
abbrev rMat : Rect S4096x512 := Rect.unit (s := S4096x512) ![0, 0] S4096x512.size inb_S4096x512_S4096x512_0_0
abbrev rBias : Rect S1x512 := Rect.unit (s := S1x512) ![0, 0] S1x512.size inb_S1x512_S1x512_0_0
abbrev rTile : Rect S128x512 := Rect.unit (s := S128x512) ![0, 0] S128x512.size inb_S128x512_S128x512_0_0

/-! ## What the body leaves in the output window's buffer -/

/-- Window 8's buffer after the body, from the eight input blocks (in window order): its one store. -/
def out2_8 (x0 : Vec F S128x4096 .bf16) (x1 : Vec F S4096x512 .bf16) (x2 x3 : Vec F S128x4096 .f32)
    (x4 : Vec F S4096x512 .bf16) (x5 x6 : Vec F S128x512 .f32) (x7 : Vec F S1x512 .f32) : Vec F S128x512 .f32 :=
  View.canon [⟨rTile, k2_pay1 (View.ld x2 rRow) (View.ld x3 rRow) (View.ld x0 rRow) (View.ld x1 rMat) (View.ld x4 rMat)
    (View.ld x7 rBias) (View.ld x5 rTile) (View.ld x6 rTile)⟩]

/-- The one store covers the buffer. -/
theorem cover2_8 (p0 : Vec F S128x512 .f32) (y : S128x512.Idx) :
    ∃ pc ∈ ([⟨rTile, p0⟩] : List (View.Piece (Elt F) S128x512 .f32)), y ∈ pc.1.set :=
  View.cover_of_tiled [⟨rTile, p0⟩] S128x512.size (by rfl) y

/-! ## The body's triple -/

set_option maxHeartbeats 2000000 in
/-- On whole staging memrefs, the inputs' at read contents `xW` and the output's at anything, the body runs to the
    continuation holding the inputs' as they were and the output's at `out2_8` of the inputs'. -/
theorem sound_kernel2 (c : Dev nD) (E : Set ℕ) (i : grid2.Coords)
    (arg2 : Memref sig .tc .vmem S128x4096 .bf16) (harg2 : arg2.IsWhole) (arg3 : Memref sig .tc .vmem S4096x512 .bf16) (harg3 : arg3.IsWhole)
    (arg4 : Memref sig .tc .vmem S128x4096 .f32) (harg4 : arg4.IsWhole) (arg5 : Memref sig .tc .vmem S128x4096 .f32) (harg5 : arg5.IsWhole)
    (arg6 : Memref sig .tc .vmem S4096x512 .bf16) (harg6 : arg6.IsWhole) (arg7 : Memref sig .tc .vmem S128x512 .f32) (harg7 : arg7.IsWhole)
    (arg8 : Memref sig .tc .vmem S128x512 .f32) (harg8 : arg8.IsWhole) (arg9 : Memref sig .tc .vmem S1x512 .f32) (harg9 : arg9.IsWhole)
    (arg10 : Memref sig .tc .vmem S128x512 .f32) (harg10 : arg10.IsWhole)
    (x0 : Vec F S128x4096 .bf16) (x1 : Vec F S4096x512 .bf16) (x2 x3 : Vec F S128x4096 .f32)
    (x4 : Vec F S4096x512 .bf16) (x5 x6 : Vec F S128x512 .f32) (x7 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (out2_8 x0 x1 x2 x3 x4 x5 x6 x7)) -∗ K ⟨⟩))
      ⊢ wp frame (wpE (defs₀ (F := F)) Variants.none c none) E
          (cc2__hh_kernel i arg2 harg2 arg3 harg3 arg4 harg4 arg5 harg5 arg6 harg6 arg7 harg7 arg8 harg8 arg9 harg9 arg10 harg10) K := by
  simp only [cc2__hh_kernel_eq_skeleton]; unfold cc2__hh_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The region's proof data -/

/-- The proof data on core `c`: the arrays as the region finds them; after the body each input's buffer at its
    block and the output's at `out2_8` of the input blocks; the invariant only what the body never touches; nothing
    owed; every array held whole except the one read twice, whose share is halved between windows 3 and 6. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q w := match w with
    | ⟨0, _⟩ => fullShare
    | ⟨1, _⟩ => fullShare
    | ⟨2, _⟩ => fullShare
    | ⟨3, _⟩ => fullShare.left
    | ⟨4, _⟩ => fullShare
    | ⟨5, _⟩ => fullShare
    | ⟨6, _⟩ => fullShare.right
    | ⟨7, _⟩ => fullShare
    | ⟨8, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t =
    out2_8 (iblk2 V c 0 t) (iblk2 V c 1 t) (iblk2 V c 2 t) (iblk2 V c 3 t) (iblk2 V c 4 t) (iblk2 V c 5 t) (iblk2 V c 6 t) (iblk2 V c 7 t) := by
  dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Vals.lean ====
/-
  The buffer contents between the items of the program's run, on every core.

  After the host stretch a core's unscoped buffers are at the generated valuation.  Each kernel region changes that
  valuation at one buffer only, its output: after region 0 the update gate's buffer holds what the region's write-backs
  leave (`res0`), after region 1 the reset gate's (`res1`), after region 2 the result's (`res2`); each region is
  entered from the valuation the one before it left, and its proof data are stated at that valuation.  An input
  array is never written, so at a region's exit every array but the output holds what the region found.
-/
import proofs.«115772_j51677046505498_1_alg».proof.Proof.Gen.Kernel.Regions
import proofs.«115772_j51677046505498_1_alg».proof.Proof.K.Gate0
import proofs.«115772_j51677046505498_1_alg».proof.Proof.K.Gate1
import proofs.«115772_j51677046505498_1_alg».proof.Proof.K.Hh2
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each region's entry and exit -/

/-- A valuation read at the TensorCore's references. -/
abbrev atTc (W : Dev nD → Valuation τ sig (Elt F)) : (c : Dev nD) → (b : Ref sig .tc) → Buf (Elt F) ((c : Thread nD τ).loc b) :=
  fun c b => W c b

/-- After the host stretch: region 0's entry. -/
abbrev W1 (c : Dev nD) : Valuation τ sig (Elt F) := V1 m c
/-- What region 0's write-backs leave in the update gate's buffer. -/
def res0 (c : Dev nD) : Buf (Elt F) ((c : Thread nD τ).loc main_v56) := (dat0 (atTc (W1 m)) c).arrAt 5 cfg0.N
/-- After region 0: region 1's entry. -/
def W2 (c : Dev nD) : Valuation τ sig (Elt F) := Function.update (W1 m c) main_v56 (res0 m c)
/-- What region 1's write-backs leave in the reset gate's buffer. -/
def res1 (c : Dev nD) : Buf (Elt F) ((c : Thread nD τ).loc main_v57) := (dat1 (atTc (W2 m)) c).arrAt 5 cfg1.N
/-- After region 1: region 2's entry. -/
def W3 (c : Dev nD) : Valuation τ sig (Elt F) := Function.update (W2 m c) main_v57 (res1 m c)
/-- What region 2's write-backs leave in the result's buffer. -/
def res2 (c : Dev nD) : Buf (Elt F) ((c : Thread nD τ).loc main_v58) := (dat2 (atTc (W3 m)) c).arrAt 8 cfg2.N
/-- After region 2: the end. -/
def W4 (c : Dev nD) : Valuation τ sig (Elt F) := Function.update (W3 m c) main_v58 (res2 m c)

/-- What the regions leave, as the generated valuations take it. -/
def outs : Outs (F := F) := fun J r c => match J with
  | 2 => W2 m c r
  | 3 => W3 m c r
  | 4 => W4 m c r
  | _ => W1 m c r

theorem V2_eq (c : Dev nD) : V2 m (outs m) c = W2 m c := by
  show Function.update (V1 m c) _ (W2 m c _) = W2 m c
  unfold W2; rw [Function.update_self]
theorem V3_eq (c : Dev nD) : V3 m (outs m) c = W3 m c := by
  show Function.update (V2 m (outs m) c) _ (W3 m c _) = W3 m c
  rw [V2_eq]; unfold W3; rw [Function.update_self]
theorem V4_eq (c : Dev nD) : V4 m (outs m) c = W4 m c := by
  show Function.update (V3 m (outs m) c) _ (W4 m c _) = W4 m c
  rw [V3_eq]; unfold W4; rw [Function.update_self]

/-! ## The proof data family and the rest state -/

/-- Every pipeline's proof data, each at its region's entry contents. -/
def pdats : (p : Fin 3) → (c : Dev nD) → Dat τ (Elt F) Unit ℕ (UR sig nD τ) ℕ (cfgs p) c
  | ⟨0, _⟩ => fun c => dat0 (atTc (W1 m)) c
  | ⟨1, _⟩ => fun c => dat1 (atTc (W2 m)) c
  | ⟨2, _⟩ => fun c => dat2 (atTc (W3 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

/-! ## Each region's arrays at its exit -/

theorem ne56 (b : Ref sig .tc) (h : b ≠ main_v56) : (Proc.devRef .tc b : DevRef τ sig) ≠ Proc.devRef .tc main_v56 := StableHlo.devRef_ne_of_ne h
theorem ne57 (b : Ref sig .tc) (h : b ≠ main_v57) : (Proc.devRef .tc b : DevRef τ sig) ≠ Proc.devRef .tc main_v57 := StableHlo.devRef_ne_of_ne h
theorem ne58 (b : Ref sig .tc) (h : b ≠ main_v58) : (Proc.devRef .tc b : DevRef τ sig) ≠ Proc.devRef .tc main_v58 := StableHlo.devRef_ne_of_ne h

/-- An input array is never written: at a region's exit it holds what the region found; the output's array holds
    what the write-backs leave.  Every other buffer is as the region found it. -/
theorem in_of_ne0 : ∀ w : Fin 6, w ≠ 5 → (cfg0.win w).isOut = false := by decide
theorem arr_ne0 : ∀ w : Fin 6, w ≠ 5 → Pipeline.arrRef spec0 w ≠ main_v56 := by decide
theorem hF0 (c : Dev nD) (w : Fin cfg0.W) : (dat0 (atTc (W1 m)) c).arrAt w cfg0.N = atTc (W2 m) c (Pipeline.arrRef spec0 w) := by
  by_cases hw : w = 5
  · subst hw; exact (Function.update_self (main_v56 : DevRef τ sig) (res0 m c) (W1 m c)).symm
  · exact (((dat0 (atTc (W1 m)) c).arrAt_in w (in_of_ne0 w hw) _).trans (A_eq0 (atTc (W1 m)) c w)).trans
      (Function.update_of_ne (ne56 _ (arr_ne0 w hw)) _ _).symm
theorem hrest0 (c : Dev nD) : ∀ b, b ∉ Finset.univ.image (Pipeline.arrRef spec0) → atTc (W2 m) c b = atTc (W1 m) c b :=
  fun b hb => Function.update_of_ne (ne56 b fun e => hb (Finset.mem_image.mpr ⟨5, Finset.mem_univ _, e.symm⟩)) _ _

theorem in_of_ne1 : ∀ w : Fin 6, w ≠ 5 → (cfg1.win w).isOut = false := by decide
theorem arr_ne1 : ∀ w : Fin 6, w ≠ 5 → Pipeline.arrRef spec1 w ≠ main_v57 := by decide
theorem hF1 (c : Dev nD) (w : Fin cfg1.W) : (dat1 (atTc (W2 m)) c).arrAt w cfg1.N = atTc (W3 m) c (Pipeline.arrRef spec1 w) := by
  by_cases hw : w = 5
  · subst hw; exact (Function.update_self (main_v57 : DevRef τ sig) (res1 m c) (W2 m c)).symm
  · exact (((dat1 (atTc (W2 m)) c).arrAt_in w (in_of_ne1 w hw) _).trans (A_eq1 (atTc (W2 m)) c w)).trans
      (Function.update_of_ne (ne57 _ (arr_ne1 w hw)) _ _).symm
theorem hrest1 (c : Dev nD) : ∀ b, b ∉ Finset.univ.image (Pipeline.arrRef spec1) → atTc (W3 m) c b = atTc (W2 m) c b :=
  fun b hb => Function.update_of_ne (ne57 b fun e => hb (Finset.mem_image.mpr ⟨5, Finset.mem_univ _, e.symm⟩)) _ _

theorem in_of_ne2 : ∀ w : Fin 9, w ≠ 8 → (cfg2.win w).isOut = false := by decide
theorem arr_ne2 : ∀ w : Fin 9, w ≠ 8 → Pipeline.arrRef spec2 w ≠ main_v58 := by decide
theorem hF2 (c : Dev nD) (w : Fin cfg2.W) : (dat2 (atTc (W3 m)) c).arrAt w cfg2.N = atTc (W4 m) c (Pipeline.arrRef spec2 w) := by
  by_cases hw : w = 8
  · subst hw; exact (Function.update_self (main_v58 : DevRef τ sig) (res2 m c) (W3 m c)).symm
  · exact (((dat2 (atTc (W3 m)) c).arrAt_in w (in_of_ne2 w hw) _).trans (A_eq2 (atTc (W3 m)) c w)).trans
      (Function.update_of_ne (ne58 _ (arr_ne2 w hw)) _ _).symm
theorem hrest2 (c : Dev nD) : ∀ b, b ∉ Finset.univ.image (Pipeline.arrRef spec2) → atTc (W4 m) c b = atTc (W3 m) c b :=
  fun b hb => Function.update_of_ne (ne58 b fun e => hb (Finset.mem_image.mpr ⟨8, Finset.mem_univ _, e.symm⟩)) _ _

end Cert.Kernel.Hand

end
-- ==== Proof.K.Share2.lean ====
/-
  The third region's arrays and the buffers behind them.

  Nine windows stand on eight buffers: windows 3 and 6 both read the previous state.  Holding the eight buffers whole
  is the same as holding the nine windows' arrays at the region's shares: seven windows take their buffer whole, and
  the buffer read twice is split along its share, the left half to window 3 and the right half to window 6; at the
  exit the two halves, still at the same contents, join back into the whole.  With that, the region's arrays come
  out of a core's unscoped buffers at its entry and go back among them at its exit, the other buffers untouched.
-/
import proofs.«115772_j51677046505498_1_alg».proof.Proof.K.Hh2
import Idealize.ShloMosaic.Lib.Pipeline.Kit
import Idealize.ShloMosaic.Lib.Pipeline.Regions

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The share each window's array is held at. -/
theorem share2_0 (c : Dev nD) : (dat2 V c).share 0 = fullShare := rfl
theorem share2_1 (c : Dev nD) : (dat2 V c).share 1 = fullShare := rfl
theorem share2_2 (c : Dev nD) : (dat2 V c).share 2 = fullShare := rfl
theorem share2_3 (c : Dev nD) : (dat2 V c).share 3 = fullShare.left := rfl
theorem share2_4 (c : Dev nD) : (dat2 V c).share 4 = fullShare := rfl
theorem share2_5 (c : Dev nD) : (dat2 V c).share 5 = fullShare := rfl
theorem share2_6 (c : Dev nD) : (dat2 V c).share 6 = fullShare.right := rfl
theorem share2_7 (c : Dev nD) : (dat2 V c).share 7 = fullShare := rfl
theorem share2_8 (c : Dev nD) : (dat2 V c).share 8 = fullShare := rfl

/-- The buffers behind the windows' arrays, one by one (window 6 stands on window 3's buffer). -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc (Pipeline.arrRef spec2 0)) ↦{fullShare} W (Pipeline.arrRef spec2 0))
          ∗ (((c : Thread nD τ).loc (Pipeline.arrRef spec2 1)) ↦{fullShare} W (Pipeline.arrRef spec2 1))
          ∗ (((c : Thread nD τ).loc (Pipeline.arrRef spec2 2)) ↦{fullShare} W (Pipeline.arrRef spec2 2))
          ∗ (((c : Thread nD τ).loc (Pipeline.arrRef spec2 3)) ↦{fullShare} W (Pipeline.arrRef spec2 3))
          ∗ (((c : Thread nD τ).loc (Pipeline.arrRef spec2 4)) ↦{fullShare} W (Pipeline.arrRef spec2 4))
          ∗ (((c : Thread nD τ).loc (Pipeline.arrRef spec2 5)) ↦{fullShare} W (Pipeline.arrRef spec2 5))
          ∗ (((c : Thread nD τ).loc (Pipeline.arrRef spec2 7)) ↦{fullShare} W (Pipeline.arrRef spec2 7))
          ∗ (((c : Thread nD τ).loc (Pipeline.arrRef spec2 8)) ↦{fullShare} W (Pipeline.arrRef spec2 8))) := by
  unfold Pipeline.arrBufs
  exact bigSep_eq_bigSepL_of_eq [Pipeline.arrRef spec2 0, Pipeline.arrRef spec2 1, Pipeline.arrRef spec2 2, Pipeline.arrRef spec2 3,
    Pipeline.arrRef spec2 4, Pipeline.arrRef spec2 5, Pipeline.arrRef spec2 7, Pipeline.arrRef spec2 8] (by decide) (by decide) _

/-- A window's array is a whole buffer: its view's points-to is the buffer's, at any share. -/
theorem arr2_pt (c : Dev nD) (w : Fin cfg2.W) (q : PosShare TreeShare) (g : Buf (Elt F) ((cfg2.win w).arr.view.loc (c : Thread nD τ))) :
    ((cfg2.win w).arr.view.loc (c : Thread nD τ) ↦[(cfg2.win w).arr.view.set]{q} g : sProp 𝕄)
      = (((c : Thread nD τ).loc (Pipeline.arrRef spec2 w)) ↦{q} g) := by
  rw [(arr_whole2 w).set_eq_univ]

/-- Two names of one buffer: a points-to at the one is a points-to at the other. -/
theorem pt_of_ref_eq (c : Dev nD) {r r' : Ref sig .tc} (h : r = r') (q : PosShare TreeShare)
    (W : (b : Ref sig .tc) → Buf (Elt F) ((c : Thread nD τ).loc b)) :
    ((((c : Thread nD τ).loc r) ↦{q} W r) : sProp 𝕄) = (((c : Thread nD τ).loc r') ↦{q} W r') := by
  subst h; rfl

/-- Windows 3 and 6 stand on one buffer. -/
theorem arr2_3_6 : Pipeline.arrRef spec2 3 = Pipeline.arrRef spec2 6 := by decide

/-- The windows' arrays, at contents read off `W`, as a star over the windows of points-tos at the buffers: each
    window's array is a whole buffer.  (Stated and proved at a variable window.) -/
theorem arrays2_bufs_form (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    ((dat2 V c).arrays G : sProp 𝕄)
      = bigSep Finset.univ fun w : Fin cfg2.W =>
          ((((c : Thread nD τ).loc (Pipeline.arrRef spec2 w)) ↦{(dat2 V c).share w} W (Pipeline.arrRef spec2 w)) : sProp 𝕄) := by
  unfold Dat.arrays
  exact bigSep_congr fun w _ => by rw [arr2_pt c w, hG w]

/-- Split: the eight buffers whole, at contents `W`, make the nine windows' arrays at contents read off `W`. -/
theorem arrays2_of_bufs (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    (Pipeline.arrBufs (Ix := Unit) (Name := ℕ) (U := UR sig nD τ) (Lvl := ℕ) spec2 c W : sProp 𝕄) ⊢ (dat2 V c).arrays G := by
  rw [arrays2_bufs_form V c W G hG, arrBufs2_eq, bigSep_W2, share2_0, share2_1, share2_2, share2_3, share2_4, share2_5, share2_6, share2_7, share2_8]
  iintro ⟨H0, H1, H2, Ha, H4, H5, H7, H8⟩
  ihave Hs := (pointsTo_share (PosShare.mem_left_op_right fullShare)).1 $$ Ha
  icases Hs with ⟨Hl, Hr⟩
  ihave Hr := (Entails.of_eq (pt_of_ref_eq c arr2_3_6 fullShare.right W)) $$ Hr
  isplitl [H0]; · iexact H0
  isplitl [H1]; · iexact H1
  isplitl [H2]; · iexact H2
  isplitl [Hl]; · iexact Hl
  isplitl [H4]; · iexact H4
  isplitl [H5]; · iexact H5
  isplitl [Hr]; · iexact Hr
  isplitl [H7]; · iexact H7
  iexact H8

/-- Join: the nine windows' arrays at contents read off `W` make the eight buffers whole at `W`. -/
theorem bufs_of_arrays2 (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    ((dat2 V c).arrays G : sProp 𝕄) ⊢ Pipeline.arrBufs (Ix := Unit) (Name := ℕ) (U := UR sig nD τ) (Lvl := ℕ) spec2 c W := by
  rw [arrays2_bufs_form V c W G hG, arrBufs2_eq, bigSep_W2, share2_0, share2_1, share2_2, share2_3, share2_4, share2_5, share2_6, share2_7, share2_8]
  iintro ⟨H0, H1, H2, Hl, H4, H5, Hr, H7, H8⟩
  ihave Hr := (Entails.of_eq (pt_of_ref_eq c arr2_3_6.symm fullShare.right W)) $$ Hr
  ihave Ha := (pointsTo_share (PosShare.mem_left_op_right fullShare)).2 $$ [Hl Hr]
  · isplitl [Hl]; · iexact Hl
    iexact Hr
  isplitl [H0]; · iexact H0
  isplitl [H1]; · iexact H1
  isplitl [H2]; · iexact H2
  isplitl [Ha]; · iexact Ha
  isplitl [H4]; · iexact H4
  isplitl [H5]; · iexact H5
  isplitl [H7]; · iexact H7
  iexact H8

/-- ENTRY: a core's unscoped buffers at `W` are the region's arrays at their entry contents and the other unscoped
    buffers at `W`. -/
theorem arrays2_of_unscopedBufs (c : Dev nD) (W : (b : Ref sig .tc) → Buf (Elt F) ((c : Thread nD τ).loc b))
    (hA : ∀ w, (dat2 V c).A w = W (Pipeline.arrRef spec2 w)) :
    (unscopedBufs c W : sProp 𝕄) ⊢ iprop((dat2 V c).arrays ((dat2 V c).arrAt · 0) ∗ Pipeline.unscopedRest spec2 c W) := by
  rw [Pipeline.unscopedBufs_split₀ cfgs 2 winFacts₀2.arr_unscoped c W]
  exact sep_mono (arrays2_of_bufs V c W _ fun w => (show (dat2 V c).arrAt w 0 = (dat2 V c).A w from rfl).trans (hA w)) .rfl

/-- EXIT: the region's arrays at contents `G` and the other unscoped buffers at `W` are the core's unscoped
    buffers at any `W'` that has the arrays at `G` and agrees with `W` off them. -/
theorem unscopedBufs_of_arrays2 (c : Dev nD) (W W' : (b : Ref sig .tc) → Buf (Elt F) ((c : Thread nD τ).loc b))
    (G : (w : Fin cfg2.W) → Buf (Elt F) ((cfg2.win w).arr.view.loc (c : Thread nD τ))) (hG : ∀ w, G w = W' (Pipeline.arrRef spec2 w))
    (hrest : ∀ b, b ∉ Finset.univ.image (Pipeline.arrRef spec2) → W' b = W b) :
    iprop((dat2 V c).arrays G ∗ Pipeline.unscopedRest spec2 c W) ⊢ (unscopedBufs c W' : sProp 𝕄) := by
  rw [Pipeline.unscopedBufs_split₀ cfgs 2 winFacts₀2.arr_unscoped c W']
  refine sep_mono (bufs_of_arrays2 V c W' G hG) (Entails.of_eq ?_)
  unfold Pipeline.unscopedRest
  exact bigSep_congr fun b hb => by rw [hrest b (Finset.mem_sdiff.mp hb).2]

end Cert.Kernel.Hand

end
-- ==== Proof.K.Records.lean ====
/-
  The three kernel regions as segments of the program's run, and the run.

  Between two items a core holds every unscoped buffer at a known valuation beside a rest: its generator register at
  some state, and nothing owed.  A region takes its windows' arrays out of the unscoped buffers at its entry and puts
  them back at its exit at the valuation updated at its output; the generator register goes through the region's
  invariant and comes back; the region owes nothing and has no semaphore of its own.  Regions 0 and 1 stand on distinct
  buffers.  Region 2 reads one buffer through two windows, so its arrays are split off and joined back along that
  buffer's share.

  The program is the host stretch followed by the three regions.  Composing the four segments: from any memory with
  zero counters every weakly fair execution terminates, nothing faults, and in the final memory every unscoped buffer
  holds the last valuation's contents.  The arguments are written by no item, and the result's buffer holds what
  region 2's write-backs leave.
-/
import proofs.«115772_j51677046505498_1_alg».proof.Proof.K.Vals
import proofs.«115772_j51677046505498_1_alg».proof.Proof.K.Share2
import Idealize.ShloMosaic.Lib.Pipeline.RegionsLoop
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The regions as segments -/

set_option backward.isDefEq.respectTransparency.types false in
/-- Region 0: entered from every unscoped buffer at `W1`, left at `W2`.  Its six arrays are distinct buffers: they
    come out of the unscoped buffers whole and go back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`.  Its six arrays are distinct buffers: they
    come out of the unscoped buffers whole and go back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (atTc (W2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W2 m) c) (atTc (W3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without what the core owes: every unscoped buffer at the last valuation, the generator
    register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- Region 2: entered from every unscoped buffer at `W3`, left at `W4`.  Its nine windows stand on eight buffers:
    the arrays come out of the unscoped buffers with the twice-read buffer's share halved, and go back joined. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (atTc (W3 m)) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (atTc (W3 m) c)
  hentry c := by
    rw [Pipeline.ownSems0_none]
    have hsplit := arrays2_of_unscopedBufs (atTc (W3 m)) c (atTc (W3 m) c) fun w => A_eq2 (atTc (W3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (atTc (W3 m)) c (atTc (W3 m) c) (atTc (W4 m) c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN.  From any memory with zero counters every weakly fair execution of the program terminates, nothing
    faulting, and every final memory holds each unscoped buffer at the last valuation's contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit_dev (pcfgs (F := F)) adm (pdats m) () cellOf_inj emb₁ defs₀ 𝒱₀ L lv m ρ main
    (segs m 𝒱₀ L lv (E (F := F)) () (pdats m) (reg0 m) (reg1 m) (reg2 m))
    (fun c Q => by
      rewrite [main_chain c, Pipeline.Seg.run_eq_chain,
        show (segs m 𝒱₀ L lv (E (F := F)) () (pdats m) (reg0 m) (reg1 m) (reg2 m) c).map Pipeline.Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- At the end the result's buffer holds what region 2's write-backs leave. -/
theorem W4_res (c : Dev nD) : W4 m c main_v58 = res2 m c := by
  unfold W4; exact Function.update_self (main_v58 : DevRef τ sig) (res2 m c) (W3 m c)

/-- No item writes an argument: at the end each holds its launch contents. -/
theorem W4_arg (c : Dev nD) (r : Ref sig .tc) (h : V4 m (outs m) c r = m ((c : Thread nD τ).loc r)) :
    W4 m c r = m ((c : Thread nD τ).loc r) := by rw [← V4_eq]; exact h

/-- THE FRAME, at any float instance: the program runs to the end, nothing faulting, and every argument array ends
    as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_arg m c main_arg0 (V4_main_arg0 m (outs m) c)),
     (h c _ (mem_uc main_arg1 (by decide))).trans (W4_arg m c main_arg1 (V4_main_arg1 m (outs m) c)),
     (h c _ (mem_uc main_arg2 (by decide))).trans (W4_arg m c main_arg2 (V4_main_arg2 m (outs m) c)),
     (h c _ (mem_uc main_arg3 (by decide))).trans (W4_arg m c main_arg3 (V4_main_arg3 m (outs m) c)),
     (h c _ (mem_uc main_arg4 (by decide))).trans (W4_arg m c main_arg4 (V4_main_arg4 m (outs m) c)),
     (h c _ (mem_uc main_arg5 (by decide))).trans (W4_arg m c main_arg5 (V4_main_arg5 m (outs m) c)),
     (h c _ (mem_uc main_arg6 (by decide))).trans (W4_arg m c main_arg6 (V4_main_arg6 m (outs m) c)),
     (h c _ (mem_uc main_arg7 (by decide))).trans (W4_arg m c main_arg7 (V4_main_arg7 m (outs m) c))⟩) (run m ρ)

/-- The run with the result named: beside the frame, the result's buffer ends holding what region 2's write-backs
    leave. -/
theorem run_result (ρ : Dev nD → PrngReg) :
    θ_run defs (onTc (τ := τ) (main (F := F))) ⟨m, fun _ => 0, ρ⟩ (fun r => ∀ c : Dev nD,
      r.2.mem ((c.tc : Thread nD τ).loc main_v58) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v58 (by decide))).trans (W4_res m c),
     (h c _ (mem_uc main_arg0 (by decide))).trans (W4_arg m c main_arg0 (V4_main_arg0 m (outs m) c)),
     (h c _ (mem_uc main_arg1 (by decide))).trans (W4_arg m c main_arg1 (V4_main_arg1 m (outs m) c)),
     (h c _ (mem_uc main_arg2 (by decide))).trans (W4_arg m c main_arg2 (V4_main_arg2 m (outs m) c)),
     (h c _ (mem_uc main_arg3 (by decide))).trans (W4_arg m c main_arg3 (V4_main_arg3 m (outs m) c)),
     (h c _ (mem_uc main_arg4 (by decide))).trans (W4_arg m c main_arg4 (V4_main_arg4 m (outs m) c)),
     (h c _ (mem_uc main_arg5 (by decide))).trans (W4_arg m c main_arg5 (V4_main_arg5 m (outs m) c)),
     (h c _ (mem_uc main_arg6 (by decide))).trans (W4_arg m c main_arg6 (V4_main_arg6 m (outs m) c)),
     (h c _ (mem_uc main_arg7 (by decide))).trans (W4_arg m c main_arg7 (V4_main_arg7 m (outs m) c))⟩) (run m ρ)

end Cert.Kernel.Hand

end
-- ==== Proof.KI.Gate0.lean ====
/-
  The class-A half of pipeline 0 of @main (the first gate kernel), at any float instance.

  The body reads each of its five input blocks whole, reads the output buffer once without using the value, and
  stores one payload over the whole output block. So what it leaves in the output buffer is a closed function of
  the five input blocks at the point, and what it finds in an input buffer is that window's block at the point,
  whether or not the block was fetched at that point (the two weight windows and the bias window move only when
  the outer grid coordinate does).
-/
import proofs.«115772_j51677046505498_1_alg».proof.Proof.Gen.KernelIdeal.Launch
import proofs.«115772_j51677046505498_1_alg».proof.Proof.Gen.KernelIdeal.Skeleton
import proofs.«115772_j51677046505498_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The blocks -/

/-- The block of window `w` at grid point `t`: the part of the window's array, as the region finds it, that the
    window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The rectangles the body reads and writes: each one a whole block -/

abbrev whole0_x : Rect S128x4096 := Rect.unit (s := S128x4096) ![0, 0] S128x4096.size inb_S128x4096_S128x4096_0_0
abbrev whole0_k : Rect S4096x512 := Rect.unit (s := S4096x512) ![0, 0] S4096x512.size inb_S4096x512_S4096x512_0_0
abbrev whole0_b : Rect S1x512 := Rect.unit (s := S1x512) ![0, 0] S1x512.size inb_S1x512_S1x512_0_0
abbrev whole0_o : Rect S128x512 := Rect.unit (s := S128x512) ![0, 0] S128x512.size inb_S128x512_S128x512_0_0

/-! ## The output block the body leaves -/

/-- What the body leaves in the output buffer, from the contents `x0 … x4` of input windows 0 … 4: the payload of its
    one store, laid over the whole block. The payload takes the loads in program order, which is windows
    0, 2, 1, 3, 4. -/
def out0_5 (x0 : Vec F S128x4096 .bf16) (x1 : Vec F S128x4096 .bf16) (x2 x3 : Vec F S4096x512 .bf16) (x4 : Vec F S1x512 .f32) : Vec F S128x512 .f32 :=
  View.canon [⟨whole0_o, k0_pay1 (View.ld x0 whole0_x) (View.ld x2 whole0_k) (View.ld x1 whole0_x) (View.ld x3 whole0_k) (View.ld x4 whole0_b)⟩]

/-- One store of the whole block covers the block: a tiling by a single tile. -/
theorem covers0_5 (p : Vec F S128x512 .f32) (y : S128x512.Idx) :
    ∃ pc ∈ ([⟨whole0_o, p⟩] : List (View.Piece (Elt F) S128x512 .f32)), y ∈ pc.1.set :=
  View.cover_of_tiled [⟨whole0_o, p⟩] S128x512.size (by rfl) y

/-! ## The body on its six buffers -/

set_option maxHeartbeats 1000000 in
/-- Run on six whole buffers, the five inputs reading `x0 … x4` and the output holding anything, the body ends with the
    inputs unchanged and the output reading `out0_5 x0 x1 x2 x3 x4`. The function is first replaced by its
    skeleton over the named payload; the skeleton is then run operation by operation, and what the output buffer
    reads after the single covering store is the canonical contents of that store. -/
theorem sound_kernel0 (c : Dev nD) (E : Set ℕ) (i : grid0.Coords)
    (arg2 : Memref sig .tc .vmem S128x4096 .bf16) (harg2 : arg2.IsWhole) (arg3 : Memref sig .tc .vmem S128x4096 .bf16) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S1x512 .f32) (harg6 : arg6.IsWhole) (arg7 : Memref sig .tc .vmem S128x512 .f32) (harg7 : arg7.IsWhole)
    (x0 x1 : Vec F S128x4096 .bf16) (x2 x3 : Vec F S4096x512 .bf16) (x4 : Vec F S1x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E
          (cc0__gate_kernel i arg2 harg2 arg3 harg3 arg4 harg4 arg5 harg5 arg6 harg6 arg7 harg7) K := by
  simp only [cc0__gate_kernel_eq_skeleton]; unfold cc0__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers0_5 _)

/-! ## The proof data of the pipeline -/

/-- The data of pipeline 0 on core `c`: the windowed arrays as the region finds them; after the body at point
    `t`, every input buffer still at its block and the output buffer at `out0_5` of the five input blocks; the
    invariant that of a body which touches nothing but its windows; nothing owed; every share full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The arrays of the data are the contents at region entry. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by
  dsimp only [dat0]

/-! ## What the body finds in an input buffer

An input window whose body leaves the block in place holds, at every point, the block a fetch at that point would
bring — also at a point where nothing was fetched, because there the block index has not moved since the point
before, whose block the buffer still holds. The windows are uncut and never idle, so the fetched contents are the
block itself. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

/-! ## The body obligation -/

/-- What the body is handed at point `t`: the invariant, what the core owes, and each window's current buffer at what
    it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: each input buffer holds its block, so the run of the body on six buffers applies; the
    invariant and what the core owes are not read and pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _
    (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Gate1.lean ====
/-
  The class-A half of pipeline 1 of @main (the second gate kernel), at any float instance.

  The body reads each of its five input blocks whole, reads the output buffer once without using the value, and
  stores one payload over the whole output block. So what it leaves in the output buffer is a closed function of
  the five input blocks at the point, and what it finds in an input buffer is that window's block at the point,
  whether or not the block was fetched at that point (the two weight windows and the bias window move only when
  the outer grid coordinate does).
-/
import proofs.«115772_j51677046505498_1_alg».proof.Proof.Gen.KernelIdeal.Launch
import proofs.«115772_j51677046505498_1_alg».proof.Proof.Gen.KernelIdeal.Skeleton
import proofs.«115772_j51677046505498_1_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

-- the buffer contents of the core when the region is entered
variable (V : (c : Dev nD) → (b : Ref sig .tc) → Buf (Elt F) ((c : Thread nD τ).loc b))

/-! ## The blocks -/

/-- The block of window `w` at grid point `t`: the part of the window's array, as the region finds it, that the
    window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The rectangles the body reads and writes: each one a whole block -/

abbrev whole1_x : Rect S128x4096 := Rect.unit (s := S128x4096) ![0, 0] S128x4096.size inb_S128x4096_S128x4096_0_0
abbrev whole1_k : Rect S4096x512 := Rect.unit (s := S4096x512) ![0, 0] S4096x512.size inb_S4096x512_S4096x512_0_0
abbrev whole1_b : Rect S1x512 := Rect.unit (s := S1x512) ![0, 0] S1x512.size inb_S1x512_S1x512_0_0
abbrev whole1_o : Rect S128x512 := Rect.unit (s := S128x512) ![0, 0] S128x512.size inb_S128x512_S128x512_0_0

/-! ## The output block the body leaves -/

/-- What the body leaves in the output buffer, from the contents `x0 … x4` of input windows 0 … 4: the payload of its
    one store, laid over the whole block. The payload takes the loads in program order, which is windows
    0, 2, 1, 3, 4. -/
def out1_5 (x0 : Vec F S128x4096 .bf16) (x1 : Vec F S128x4096 .bf16) (x2 x3 : Vec F S4096x512 .bf16) (x4 : Vec F S1x512 .f32) : Vec F S128x512 .f32 :=
  View.canon [⟨whole1_o, k1_pay1 (View.ld x0 whole1_x) (View.ld x2 whole1_k) (View.ld x1 whole1_x) (View.ld x3 whole1_k) (View.ld x4 whole1_b)⟩]

/-- One store of the whole block covers the block: a tiling by a single tile. -/
theorem covers1_5 (p : Vec F S128x512 .f32) (y : S128x512.Idx) :
    ∃ pc ∈ ([⟨whole1_o, p⟩] : List (View.Piece (Elt F) S128x512 .f32)), y ∈ pc.1.set :=
  View.cover_of_tiled [⟨whole1_o, p⟩] S128x512.size (by rfl) y

/-! ## The body on its six buffers -/

set_option maxHeartbeats 1000000 in
/-- Run on six whole buffers, the five inputs reading `x0 … x4` and the output holding anything, the body ends with the
    inputs unchanged and the output reading `out1_5 x0 x1 x2 x3 x4`. The function is first replaced by its
    skeleton over the named payload; the skeleton is then run operation by operation, and what the output buffer
    reads after the single covering store is the canonical contents of that store. -/
theorem sound_kernel1 (c : Dev nD) (E : Set ℕ) (i : grid1.Coords)
    (arg2 : Memref sig .tc .vmem S128x4096 .bf16) (harg2 : arg2.IsWhole) (arg3 : Memref sig .tc .vmem S128x4096 .bf16) (harg3 : arg3.IsWhole)
    (arg4 : Memref sig .tc .vmem S4096x512 .bf16) (harg4 : arg4.IsWhole) (arg5 : Memref sig .tc .vmem S4096x512 .bf16) (harg5 : arg5.IsWhole)
    (arg6 : Memref sig .tc .vmem S1x512 .f32) (harg6 : arg6.IsWhole) (arg7 : Memref sig .tc .vmem S128x512 .f32) (harg7 : arg7.IsWhole)
    (x0 x1 : Vec F S128x4096 .bf16) (x2 x3 : Vec F S4096x512 .bf16) (x4 : Vec F S1x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E
          (cc1__gate_kernel i arg2 harg2 arg3 harg3 arg4 harg4 arg5 harg5 arg6 harg6 arg7 harg7) K := by
  simp only [cc1__gate_kernel_eq_skeleton]; unfold cc1__gate_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covers1_5 _)

/-! ## The proof data of the pipeline -/

/-- The data of pipeline 1 on core `c`: the windowed arrays as the region finds them; after the body at point
    `t`, every input buffer still at its block and the output buffer at `out1_5` of the five input blocks; the
    invariant that of a body which touches nothing but its windows; nothing owed; every share full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The arrays of the data are the contents at region entry. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by
  dsimp only [dat1]

/-! ## What the body finds in an input buffer

An input window whose body leaves the block in place holds, at every point, the block a fetch at that point would
bring — also at a point where nothing was fetched, because there the block index has not moved since the point
before, whose block the buffer still holds. The windows are uncut and never idle, so the fetched contents are the
block itself. -/

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

/-! ## The body obligation -/

/-- What the body is handed at point `t`: the invariant, what the core owes, and each window's current buffer at what
    it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: each input buffer holds its block, so the run of the body on six buffers applies; the
    invariant and what the core owes are not read and pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Hh2.lean ====
/-
  The third kernel region (the candidate state and the final combine), seen from one core, at any float instance.

  The region has nine windows.  Eight are read: the input rows x (window 0), the candidate's input matrix (1), the
  reset gate r (2), the previous state h as full rows (3), the candidate's state matrix (4), the update gate z (5),
  the previous state h once more as a tile (6) and the bias row (7).  Window 8 is written.  Windows 3 and 6 read
  ONE array: the core holds the left half of its share through window 3 and the right half through window 6, which
  is enough for reading.

  At a grid point the body loads each input block whole and stores, whole, one value computed from them
  (`out2_8`): z ∘ h + (1 − z) ∘ tanh ((x·K + (r ∘ h)·R) + b) on the blocks.  It leaves every input block in place,
  so an input buffer holds its array's block at every point, whether the pipeline fetched it there or the block
  index did not move.  The invariant carried from point to point is only what the body never touches.
-/
import proofs.«115772_j51677046505498_1_alg».proof.Proof.Gen.KernelIdeal.Launch
import proofs.«115772_j51677046505498_1_alg».proof.Proof.Gen.KernelIdeal.Skeleton
import proofs.«115772_j51677046505498_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window whose body leaves the block in place holds its block at every point. -/
theorem before2_of {c : Dev nD} (dat : Dat τ (Elt F) Unit ℕ (UR sig nD τ) ℕ cfg2 c) (w : Fin cfg2.W)
    (hin : (cfg2.win w).isOut = false) (hlive : ∀ i, cfg2.idle w i = false)
    (hclip : ∀ t t' : Fin cfg2.N, (cfg2.win w).index t = (cfg2.win w).index t' →
      (cfg2.win w).clip (cfg2.grid.coords t) = (cfg2.win w).clip (cfg2.grid.coords t'))
    (hkeep : ∀ t, (cfg2.win w).cut (cfg2.grid.coords t) (dat.after w t) = dat.blockOf w t)
    (t : Fin cfg2.N) (d) : dat.before w t d = dat.fetched w t d :=
  dat.before_in_eq_fetched w hin hlive hclip hkeep t d

/-! ## The body's accesses: every load and the store take a whole buffer -/

abbrev rRow : Rect S128x4096 := Rect.unit (s := S128x4096) ![0, 0] S128x4096.size inb_S128x4096_S128x4096_0_0
abbrev rMat : Rect S4096x512 := Rect.unit (s := S4096x512) ![0, 0] S4096x512.size inb_S4096x512_S4096x512_0_0
abbrev rBias : Rect S1x512 := Rect.unit (s := S1x512) ![0, 0] S1x512.size inb_S1x512_S1x512_0_0
abbrev rTile : Rect S128x512 := Rect.unit (s := S128x512) ![0, 0] S128x512.size inb_S128x512_S128x512_0_0

/-! ## What the body leaves in the output window's buffer -/

/-- Window 8's buffer after the body, from the eight input blocks (in window order): its one store. -/
def out2_8 (x0 : Vec F S128x4096 .bf16) (x1 : Vec F S4096x512 .bf16) (x2 x3 : Vec F S128x4096 .f32)
    (x4 : Vec F S4096x512 .bf16) (x5 x6 : Vec F S128x512 .f32) (x7 : Vec F S1x512 .f32) : Vec F S128x512 .f32 :=
  View.canon [⟨rTile, k2_pay1 (View.ld x2 rRow) (View.ld x3 rRow) (View.ld x0 rRow) (View.ld x1 rMat) (View.ld x4 rMat)
    (View.ld x7 rBias) (View.ld x5 rTile) (View.ld x6 rTile)⟩]

/-- The one store covers the buffer. -/
theorem cover2_8 (p0 : Vec F S128x512 .f32) (y : S128x512.Idx) :
    ∃ pc ∈ ([⟨rTile, p0⟩] : List (View.Piece (Elt F) S128x512 .f32)), y ∈ pc.1.set :=
  View.cover_of_tiled [⟨rTile, p0⟩] S128x512.size (by rfl) y

/-! ## The body's triple -/

set_option maxHeartbeats 2000000 in
/-- On whole staging memrefs, the inputs' at read contents `xW` and the output's at anything, the body runs to the
    continuation holding the inputs' as they were and the output's at `out2_8` of the inputs'. -/
theorem sound_kernel2 (c : Dev nD) (E : Set ℕ) (i : grid2.Coords)
    (arg2 : Memref sig .tc .vmem S128x4096 .bf16) (harg2 : arg2.IsWhole) (arg3 : Memref sig .tc .vmem S4096x512 .bf16) (harg3 : arg3.IsWhole)
    (arg4 : Memref sig .tc .vmem S128x4096 .f32) (harg4 : arg4.IsWhole) (arg5 : Memref sig .tc .vmem S128x4096 .f32) (harg5 : arg5.IsWhole)
    (arg6 : Memref sig .tc .vmem S4096x512 .bf16) (harg6 : arg6.IsWhole) (arg7 : Memref sig .tc .vmem S128x512 .f32) (harg7 : arg7.IsWhole)
    (arg8 : Memref sig .tc .vmem S128x512 .f32) (harg8 : arg8.IsWhole) (arg9 : Memref sig .tc .vmem S1x512 .f32) (harg9 : arg9.IsWhole)
    (arg10 : Memref sig .tc .vmem S128x512 .f32) (harg10 : arg10.IsWhole)
    (x0 : Vec F S128x4096 .bf16) (x1 : Vec F S4096x512 .bf16) (x2 x3 : Vec F S128x4096 .f32)
    (x4 : Vec F S4096x512 .bf16) (x5 x6 : Vec F S128x512 .f32) (x7 : Vec F S1x512 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare (out2_8 x0 x1 x2 x3 x4 x5 x6 x7)) -∗ K ⟨⟩))
      ⊢ wp frame (wpE (defs₀ (F := F)) Variants.none c none) E
          (cc2__hh_kernel i arg2 harg2 arg3 harg3 arg4 harg4 arg5 harg5 arg6 harg6 arg7 harg7 arg8 harg8 arg9 harg9 arg10 harg10) K := by
  simp only [cc2__hh_kernel_eq_skeleton]; unfold cc2__hh_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover2_8 _)

/-! ## The region's proof data -/

/-- The proof data on core `c`: the arrays as the region finds them; after the body each input's buffer at its
    block and the output's at `out2_8` of the input blocks; the invariant only what the body never touches; nothing
    owed; every array held whole except the one read twice, whose share is halved between windows 3 and 6. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 3 t) (iblk2 V c 4 t) (iblk2 V c 5 t) (iblk2 V c 6 t) (iblk2 V c 7 t)
  Φ _ := Pipeline.ΦA spec2 c
  q w := match w with
    | ⟨0, _⟩ => fullShare
    | ⟨1, _⟩ => fullShare
    | ⟨2, _⟩ => fullShare
    | ⟨3, _⟩ => fullShare.left
    | ⟨4, _⟩ => fullShare
    | ⟨5, _⟩ => fullShare
    | ⟨6, _⟩ => fullShare.right
    | ⟨7, _⟩ => fullShare
    | ⟨8, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t =
    out2_8 (iblk2 V c 0 t) (iblk2 V c 1 t) (iblk2 V c 2 t) (iblk2 V c 3 t) (iblk2 V c 4 t) (iblk2 V c 5 t) (iblk2 V c 6 t) (iblk2 V c 7 t) := by
  dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl) (fun t => by rw [after2_7]; unfold Dat.blockOf iblk2; rw [A_eq2]; try rfl) t d).trans
    (by unfold Dat.fetched Dat.blockOf iblk2; rw [A_eq2]; try rfl)

/-! ## The body obligation, at a generic point -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t))

/-- The body at any point: the inputs' memrefs hold their blocks, so the body's triple applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel2 c Set.univ _ _ _ _ _ _ _ _ _ _ _ _ _ _ _ _ _ _ _
    (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation of the region, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Vals.lean ====
/-
  The buffer contents between the items of the program's run, on every core.

  After the host stretch a core's unscoped buffers are at the generated valuation.  Each kernel region changes that
  valuation at one buffer only, its output: after region 0 the update gate's buffer holds what the region's write-backs
  leave (`res0`), after region 1 the reset gate's (`res1`), after region 2 the result's (`res2`); each region is
  entered from the valuation the one before it left, and its proof data are stated at that valuation.  An input
  array is never written, so at a region's exit every array but the output holds what the region found.
-/
import proofs.«115772_j51677046505498_1_alg».proof.Proof.Gen.KernelIdeal.Regions
import proofs.«115772_j51677046505498_1_alg».proof.Proof.KI.Gate0
import proofs.«115772_j51677046505498_1_alg».proof.Proof.KI.Gate1
import proofs.«115772_j51677046505498_1_alg».proof.Proof.KI.Hh2
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each region's entry and exit -/

/-- A valuation read at the TensorCore's references. -/
abbrev atTc (W : Dev nD → Valuation τ sig (Elt F)) : (c : Dev nD) → (b : Ref sig .tc) → Buf (Elt F) ((c : Thread nD τ).loc b) :=
  fun c b => W c b

/-- After the host stretch: region 0's entry. -/
abbrev W1 (c : Dev nD) : Valuation τ sig (Elt F) := V1 m c
/-- What region 0's write-backs leave in the update gate's buffer. -/
def res0 (c : Dev nD) : Buf (Elt F) ((c : Thread nD τ).loc main_v56) := (dat0 (atTc (W1 m)) c).arrAt 5 cfg0.N
/-- After region 0: region 1's entry. -/
def W2 (c : Dev nD) : Valuation τ sig (Elt F) := Function.update (W1 m c) main_v56 (res0 m c)
/-- What region 1's write-backs leave in the reset gate's buffer. -/
def res1 (c : Dev nD) : Buf (Elt F) ((c : Thread nD τ).loc main_v57) := (dat1 (atTc (W2 m)) c).arrAt 5 cfg1.N
/-- After region 1: region 2's entry. -/
def W3 (c : Dev nD) : Valuation τ sig (Elt F) := Function.update (W2 m c) main_v57 (res1 m c)
/-- What region 2's write-backs leave in the result's buffer. -/
def res2 (c : Dev nD) : Buf (Elt F) ((c : Thread nD τ).loc main_v58) := (dat2 (atTc (W3 m)) c).arrAt 8 cfg2.N
/-- After region 2: the end. -/
def W4 (c : Dev nD) : Valuation τ sig (Elt F) := Function.update (W3 m c) main_v58 (res2 m c)

/-- What the regions leave, as the generated valuations take it. -/
def outs : Outs (F := F) := fun J r c => match J with
  | 2 => W2 m c r
  | 3 => W3 m c r
  | 4 => W4 m c r
  | _ => W1 m c r

theorem V2_eq (c : Dev nD) : V2 m (outs m) c = W2 m c := by
  show Function.update (V1 m c) _ (W2 m c _) = W2 m c
  unfold W2; rw [Function.update_self]
theorem V3_eq (c : Dev nD) : V3 m (outs m) c = W3 m c := by
  show Function.update (V2 m (outs m) c) _ (W3 m c _) = W3 m c
  rw [V2_eq]; unfold W3; rw [Function.update_self]
theorem V4_eq (c : Dev nD) : V4 m (outs m) c = W4 m c := by
  show Function.update (V3 m (outs m) c) _ (W4 m c _) = W4 m c
  rw [V3_eq]; unfold W4; rw [Function.update_self]

/-! ## The proof data family and the rest state -/

/-- Every pipeline's proof data, each at its region's entry contents. -/
def pdats : (p : Fin 3) → (c : Dev nD) → Dat τ (Elt F) Unit ℕ (UR sig nD τ) ℕ (cfgs p) c
  | ⟨0, _⟩ => fun c => dat0 (atTc (W1 m)) c
  | ⟨1, _⟩ => fun c => dat1 (atTc (W2 m)) c
  | ⟨2, _⟩ => fun c => dat2 (atTc (W3 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev E : Fin 4 → Dev nD → sProp 𝕄 := fun _ c => R c

/-! ## Each region's arrays at its exit -/

theorem ne56 (b : Ref sig .tc) (h : b ≠ main_v56) : (Proc.devRef .tc b : DevRef τ sig) ≠ Proc.devRef .tc main_v56 := StableHlo.devRef_ne_of_ne h
theorem ne57 (b : Ref sig .tc) (h : b ≠ main_v57) : (Proc.devRef .tc b : DevRef τ sig) ≠ Proc.devRef .tc main_v57 := StableHlo.devRef_ne_of_ne h
theorem ne58 (b : Ref sig .tc) (h : b ≠ main_v58) : (Proc.devRef .tc b : DevRef τ sig) ≠ Proc.devRef .tc main_v58 := StableHlo.devRef_ne_of_ne h

/-- An input array is never written: at a region's exit it holds what the region found; the output's array holds
    what the write-backs leave.  Every other buffer is as the region found it. -/
theorem in_of_ne0 : ∀ w : Fin 6, w ≠ 5 → (cfg0.win w).isOut = false := by decide
theorem arr_ne0 : ∀ w : Fin 6, w ≠ 5 → Pipeline.arrRef spec0 w ≠ main_v56 := by decide
theorem hF0 (c : Dev nD) (w : Fin cfg0.W) : (dat0 (atTc (W1 m)) c).arrAt w cfg0.N = atTc (W2 m) c (Pipeline.arrRef spec0 w) := by
  by_cases hw : w = 5
  · subst hw; exact (Function.update_self (main_v56 : DevRef τ sig) (res0 m c) (W1 m c)).symm
  · exact (((dat0 (atTc (W1 m)) c).arrAt_in w (in_of_ne0 w hw) _).trans (A_eq0 (atTc (W1 m)) c w)).trans
      (Function.update_of_ne (ne56 _ (arr_ne0 w hw)) _ _).symm
theorem hrest0 (c : Dev nD) : ∀ b, b ∉ Finset.univ.image (Pipeline.arrRef spec0) → atTc (W2 m) c b = atTc (W1 m) c b :=
  fun b hb => Function.update_of_ne (ne56 b fun e => hb (Finset.mem_image.mpr ⟨5, Finset.mem_univ _, e.symm⟩)) _ _

theorem in_of_ne1 : ∀ w : Fin 6, w ≠ 5 → (cfg1.win w).isOut = false := by decide
theorem arr_ne1 : ∀ w : Fin 6, w ≠ 5 → Pipeline.arrRef spec1 w ≠ main_v57 := by decide
theorem hF1 (c : Dev nD) (w : Fin cfg1.W) : (dat1 (atTc (W2 m)) c).arrAt w cfg1.N = atTc (W3 m) c (Pipeline.arrRef spec1 w) := by
  by_cases hw : w = 5
  · subst hw; exact (Function.update_self (main_v57 : DevRef τ sig) (res1 m c) (W2 m c)).symm
  · exact (((dat1 (atTc (W2 m)) c).arrAt_in w (in_of_ne1 w hw) _).trans (A_eq1 (atTc (W2 m)) c w)).trans
      (Function.update_of_ne (ne57 _ (arr_ne1 w hw)) _ _).symm
theorem hrest1 (c : Dev nD) : ∀ b, b ∉ Finset.univ.image (Pipeline.arrRef spec1) → atTc (W3 m) c b = atTc (W2 m) c b :=
  fun b hb => Function.update_of_ne (ne57 b fun e => hb (Finset.mem_image.mpr ⟨5, Finset.mem_univ _, e.symm⟩)) _ _

theorem in_of_ne2 : ∀ w : Fin 9, w ≠ 8 → (cfg2.win w).isOut = false := by decide
theorem arr_ne2 : ∀ w : Fin 9, w ≠ 8 → Pipeline.arrRef spec2 w ≠ main_v58 := by decide
theorem hF2 (c : Dev nD) (w : Fin cfg2.W) : (dat2 (atTc (W3 m)) c).arrAt w cfg2.N = atTc (W4 m) c (Pipeline.arrRef spec2 w) := by
  by_cases hw : w = 8
  · subst hw; exact (Function.update_self (main_v58 : DevRef τ sig) (res2 m c) (W3 m c)).symm
  · exact (((dat2 (atTc (W3 m)) c).arrAt_in w (in_of_ne2 w hw) _).trans (A_eq2 (atTc (W3 m)) c w)).trans
      (Function.update_of_ne (ne58 _ (arr_ne2 w hw)) _ _).symm
theorem hrest2 (c : Dev nD) : ∀ b, b ∉ Finset.univ.image (Pipeline.arrRef spec2) → atTc (W4 m) c b = atTc (W3 m) c b :=
  fun b hb => Function.update_of_ne (ne58 b fun e => hb (Finset.mem_image.mpr ⟨8, Finset.mem_univ _, e.symm⟩)) _ _

end Cert.KernelIdeal.Hand

end
-- ==== Proof.KI.Share2.lean ====
/-
  The third region's arrays and the buffers behind them.

  Nine windows stand on eight buffers: windows 3 and 6 both read the previous state.  Holding the eight buffers whole
  is the same as holding the nine windows' arrays at the region's shares: seven windows take their buffer whole, and
  the buffer read twice is split along its share, the left half to window 3 and the right half to window 6; at the
  exit the two halves, still at the same contents, join back into the whole.  With that, the region's arrays come
  out of a core's unscoped buffers at its entry and go back among them at its exit, the other buffers untouched.
-/
import proofs.«115772_j51677046505498_1_alg».proof.Proof.KI.Hh2
import Idealize.ShloMosaic.Lib.Pipeline.Kit
import Idealize.ShloMosaic.Lib.Pipeline.Regions

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The share each window's array is held at. -/
theorem share2_0 (c : Dev nD) : (dat2 V c).share 0 = fullShare := rfl
theorem share2_1 (c : Dev nD) : (dat2 V c).share 1 = fullShare := rfl
theorem share2_2 (c : Dev nD) : (dat2 V c).share 2 = fullShare := rfl
theorem share2_3 (c : Dev nD) : (dat2 V c).share 3 = fullShare.left := rfl
theorem share2_4 (c : Dev nD) : (dat2 V c).share 4 = fullShare := rfl
theorem share2_5 (c : Dev nD) : (dat2 V c).share 5 = fullShare := rfl
theorem share2_6 (c : Dev nD) : (dat2 V c).share 6 = fullShare.right := rfl
theorem share2_7 (c : Dev nD) : (dat2 V c).share 7 = fullShare := rfl
theorem share2_8 (c : Dev nD) : (dat2 V c).share 8 = fullShare := rfl

/-- The buffers behind the windows' arrays, one by one (window 6 stands on window 3's buffer). -/
theorem arrBufs2_eq (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc (Pipeline.arrRef spec2 0)) ↦{fullShare} W (Pipeline.arrRef spec2 0))
          ∗ (((c : Thread nD τ).loc (Pipeline.arrRef spec2 1)) ↦{fullShare} W (Pipeline.arrRef spec2 1))
          ∗ (((c : Thread nD τ).loc (Pipeline.arrRef spec2 2)) ↦{fullShare} W (Pipeline.arrRef spec2 2))
          ∗ (((c : Thread nD τ).loc (Pipeline.arrRef spec2 3)) ↦{fullShare} W (Pipeline.arrRef spec2 3))
          ∗ (((c : Thread nD τ).loc (Pipeline.arrRef spec2 4)) ↦{fullShare} W (Pipeline.arrRef spec2 4))
          ∗ (((c : Thread nD τ).loc (Pipeline.arrRef spec2 5)) ↦{fullShare} W (Pipeline.arrRef spec2 5))
          ∗ (((c : Thread nD τ).loc (Pipeline.arrRef spec2 7)) ↦{fullShare} W (Pipeline.arrRef spec2 7))
          ∗ (((c : Thread nD τ).loc (Pipeline.arrRef spec2 8)) ↦{fullShare} W (Pipeline.arrRef spec2 8))) := by
  unfold Pipeline.arrBufs
  exact bigSep_eq_bigSepL_of_eq [Pipeline.arrRef spec2 0, Pipeline.arrRef spec2 1, Pipeline.arrRef spec2 2, Pipeline.arrRef spec2 3,
    Pipeline.arrRef spec2 4, Pipeline.arrRef spec2 5, Pipeline.arrRef spec2 7, Pipeline.arrRef spec2 8] (by decide) (by decide) _

/-- A window's array is a whole buffer: its view's points-to is the buffer's, at any share. -/
theorem arr2_pt (c : Dev nD) (w : Fin cfg2.W) (q : PosShare TreeShare) (g : Buf (Elt F) ((cfg2.win w).arr.view.loc (c : Thread nD τ))) :
    ((cfg2.win w).arr.view.loc (c : Thread nD τ) ↦[(cfg2.win w).arr.view.set]{q} g : sProp 𝕄)
      = (((c : Thread nD τ).loc (Pipeline.arrRef spec2 w)) ↦{q} g) := by
  rw [(arr_whole2 w).set_eq_univ]

/-- Two names of one buffer: a points-to at the one is a points-to at the other. -/
theorem pt_of_ref_eq (c : Dev nD) {r r' : Ref sig .tc} (h : r = r') (q : PosShare TreeShare)
    (W : (b : Ref sig .tc) → Buf (Elt F) ((c : Thread nD τ).loc b)) :
    ((((c : Thread nD τ).loc r) ↦{q} W r) : sProp 𝕄) = (((c : Thread nD τ).loc r') ↦{q} W r') := by
  subst h; rfl

/-- Windows 3 and 6 stand on one buffer. -/
theorem arr2_3_6 : Pipeline.arrRef spec2 3 = Pipeline.arrRef spec2 6 := by decide

/-- The windows' arrays, at contents read off `W`, as a star over the windows of points-tos at the buffers: each
    window's array is a whole buffer.  (Stated and proved at a variable window.) -/
theorem arrays2_bufs_form (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    ((dat2 V c).arrays G : sProp 𝕄)
      = bigSep Finset.univ fun w : Fin cfg2.W =>
          ((((c : Thread nD τ).loc (Pipeline.arrRef spec2 w)) ↦{(dat2 V c).share w} W (Pipeline.arrRef spec2 w)) : sProp 𝕄) := by
  unfold Dat.arrays
  exact bigSep_congr fun w _ => by rw [arr2_pt c w, hG w]

/-- Split: the eight buffers whole, at contents `W`, make the nine windows' arrays at contents read off `W`. -/
theorem arrays2_of_bufs (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    (Pipeline.arrBufs (Ix := Unit) (Name := ℕ) (U := UR sig nD τ) (Lvl := ℕ) spec2 c W : sProp 𝕄) ⊢ (dat2 V c).arrays G := by
  rw [arrays2_bufs_form V c W G hG, arrBufs2_eq, bigSep_W2, share2_0, share2_1, share2_2, share2_3, share2_4, share2_5, share2_6, share2_7, share2_8]
  iintro ⟨H0, H1, H2, Ha, H4, H5, H7, H8⟩
  ihave Hs := (pointsTo_share (PosShare.mem_left_op_right fullShare)).1 $$ Ha
  icases Hs with ⟨Hl, Hr⟩
  ihave Hr := (Entails.of_eq (pt_of_ref_eq c arr2_3_6 fullShare.right W)) $$ Hr
  isplitl [H0]; · iexact H0
  isplitl [H1]; · iexact H1
  isplitl [H2]; · iexact H2
  isplitl [Hl]; · iexact Hl
  isplitl [H4]; · iexact H4
  isplitl [H5]; · iexact H5
  isplitl [Hr]; · iexact Hr
  isplitl [H7]; · iexact H7
  iexact H8

/-- Join: the nine windows' arrays at contents read off `W` make the eight buffers whole at `W`. -/
theorem bufs_of_arrays2 (c : Dev nD) (W : (b : Ref sig .tc) → Buf (Elt F) ((c : Thread nD τ).loc b))
    (G : (w : Fin cfg2.W) → Buf (Elt F) ((cfg2.win w).arr.view.loc (c : Thread nD τ))) (hG : ∀ w, G w = W (Pipeline.arrRef spec2 w)) :
    ((dat2 V c).arrays G : sProp 𝕄) ⊢ Pipeline.arrBufs (Ix := Unit) (Name := ℕ) (U := UR sig nD τ) (Lvl := ℕ) spec2 c W := by
  rw [arrays2_bufs_form V c W G hG, arrBufs2_eq, bigSep_W2, share2_0, share2_1, share2_2, share2_3, share2_4, share2_5, share2_6, share2_7, share2_8]
  iintro ⟨H0, H1, H2, Hl, H4, H5, Hr, H7, H8⟩
  ihave Hr := (Entails.of_eq (pt_of_ref_eq c arr2_3_6.symm fullShare.right W)) $$ Hr
  ihave Ha := (pointsTo_share (PosShare.mem_left_op_right fullShare)).2 $$ [Hl Hr]
  · isplitl [Hl]; · iexact Hl
    iexact Hr
  isplitl [H0]; · iexact H0
  isplitl [H1]; · iexact H1
  isplitl [H2]; · iexact H2
  isplitl [Ha]; · iexact Ha
  isplitl [H4]; · iexact H4
  isplitl [H5]; · iexact H5
  isplitl [H7]; · iexact H7
  iexact H8

/-- ENTRY: a core's unscoped buffers at `W` are the region's arrays at their entry contents and the other unscoped
    buffers at `W`. -/
theorem arrays2_of_unscopedBufs (c : Dev nD) (W : (b : Ref sig .tc) → Buf (Elt F) ((c : Thread nD τ).loc b))
    (hA : ∀ w, (dat2 V c).A w = W (Pipeline.arrRef spec2 w)) :
    (unscopedBufs c W : sProp 𝕄) ⊢ iprop((dat2 V c).arrays ((dat2 V c).arrAt · 0) ∗ Pipeline.unscopedRest spec2 c W) := by
  rw [Pipeline.unscopedBufs_split₀ cfgs 2 winFacts₀2.arr_unscoped c W]
  exact sep_mono (arrays2_of_bufs V c W _ fun w => (show (dat2 V c).arrAt w 0 = (dat2 V c).A w from rfl).trans (hA w)) .rfl

/-- EXIT: the region's arrays at contents `G` and the other unscoped buffers at `W` are the core's unscoped
    buffers at any `W'` that has the arrays at `G` and agrees with `W` off them. -/
theorem unscopedBufs_of_arrays2 (c : Dev nD) (W W' : (b : Ref sig .tc) → Buf (Elt F) ((c : Thread nD τ).loc b))
    (G : (w : Fin cfg2.W) → Buf (Elt F) ((cfg2.win w).arr.view.loc (c : Thread nD τ))) (hG : ∀ w, G w = W' (Pipeline.arrRef spec2 w))
    (hrest : ∀ b, b ∉ Finset.univ.image (Pipeline.arrRef spec2) → W' b = W b) :
    iprop((dat2 V c).arrays G ∗ Pipeline.unscopedRest spec2 c W) ⊢ (unscopedBufs c W' : sProp 𝕄) := by
  rw [Pipeline.unscopedBufs_split₀ cfgs 2 winFacts₀2.arr_unscoped c W']
  refine sep_mono (bufs_of_arrays2 V c W' G hG) (Entails.of_eq ?_)
  unfold Pipeline.unscopedRest
  exact bigSep_congr fun b hb => by rw [hrest b (Finset.mem_sdiff.mp hb).2]

end Cert.KernelIdeal.Hand

end
-- ==== Proof.KI.Records.lean ====
/-
  The three kernel regions as segments of the program's run, and the run.

  Between two items a core holds every unscoped buffer at a known valuation beside a rest: its generator register at
  some state, and nothing owed.  A region takes its windows' arrays out of the unscoped buffers at its entry and puts
  them back at its exit at the valuation updated at its output; the generator register goes through the region's
  invariant and comes back; the region owes nothing and has no semaphore of its own.  Regions 0 and 1 stand on distinct
  buffers.  Region 2 reads one buffer through two windows, so its arrays are split off and joined back along that
  buffer's share.

  The program is the host stretch followed by the three regions.  Composing the four segments: from any memory with
  zero counters every weakly fair execution terminates, nothing faults, and in the final memory every unscoped buffer
  holds the last valuation's contents.  The arguments are written by no item, and the result's buffer holds what
  region 2's write-backs leave.
-/
import proofs.«115772_j51677046505498_1_alg».proof.Proof.KI.Vals
import proofs.«115772_j51677046505498_1_alg».proof.Proof.KI.Share2
import Idealize.ShloMosaic.Lib.Pipeline.RegionsLoop
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The regions as segments -/

set_option backward.isDefEq.respectTransparency.types false in
/-- Region 0: entered from every unscoped buffer at `W1`, left at `W2`.  Its six arrays are distinct buffers: they
    come out of the unscoped buffers whole and go back at the exit contents. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`.  Its six arrays are distinct buffers: they
    come out of the unscoped buffers whole and go back at the exit contents. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W2 m)) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (atTc (W2 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W2 m) c) (atTc (W3 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without what the core owes: every unscoped buffer at the last valuation, the generator
    register at some state. -/
abbrev Tₙ (c : Dev nD) : sProp 𝕄 := iprop(StableHlo.held (c : Thread nD τ) (Pipeline.ucRefs τ sig) (W4 m c) ∗ ∃ r, prngReg c r)

set_option backward.isDefEq.respectTransparency.types false in
/-- Region 2: entered from every unscoped buffer at `W3`, left at `W4`.  Its nine windows stand on eight buffers:
    the arrays come out of the unscoped buffers with the twice-read buffer's share halved, and go back joined. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (atTc (W3 m)) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (atTc (W3 m) c)
  hentry c := by
    rw [Pipeline.ownSems0_none]
    have hsplit := arrays2_of_unscopedBufs (atTc (W3 m)) c (atTc (W3 m) c) fun w => A_eq2 (atTc (W3 m)) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (atTc (W3 m)) c (atTc (W3 m) c) (atTc (W4 m) c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN.  From any memory with zero counters every weakly fair execution of the program terminates, nothing
    faulting, and every final memory holds each unscoped buffer at the last valuation's contents. -/
theorem run (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit_dev (pcfgs (F := F)) adm (pdats m) () cellOf_inj emb₁ defs₀ 𝒱₀ L lv m ρ main
    (segs m 𝒱₀ L lv (E (F := F)) () (pdats m) (reg0 m) (reg1 m) (reg2 m))
    (fun c Q => by
      rewrite [main_chain c, Pipeline.Seg.run_eq_chain,
        show (segs m 𝒱₀ L lv (E (F := F)) () (pdats m) (reg0 m) (reg1 m) (reg2 m) c).map Pipeline.Seg.prog = [
          StableHlo.seq hostOps0,
          Prog.lift (.customCall (Pipeline.entry 0) ()),
          Prog.lift (.customCall (Pipeline.entry 1) ()),
          Prog.lift (.customCall (Pipeline.entry 2) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := fun c => ⟨.rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- At the end the result's buffer holds what region 2's write-backs leave. -/
theorem W4_res (c : Dev nD) : W4 m c main_v58 = res2 m c := by
  unfold W4; exact Function.update_self (main_v58 : DevRef τ sig) (res2 m c) (W3 m c)

/-- No item writes an argument: at the end each holds its launch contents. -/
theorem W4_arg (c : Dev nD) (r : Ref sig .tc) (h : V4 m (outs m) c r = m ((c : Thread nD τ).loc r)) :
    W4 m c r = m ((c : Thread nD τ).loc r) := by rw [← V4_eq]; exact h

/-- THE FRAME, at any float instance: the program runs to the end, nothing faulting, and every argument array ends
    as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_arg m c main_arg0 (V4_main_arg0 m (outs m) c)),
     (h c _ (mem_uc main_arg1 (by decide))).trans (W4_arg m c main_arg1 (V4_main_arg1 m (outs m) c)),
     (h c _ (mem_uc main_arg2 (by decide))).trans (W4_arg m c main_arg2 (V4_main_arg2 m (outs m) c)),
     (h c _ (mem_uc main_arg3 (by decide))).trans (W4_arg m c main_arg3 (V4_main_arg3 m (outs m) c)),
     (h c _ (mem_uc main_arg4 (by decide))).trans (W4_arg m c main_arg4 (V4_main_arg4 m (outs m) c)),
     (h c _ (mem_uc main_arg5 (by decide))).trans (W4_arg m c main_arg5 (V4_main_arg5 m (outs m) c)),
     (h c _ (mem_uc main_arg6 (by decide))).trans (W4_arg m c main_arg6 (V4_main_arg6 m (outs m) c)),
     (h c _ (mem_uc main_arg7 (by decide))).trans (W4_arg m c main_arg7 (V4_main_arg7 m (outs m) c))⟩) (run m ρ)

/-- The run with the result named: beside the frame, the result's buffer ends holding what region 2's write-backs
    leave. -/
theorem run_result (ρ : Dev nD → PrngReg) :
    θ_run defs (onTc (τ := τ) (main (F := F))) ⟨m, fun _ => 0, ρ⟩ (fun r => ∀ c : Dev nD,
      r.2.mem ((c.tc : Thread nD τ).loc main_v58) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v58 (by decide))).trans (W4_res m c),
     (h c _ (mem_uc main_arg0 (by decide))).trans (W4_arg m c main_arg0 (V4_main_arg0 m (outs m) c)),
     (h c _ (mem_uc main_arg1 (by decide))).trans (W4_arg m c main_arg1 (V4_main_arg1 m (outs m) c)),
     (h c _ (mem_uc main_arg2 (by decide))).trans (W4_arg m c main_arg2 (V4_main_arg2 m (outs m) c)),
     (h c _ (mem_uc main_arg3 (by decide))).trans (W4_arg m c main_arg3 (V4_main_arg3 m (outs m) c)),
     (h c _ (mem_uc main_arg4 (by decide))).trans (W4_arg m c main_arg4 (V4_main_arg4 m (outs m) c)),
     (h c _ (mem_uc main_arg5 (by decide))).trans (W4_arg m c main_arg5 (V4_main_arg5 m (outs m) c)),
     (h c _ (mem_uc main_arg6 (by decide))).trans (W4_arg m c main_arg6 (V4_main_arg6 m (outs m) c)),
     (h c _ (mem_uc main_arg7 (by decide))).trans (W4_arg m c main_arg7 (V4_main_arg7 m (outs m) c))⟩) (run m ρ)

end Cert.KernelIdeal.Hand

end
-- ==== Proof.PayloadAt.lean ====
/-
  The three kernel bodies' stored values, read at one index, at the ideal values.

  Each body computes its result as one term of the blocks it loads: two block products into a zero
  accumulator, their sum, a bias row broadcast down the rows, and a pointwise tail (the hard sigmoid
  min 1 (max 0 (c₂ · s + c₅)) for the two gate bodies; for the state body the blend
  z ∘ h + (1 − z) ∘ tanh s, whose second product's left operand is the entrywise product of two blocks).
  At the ideal values a block product into zeros is the plain sum over the contracted axis and a format
  change is the identity, so at the index (p, q) each result is the closed expression below in the
  loaded blocks' entries. The float constants stay the words the program spells; only the products'
  zero accumulator is read as the number 0.
-/
import proofs.«115772_j51677046505498_1_alg».proof.Proof.Spec
import proofs.«115772_j51677046505498_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx Idealize.SL.Sem

/-- The block product's dimension numbers: rows × contraction times contraction × columns. -/
abbrev MM : DotDims S128x4096 S4096x512 S128x512 := dot_S128x4096_S4096x512_S128x512_1_0_0_1_n_n

/-- The left operand's index at output (p, q) and contraction index k has row p … -/
theorem lhs_0 (i : S128x512.Idx) (k : MM.contr.Idx) : (MM.lhsIdx i k 0).val = (i 0).val := by
  unfold DotDims.lhsIdx
  rw [dif_neg (show ¬(0 : Fin S128x4096.rank) ∈ MM.lhsBatch by decide), dif_pos (show (0 : Fin S128x4096.rank) ∈ MM.lhsNonContracting by decide)]
  rfl
/-- … and column k. -/
theorem lhs_1 (i : S128x512.Idx) (k : MM.contr.Idx) : (MM.lhsIdx i k 1).val = (k ⟨0, by decide⟩).val :=
  MM.lhsIdx_val_of_single rfl i k
/-- The right operand's index has row k … -/
theorem rhs_0 (i : S128x512.Idx) (k : MM.contr.Idx) : (MM.rhsIdx i k 0).val = (k ⟨0, by decide⟩).val :=
  MM.rhsIdx_val_of_single rfl i k
/-- … and column q. -/
theorem rhs_1 (i : S128x512.Idx) (k : MM.contr.Idx) : (MM.rhsIdx i k 1).val = (i 1).val := by
  unfold DotDims.rhsIdx
  rw [dif_neg (show ¬(1 : Fin S4096x512.rank) ∈ MM.rhsBatch by decide), dif_pos (show (1 : Fin S4096x512.rank) ∈ MM.rhsNonContracting by decide)]
  rfl

/-- A block product into the zero accumulator, at (p, q): the sum over the contracted axis of the
    left block's row p times the right block's column q. -/
theorem mm_at {φ₁ φ₂ : FTy} (a : FVec Ideal S128x4096 φ₁) (w : FVec Ideal S4096x512 φ₂) (p : Fin 128) (q : Fin 512) :
    matmul MM none a w (constant (F := Ideal) S128x512 .f32 0x00000000#32) (ix2 p q)
      = ∑ k : Fin 4096, a (ix2 p k) * w (ix2 k q) := by
  simp only [matmul]
  rw [Ideal.matmul_constant_zero_apply, ← Equiv.sum_comp (contrEquiv1 MM 4096 rfl rfl).symm]
  refine Finset.sum_congr rfl fun k _ => ?_
  have hk := contrEquiv1_symm_val MM 4096 rfl rfl k
  have el : MM.lhsIdx (ix2 p q) ((contrEquiv1 MM 4096 rfl rfl).symm k) = ix2 p k := funext fun a => Fin.ext (by
    match a with
    | ⟨0, _⟩ => exact lhs_0 _ _
    | ⟨1, _⟩ => exact (lhs_1 _ _).trans hk)
  have er : MM.rhsIdx (ix2 p q) ((contrEquiv1 MM 4096 rfl rfl).symm k) = ix2 k q := funext fun a => Fin.ext (by
    match a with
    | ⟨0, _⟩ => exact (rhs_0 _ _).trans hk
    | ⟨1, _⟩ => exact rhs_1 _ _)
  rw [el, er]

/-- The hyperbolic tangent of a block, at an index: the ideal values' tanh of the entry. -/
theorem tanh_apply {s : Shape} {φ : FTy} (a : FVec Ideal s φ) (i : s.Idx) : tanh a i = Ideal.tanh (a i) := rfl

/-- The first gate body's result at (p, q): the hard sigmoid of the two products' sum plus the bias. -/
theorem gate0_at (v0 v5 : Vec Ideal S128x4096 .bf16) (v2 v7 : Vec Ideal S4096x512 .bf16) (v11 : Vec Ideal S1x512 .f32)
    (p : Fin 128) (q : Fin 512) :
    Gen.k0_pay1 (F := Ideal) v0 v2 v5 v7 v11 (ix2 p q)
      = min (Ideal.ofBits .f32 0x3F800000#32) (max (Ideal.ofBits .f32 0x00000000#32)
          (Ideal.ofBits .f32 0x3E4CCCCD#32
              * ((∑ k : Fin 4096, v0 (ix2 p k) * v2 (ix2 k q) + ∑ k : Fin 4096, v5 (ix2 p k) * v7 (ix2 k q))
                  + v11 (ix2 (0 : Fin 1) q))
            + Ideal.ofBits .f32 0x3F000000#32)) := by
  unfold Gen.k0_pay1
  simp only [shapeCast_self, minimumf_apply, maximumf_apply, addf_apply, mulf_apply, broadcast_apply,
    broadcastTo_1b_ab_apply, Ideal.ofBits_def]
  rw [mm_at, mm_at]

/-- The second gate body's result at (p, q): the hard sigmoid of the two products' sum plus the bias. -/
theorem gate1_at (v0 v5 : Vec Ideal S128x4096 .bf16) (v2 v7 : Vec Ideal S4096x512 .bf16) (v11 : Vec Ideal S1x512 .f32)
    (p : Fin 128) (q : Fin 512) :
    Gen.k1_pay1 (F := Ideal) v0 v2 v5 v7 v11 (ix2 p q)
      = min (Ideal.ofBits .f32 0x3F800000#32) (max (Ideal.ofBits .f32 0x00000000#32)
          (Ideal.ofBits .f32 0x3E4CCCCD#32
              * ((∑ k : Fin 4096, v0 (ix2 p k) * v2 (ix2 k q) + ∑ k : Fin 4096, v5 (ix2 p k) * v7 (ix2 k q))
                  + v11 (ix2 (0 : Fin 1) q))
            + Ideal.ofBits .f32 0x3F000000#32)) := by
  unfold Gen.k1_pay1
  simp only [shapeCast_self, minimumf_apply, maximumf_apply, addf_apply, mulf_apply, broadcast_apply,
    broadcastTo_1b_ab_apply, Ideal.ofBits_def]
  rw [mm_at, mm_at]

/-- The state body's result at (p, q): the blend of the old state and the candidate, whose argument's
    second product has the entrywise product of two blocks as its left operand. -/
theorem hh_at (v0 v2 : Vec Ideal S128x4096 .f32) (v5 : Vec Ideal S128x4096 .bf16) (v7 v10 : Vec Ideal S4096x512 .bf16)
    (v14 : Vec Ideal S1x512 .f32) (v19 v21 : Vec Ideal S128x512 .f32) (p : Fin 128) (q : Fin 512) :
    Gen.k2_pay1 (F := Ideal) v0 v2 v5 v7 v10 v14 v19 v21 (ix2 p q)
      = v19 (ix2 p q) * v21 (ix2 p q)
        + (Ideal.ofBits .f32 0x3F800000#32 - v19 (ix2 p q))
          * Ideal.tanh ((∑ k : Fin 4096, v5 (ix2 p k) * v7 (ix2 k q)
                + ∑ k : Fin 4096, (v0 (ix2 p k) * v2 (ix2 p k)) * v10 (ix2 k q))
              + v14 (ix2 (0 : Fin 1) q)) := by
  unfold Gen.k2_pay1
  simp only [shapeCast_self, addf_apply, mulf_apply, subf_apply, tanh_apply, broadcast_apply,
    broadcastTo_1b_ab_apply, Ideal.ofBits_def]
  rw [mm_at, mm_at]
  simp only [truncf_apply, mulf_apply]

end Cert.KernelIdeal.Pay

end
-- ==== Proof.KI.GateValue.lean ====
/-
  From blocks to the array, for the two gate launches.

  Each launch runs its body at the 64 points of an 8 × 8 grid.  At a point with coordinates (j, i) the body reads
  rows 128·i … 128·i + 127 of the two data arrays (all 4096 columns), columns 512·j … 512·j + 511 of the two
  weight matrices (all 4096 rows) and entries 512·j … 512·j + 511 of the bias row, and writes back the
  128 × 512 block of the output at row block i and column block j.  The stored block's entry (p, q) is the hard
  sigmoid  min 1 (max 0 (c₂ · ((x·K + h·R) + b) + c₅))  of two row-by-column sums over the full contracted axis and a
  bias entry, all read from the blocks; since a block entry IS the array entry at block index × block size + the
  entry's own coordinate, that is the specification's gate of the whole arrays at (128·i + p, 512·j + q).  So every
  point writes back its block of one whole-array function, the 64 blocks tile the 1024 × 4096 output, and the output
  array ends holding that function: the specification's gate of the five arrays as the launch found them.
  The float constants stay the words the program spells; nothing here depends on their values.
-/
import proofs.«115772_j51677046505498_1_alg».proof.Proof.Spec
import proofs.«115772_j51677046505498_1_alg».proof.Proof.KI.Gate0
import proofs.«115772_j51677046505498_1_alg».proof.Proof.KI.Gate1
import proofs.«115772_j51677046505498_1_alg».proof.Proof.PayloadAt
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.Pipeline (Dat)
open Idealize.ShloMosaic.ValueIdx (ix2 eq_ix2)

variable (V : (c : Dev nD) → (b : Ref sig .tc) → Buf (Elt Ideal) ((c : Thread nD τ).loc b))

theorem hz : (![0, 0] : Fin 2 → Nat) = fun _ => 0 := funext fun a => by fin_cases a <;> rfl

/-- One entry of a gate block. If row p of the two data blocks is row P of the data arrays, column q of the two
    weight blocks is column N of the weight matrices, and entry q of the bias block is entry N of the bias row,
    then the hard sigmoid of the two row-by-column sums plus the bias entry is the specification's gate at (P, N):
    both are the same expression in the same numbers. -/
theorem gate_entry (x h : Vec Ideal S128x4096 .bf16) (k r : Vec Ideal S4096x512 .bf16) (b : Vec Ideal S1x512 .f32)
    (X H : Fin 1024 → Fin 4096 → EReal) (Kf Rf : Fin 4096 → Fin 4096 → EReal) (bf : Fin 4096 → EReal)
    (P : Fin 1024) (N : Fin 4096) (p : Fin 128) (q : Fin 512)
    (hx : ∀ kk : Fin 4096, x (ix2 p kk) = X P kk) (hh : ∀ kk : Fin 4096, h (ix2 p kk) = H P kk)
    (hk : ∀ kk : Fin 4096, k (ix2 kk q) = Kf kk N) (hr : ∀ kk : Fin 4096, r (ix2 kk q) = Rf kk N)
    (hb : b (ix2 (0 : Fin 1) q) = bf N) :
    min (Ideal.ofBits .f32 0x3F800000#32) (max (Ideal.ofBits .f32 0x00000000#32)
        ((Ideal.ofBits .f32 0x3E4CCCCD#32)
            * ((∑ kk : Fin 4096, x (ix2 p kk) * k (ix2 kk q) + ∑ kk : Fin 4096, h (ix2 p kk) * r (ix2 kk q))
                + b (ix2 (0 : Fin 1) q))
          + (Ideal.ofBits .f32 0x3F000000#32)))
      = Cert.Spec.gate (Ideal.ofBits .f32 0x3E4CCCCD#32) (Ideal.ofBits .f32 0x3F000000#32) (Ideal.ofBits .f32 0x00000000#32) (Ideal.ofBits .f32 0x3F800000#32) X H Kf Rf bf P N := by
  unfold Cert.Spec.gate Cert.Spec.pre Cert.Spec.dot
  simp only [hx, hh, hk, hr, hb]

/-! ## The first gate launch -/

/-- The whole output array of the launch as one function of the five arrays it reads, as the launch finds them. -/
def gate0 (c : Dev nD) : S1024x4096.Idx → EReal := fun i =>
  Cert.Spec.gate (Ideal.ofBits .f32 0x3E4CCCCD#32) (Ideal.ofBits .f32 0x3F000000#32) (Ideal.ofBits .f32 0x00000000#32) (Ideal.ofBits .f32 0x3F800000#32)
    (fun (p : Fin 1024) (k : Fin 4096) => V c main_v54 (ix2 p k)) (fun (p : Fin 1024) (k : Fin 4096) => V c main_v55 (ix2 p k))
    (fun (k n : Fin 4096) => V c main_v48 (ix2 k n)) (fun (k n : Fin 4096) => V c main_v51 (ix2 k n))
    (fun (n : Fin 4096) => V c main_v39 (ix2 (0 : Fin 1) n)) (i 0) (i 1)

/-- The index maps over the 64 grid points: the two data windows move with the output's row block and stay at
    column block 0, the two weight windows and the bias window stay at row block 0 and move with the output's
    column block, and the output's block indices are below 8. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 7 ∧ win0_5.index t (1 : Fin 2) ≤ 7 :=
  (by decide +kernel : ∀ t : Fin grid0.N, _)

/-- Every pair of block indices below 8 is the output's at some grid point. -/
theorem idx_onto0 : ∀ (q0 q1 : Fin 8), ∃ t : Fin cfg0.N, win0_5.index t = ![q0.val, q1.val] :=
  (by decide +kernel : ∀ (q0 q1 : Fin 8), ∃ t : Fin grid0.N, win0_5.index t = ![q0.val, q1.val])

/-- An entry of a window's block at a point is the array's entry at block index × block size + the entry's own
    coordinate, on each axis. Window 0, the input rows: -/
theorem blk0_0 (c : Dev nD) (t : Fin cfg0.N) (p : Fin 128) (k : Fin 4096) (P : Fin 1024)
    (h0 : P.val = win0_0.index t (0 : Fin 2) * 128 + p.val) (h1 : win0_0.index t (1 : Fin 2) = 0) :
    Hand.iblk0 V c 0 t (ix2 p k) = V c main_v54 (ix2 P k) := by
  unfold Hand.iblk0
  rw [View.read_apply]
  show V c main_v54 _ = V c main_v54 _
  refine congrArg (V c main_v54) (funext fun a => Fin.ext ?_)
  match a with
  | ⟨0, _⟩ => show win0_0.index t (0 : Fin 2) * 128 + 1 * p.val = P.val; omega
  | ⟨1, _⟩ => show win0_0.index t (1 : Fin 2) * 4096 + 1 * k.val = k.val; omega

/-- Window 1, the state rows. -/
theorem blk0_1 (c : Dev nD) (t : Fin cfg0.N) (p : Fin 128) (k : Fin 4096) (P : Fin 1024)
    (h0 : P.val = win0_1.index t (0 : Fin 2) * 128 + p.val) (h1 : win0_1.index t (1 : Fin 2) = 0) :
    Hand.iblk0 V c 1 t (ix2 p k) = V c main_v55 (ix2 P k) := by
  unfold Hand.iblk0
  rw [View.read_apply]
  show V c main_v55 _ = V c main_v55 _
  refine congrArg (V c main_v55) (funext fun a => Fin.ext ?_)
  match a with
  | ⟨0, _⟩ => show win0_1.index t (0 : Fin 2) * 128 + 1 * p.val = P.val; omega
  | ⟨1, _⟩ => show win0_1.index t (1 : Fin 2) * 4096 + 1 * k.val = k.val; omega

/-- Window 2, the input matrix. -/
theorem blk0_2 (c : Dev nD) (t : Fin cfg0.N) (k : Fin 4096) (q : Fin 512) (N : Fin 4096)
    (h0 : win0_2.index t (0 : Fin 2) = 0) (h1 : N.val = win0_2.index t (1 : Fin 2) * 512 + q.val) :
    Hand.iblk0 V c 2 t (ix2 k q) = V c main_v48 (ix2 k N) := by
  unfold Hand.iblk0
  rw [View.read_apply]
  show V c main_v48 _ = V c main_v48 _
  refine congrArg (V c main_v48) (funext fun a => Fin.ext ?_)
  match a with
  | ⟨0, _⟩ => show win0_2.index t (0 : Fin 2) * 4096 + 1 * k.val = k.val; omega
  | ⟨1, _⟩ => show win0_2.index t (1 : Fin 2) * 512 + 1 * q.val = N.val; omega

/-- Window 3, the state matrix. -/
theorem blk0_3 (c : Dev nD) (t : Fin cfg0.N) (k : Fin 4096) (q : Fin 512) (N : Fin 4096)
    (h0 : win0_3.index t (0 : Fin 2) = 0) (h1 : N.val = win0_3.index t (1 : Fin 2) * 512 + q.val) :
    Hand.iblk0 V c 3 t (ix2 k q) = V c main_v51 (ix2 k N) := by
  unfold Hand.iblk0
  rw [View.read_apply]
  show V c main_v51 _ = V c main_v51 _
  refine congrArg (V c main_v51) (funext fun a => Fin.ext ?_)
  match a with
  | ⟨0, _⟩ => show win0_3.index t (0 : Fin 2) * 4096 + 1 * k.val = k.val; omega
  | ⟨1, _⟩ => show win0_3.index t (1 : Fin 2) * 512 + 1 * q.val = N.val; omega

/-- Window 4, the bias row. -/
theorem blk0_4 (c : Dev nD) (t : Fin cfg0.N) (q : Fin 512) (N : Fin 4096)
    (h0 : win0_4.index t (0 : Fin 2) = 0) (h1 : N.val = win0_4.index t (1 : Fin 2) * 512 + q.val) :
    Hand.iblk0 V c 4 t (ix2 (0 : Fin 1) q) = V c main_v39 (ix2 (0 : Fin 1) N) := by
  unfold Hand.iblk0
  rw [View.read_apply]
  show V c main_v39 _ = V c main_v39 _
  refine congrArg (V c main_v39) (funext fun a => Fin.ext ?_)
  match a with
  | ⟨0, _⟩ => show win0_4.index t (0 : Fin 2) * 1 + 1 * 0 = 0; omega
  | ⟨1, _⟩ => show win0_4.index t (1 : Fin 2) * 512 + 1 * q.val = N.val; omega

/-- What a grid point writes back is its block of `gate0`: the stored block is the body's payload of the five
    input blocks at the point, whose entry (p, q) is the hard sigmoid of two row-by-column sums and a bias entry
    of those blocks; each block entry is the array entry in the row block and column block of the output's block. -/
theorem flushed0_eq (c : Dev nD) (t : Fin cfg0.N) :
    (Hand.dat0 V c).flushed 5 t = ((cfg0.win 5).blk t).view.read (Elt Ideal) (gate0 V c) := by
  show (cfg0.win 5).cut (grid0.coords t) ((Hand.dat0 V c).after 5 t) = _
  rw [Hand.after0_5]
  unfold Hand.out0_5
  rw [View.canon_unit_zero hz]
  simp only [View.ld_unit_zero (S := S128x4096) hz, View.ld_unit_zero (S := S4096x512) hz, View.ld_unit_zero (S := S1x512) hz]
  funext j
  obtain ⟨p, q, rfl⟩ : ∃ (p : Fin 128) (q : Fin 512), j = ix2 p q := ⟨j 0, j 1, eq_ix2 j⟩
  obtain ⟨e00, e01, e10, e11, e20, e21, e30, e31, e40, e41, b0, b1⟩ := idx_facts0 t
  have hp : p.val < 128 := p.isLt
  have hq : q.val < 512 := q.isLt
  have hP : win0_5.index t (0 : Fin 2) * 128 + p.val < 1024 := by omega
  have hN : win0_5.index t (1 : Fin 2) * 512 + q.val < 4096 := by omega
  rw [View.read_apply]
  have hemb : ((cfg0.win 5).blk t).view.emb (ix2 p q)
      = ix2 (⟨win0_5.index t (0 : Fin 2) * 128 + p.val, hP⟩ : Fin 1024) (⟨win0_5.index t (1 : Fin 2) * 512 + q.val, hN⟩ : Fin 4096) :=
    funext fun a => Fin.ext (by
      match a with
      | ⟨0, _⟩ => show win0_5.index t (0 : Fin 2) * 128 + 1 * p.val = win0_5.index t (0 : Fin 2) * 128 + p.val; omega
      | ⟨1, _⟩ => show win0_5.index t (1 : Fin 2) * 512 + 1 * q.val = win0_5.index t (1 : Fin 2) * 512 + q.val; omega)
  rw [hemb]
  show Gen.k0_pay1 (F := Ideal) (Hand.iblk0 V c 0 t) (Hand.iblk0 V c 2 t) (Hand.iblk0 V c 1 t) (Hand.iblk0 V c 3 t) (Hand.iblk0 V c 4 t) (ix2 p q) = _
  rw [Pay.gate0_at]
  exact gate_entry (Hand.iblk0 V c 0 t) (Hand.iblk0 V c 1 t) (Hand.iblk0 V c 2 t) (Hand.iblk0 V c 3 t) (Hand.iblk0 V c 4 t) _ _ _ _ _
    ⟨win0_5.index t (0 : Fin 2) * 128 + p.val, hP⟩ ⟨win0_5.index t (1 : Fin 2) * 512 + q.val, hN⟩ p q
    (fun kk => blk0_0 V c t p kk _ (by show win0_5.index t (0 : Fin 2) * 128 + p.val = _; omega) e01)
    (fun kk => blk0_1 V c t p kk _ (by show win0_5.index t (0 : Fin 2) * 128 + p.val = _; omega) e11)
    (fun kk => blk0_2 V c t kk q _ e20 (by show win0_5.index t (1 : Fin 2) * 512 + q.val = _; omega))
    (fun kk => blk0_3 V c t kk q _ e30 (by show win0_5.index t (1 : Fin 2) * 512 + q.val = _; omega))
    (blk0_4 V c t q _ e40 (by show win0_5.index t (1 : Fin 2) * 512 + q.val = _; omega))

/-- An index of the output array lies in a point's block exactly when each coordinate lies in the block's range. -/
theorem mem_blk0 (t : Fin cfg0.N) (i : S1024x4096.Idx) :
    i ∈ ((cfg0.win 5).blk t).view.set ↔ ∀ a : Fin 2, win0_5.index t a * S128x512.size a ≤ (i a).val ∧ (i a).val < win0_5.index t a * S128x512.size a + S128x512.size a := by
  show i ∈ ((View.whole main_v56).slice (win0_5.rect t)).set ↔ _
  rw [View.set_slice_whole, Rect.mem_set_unit]
  exact Iff.rfl

/-- The 64 blocks tile the output array: the entry (r, s) lies in the block of the point whose output block
    index is (r / 128, s / 512), and every point writes its block back. -/
theorem cover0 (i : S1024x4096.Idx) :
    ∃ t : Fin cfg0.N, (cfg0.win 5).flush t = true ∧ i ∈ ((cfg0.win 5).blk t).view.set := by
  have hi0 : (i 0).val < 1024 := (i 0).isLt
  have hi1 : (i 1).val < 4096 := (i 1).isLt
  obtain ⟨t, ht⟩ := idx_onto0 ⟨(i 0).val / 128, by omega⟩ ⟨(i 1).val / 512, by omega⟩
  have q0 : win0_5.index t (0 : Fin 2) = (i 0).val / 128 := congrFun ht 0
  have q1 : win0_5.index t (1 : Fin 2) = (i 1).val / 512 := congrFun ht 1
  refine ⟨t, flush0_5 t, ?_⟩
  rw [mem_blk0]
  intro a
  match a with
  | ⟨0, _⟩ => show win0_5.index t (0 : Fin 2) * 128 ≤ (i 0).val ∧ (i 0).val < win0_5.index t (0 : Fin 2) * 128 + 128; omega
  | ⟨1, _⟩ => show win0_5.index t (1 : Fin 2) * 512 ≤ (i 1).val ∧ (i 1).val < win0_5.index t (1 : Fin 2) * 512 + 512; omega

/-- The output array after the launch is `gate0` of the arrays the launch found. -/
theorem final0 (c : Dev nD) : (Hand.dat0 V c).arrAt 5 cfg0.N = gate0 V c :=
  (Hand.dat0 V c).arrAt_eq_of_cover 5 (gate0 V c) (fun t _ => flushed0_eq V c t) (cover0)

/-- Entry by entry: the launch leaves the specification's gate of its five arrays. -/
theorem gate0_final (c : Dev nD) (p : Fin 1024) (n : Fin 4096) :
    (Hand.dat0 V c).arrAt 5 cfg0.N (ix2 p n)
      = Cert.Spec.gate (Ideal.ofBits .f32 0x3E4CCCCD#32) (Ideal.ofBits .f32 0x3F000000#32) (Ideal.ofBits .f32 0x00000000#32) (Ideal.ofBits .f32 0x3F800000#32)
    (fun (p : Fin 1024) (k : Fin 4096) => V c main_v54 (ix2 p k)) (fun (p : Fin 1024) (k : Fin 4096) => V c main_v55 (ix2 p k))
    (fun (k n : Fin 4096) => V c main_v48 (ix2 k n)) (fun (k n : Fin 4096) => V c main_v51 (ix2 k n))
    (fun (n : Fin 4096) => V c main_v39 (ix2 (0 : Fin 1) n)) p n :=
  congrFun (final0 V c) (ix2 p n)

/-! ## The second gate launch -/

/-- The whole output array of the launch as one function of the five arrays it reads, as the launch finds them. -/
def gate1 (c : Dev nD) : S1024x4096.Idx → EReal := fun i =>
  Cert.Spec.gate (Ideal.ofBits .f32 0x3E4CCCCD#32) (Ideal.ofBits .f32 0x3F000000#32) (Ideal.ofBits .f32 0x00000000#32) (Ideal.ofBits .f32 0x3F800000#32)
    (fun (p : Fin 1024) (k : Fin 4096) => V c main_v54 (ix2 p k)) (fun (p : Fin 1024) (k : Fin 4096) => V c main_v55 (ix2 p k))
    (fun (k n : Fin 4096) => V c main_v49 (ix2 k n)) (fun (k n : Fin 4096) => V c main_v52 (ix2 k n))
    (fun (n : Fin 4096) => V c main_v43 (ix2 (0 : Fin 1) n)) (i 0) (i 1)

/-- The index maps over the 64 grid points: the two data windows move with the output's row block and stay at
    column block 0, the two weight windows and the bias window stay at row block 0 and move with the output's
    column block, and the output's block indices are below 8. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = win1_5.index t (1 : Fin 2)
    ∧ win1_3.index t (0 : Fin 2) = 0 ∧ win1_3.index t (1 : Fin 2) = win1_5.index t (1 : Fin 2)
    ∧ win1_4.index t (0 : Fin 2) = 0 ∧ win1_4.index t (1 : Fin 2) = win1_5.index t (1 : Fin 2)
    ∧ win1_5.index t (0 : Fin 2) ≤ 7 ∧ win1_5.index t (1 : Fin 2) ≤ 7 :=
  (by decide +kernel : ∀ t : Fin grid1.N, _)

/-- Every pair of block indices below 8 is the output's at some grid point. -/
theorem idx_onto1 : ∀ (q0 q1 : Fin 8), ∃ t : Fin cfg1.N, win1_5.index t = ![q0.val, q1.val] :=
  (by decide +kernel : ∀ (q0 q1 : Fin 8), ∃ t : Fin grid1.N, win1_5.index t = ![q0.val, q1.val])

/-- An entry of a window's block at a point is the array's entry at block index × block size + the entry's own
    coordinate, on each axis. Window 0, the input rows: -/
theorem blk1_0 (c : Dev nD) (t : Fin cfg1.N) (p : Fin 128) (k : Fin 4096) (P : Fin 1024)
    (h0 : P.val = win1_0.index t (0 : Fin 2) * 128 + p.val) (h1 : win1_0.index t (1 : Fin 2) = 0) :
    Hand.iblk1 V c 0 t (ix2 p k) = V c main_v54 (ix2 P k) := by
  unfold Hand.iblk1
  rw [View.read_apply]
  show V c main_v54 _ = V c main_v54 _
  refine congrArg (V c main_v54) (funext fun a => Fin.ext ?_)
  match a with
  | ⟨0, _⟩ => show win1_0.index t (0 : Fin 2) * 128 + 1 * p.val = P.val; omega
  | ⟨1, _⟩ => show win1_0.index t (1 : Fin 2) * 4096 + 1 * k.val = k.val; omega

/-- Window 1, the state rows. -/
theorem blk1_1 (c : Dev nD) (t : Fin cfg1.N) (p : Fin 128) (k : Fin 4096) (P : Fin 1024)
    (h0 : P.val = win1_1.index t (0 : Fin 2) * 128 + p.val) (h1 : win1_1.index t (1 : Fin 2) = 0) :
    Hand.iblk1 V c 1 t (ix2 p k) = V c main_v55 (ix2 P k) := by
  unfold Hand.iblk1
  rw [View.read_apply]
  show V c main_v55 _ = V c main_v55 _
  refine congrArg (V c main_v55) (funext fun a => Fin.ext ?_)
  match a with
  | ⟨0, _⟩ => show win1_1.index t (0 : Fin 2) * 128 + 1 * p.val = P.val; omega
  | ⟨1, _⟩ => show win1_1.index t (1 : Fin 2) * 4096 + 1 * k.val = k.val; omega

/-- Window 2, the input matrix. -/
theorem blk1_2 (c : Dev nD) (t : Fin cfg1.N) (k : Fin 4096) (q : Fin 512) (N : Fin 4096)
    (h0 : win1_2.index t (0 : Fin 2) = 0) (h1 : N.val = win1_2.index t (1 : Fin 2) * 512 + q.val) :
    Hand.iblk1 V c 2 t (ix2 k q) = V c main_v49 (ix2 k N) := by
  unfold Hand.iblk1
  rw [View.read_apply]
  show V c main_v49 _ = V c main_v49 _
  refine congrArg (V c main_v49) (funext fun a => Fin.ext ?_)
  match a with
  | ⟨0, _⟩ => show win1_2.index t (0 : Fin 2) * 4096 + 1 * k.val = k.val; omega
  | ⟨1, _⟩ => show win1_2.index t (1 : Fin 2) * 512 + 1 * q.val = N.val; omega

/-- Window 3, the state matrix. -/
theorem blk1_3 (c : Dev nD) (t : Fin cfg1.N) (k : Fin 4096) (q : Fin 512) (N : Fin 4096)
    (h0 : win1_3.index t (0 : Fin 2) = 0) (h1 : N.val = win1_3.index t (1 : Fin 2) * 512 + q.val) :
    Hand.iblk1 V c 3 t (ix2 k q) = V c main_v52 (ix2 k N) := by
  unfold Hand.iblk1
  rw [View.read_apply]
  show V c main_v52 _ = V c main_v52 _
  refine congrArg (V c main_v52) (funext fun a => Fin.ext ?_)
  match a with
  | ⟨0, _⟩ => show win1_3.index t (0 : Fin 2) * 4096 + 1 * k.val = k.val; omega
  | ⟨1, _⟩ => show win1_3.index t (1 : Fin 2) * 512 + 1 * q.val = N.val; omega

/-- Window 4, the bias row. -/
theorem blk1_4 (c : Dev nD) (t : Fin cfg1.N) (q : Fin 512) (N : Fin 4096)
    (h0 : win1_4.index t (0 : Fin 2) = 0) (h1 : N.val = win1_4.index t (1 : Fin 2) * 512 + q.val) :
    Hand.iblk1 V c 4 t (ix2 (0 : Fin 1) q) = V c main_v43 (ix2 (0 : Fin 1) N) := by
  unfold Hand.iblk1
  rw [View.read_apply]
  show V c main_v43 _ = V c main_v43 _
  refine congrArg (V c main_v43) (funext fun a => Fin.ext ?_)
  match a with
  | ⟨0, _⟩ => show win1_4.index t (0 : Fin 2) * 1 + 1 * 0 = 0; omega
  | ⟨1, _⟩ => show win1_4.index t (1 : Fin 2) * 512 + 1 * q.val = N.val; omega

/-- What a grid point writes back is its block of `gate1`: the stored block is the body's payload of the five
    input blocks at the point, whose entry (p, q) is the hard sigmoid of two row-by-column sums and a bias entry
    of those blocks; each block entry is the array entry in the row block and column block of the output's block. -/
theorem flushed1_eq (c : Dev nD) (t : Fin cfg1.N) :
    (Hand.dat1 V c).flushed 5 t = ((cfg1.win 5).blk t).view.read (Elt Ideal) (gate1 V c) := by
  show (cfg1.win 5).cut (grid1.coords t) ((Hand.dat1 V c).after 5 t) = _
  rw [Hand.after1_5]
  unfold Hand.out1_5
  rw [View.canon_unit_zero hz]
  simp only [View.ld_unit_zero (S := S128x4096) hz, View.ld_unit_zero (S := S4096x512) hz, View.ld_unit_zero (S := S1x512) hz]
  funext j
  obtain ⟨p, q, rfl⟩ : ∃ (p : Fin 128) (q : Fin 512), j = ix2 p q := ⟨j 0, j 1, eq_ix2 j⟩
  obtain ⟨e00, e01, e10, e11, e20, e21, e30, e31, e40, e41, b0, b1⟩ := idx_facts1 t
  have hp : p.val < 128 := p.isLt
  have hq : q.val < 512 := q.isLt
  have hP : win1_5.index t (0 : Fin 2) * 128 + p.val < 1024 := by omega
  have hN : win1_5.index t (1 : Fin 2) * 512 + q.val < 4096 := by omega
  rw [View.read_apply]
  have hemb : ((cfg1.win 5).blk t).view.emb (ix2 p q)
      = ix2 (⟨win1_5.index t (0 : Fin 2) * 128 + p.val, hP⟩ : Fin 1024) (⟨win1_5.index t (1 : Fin 2) * 512 + q.val, hN⟩ : Fin 4096) :=
    funext fun a => Fin.ext (by
      match a with
      | ⟨0, _⟩ => show win1_5.index t (0 : Fin 2) * 128 + 1 * p.val = win1_5.index t (0 : Fin 2) * 128 + p.val; omega
      | ⟨1, _⟩ => show win1_5.index t (1 : Fin 2) * 512 + 1 * q.val = win1_5.index t (1 : Fin 2) * 512 + q.val; omega)
  rw [hemb]
  show Gen.k1_pay1 (F := Ideal) (Hand.iblk1 V c 0 t) (Hand.iblk1 V c 2 t) (Hand.iblk1 V c 1 t) (Hand.iblk1 V c 3 t) (Hand.iblk1 V c 4 t) (ix2 p q) = _
  rw [Pay.gate1_at]
  exact gate_entry (Hand.iblk1 V c 0 t) (Hand.iblk1 V c 1 t) (Hand.iblk1 V c 2 t) (Hand.iblk1 V c 3 t) (Hand.iblk1 V c 4 t) _ _ _ _ _
    ⟨win1_5.index t (0 : Fin 2) * 128 + p.val, hP⟩ ⟨win1_5.index t (1 : Fin 2) * 512 + q.val, hN⟩ p q
    (fun kk => blk1_0 V c t p kk _ (by show win1_5.index t (0 : Fin 2) * 128 + p.val = _; omega) e01)
    (fun kk => blk1_1 V c t p kk _ (by show win1_5.index t (0 : Fin 2) * 128 + p.val = _; omega) e11)
    (fun kk => blk1_2 V c t kk q _ e20 (by show win1_5.index t (1 : Fin 2) * 512 + q.val = _; omega))
    (fun kk => blk1_3 V c t kk q _ e30 (by show win1_5.index t (1 : Fin 2) * 512 + q.val = _; omega))
    (blk1_4 V c t q _ e40 (by show win1_5.index t (1 : Fin 2) * 512 + q.val = _; omega))

/-- An index of the output array lies in a point's block exactly when each coordinate lies in the block's range. -/
theorem mem_blk1 (t : Fin cfg1.N) (i : S1024x4096.Idx) :
    i ∈ ((cfg1.win 5).blk t).view.set ↔ ∀ a : Fin 2, win1_5.index t a * S128x512.size a ≤ (i a).val ∧ (i a).val < win1_5.index t a * S128x512.size a + S128x512.size a := by
  show i ∈ ((View.whole main_v57).slice (win1_5.rect t)).set ↔ _
  rw [View.set_slice_whole, Rect.mem_set_unit]
  exact Iff.rfl

/-- The 64 blocks tile the output array: the entry (r, s) lies in the block of the point whose output block
    index is (r / 128, s / 512), and every point writes its block back. -/
theorem cover1 (i : S1024x4096.Idx) :
    ∃ t : Fin cfg1.N, (cfg1.win 5).flush t = true ∧ i ∈ ((cfg1.win 5).blk t).view.set := by
  have hi0 : (i 0).val < 1024 := (i 0).isLt
  have hi1 : (i 1).val < 4096 := (i 1).isLt
  obtain ⟨t, ht⟩ := idx_onto1 ⟨(i 0).val / 128, by omega⟩ ⟨(i 1).val / 512, by omega⟩
  have q0 : win1_5.index t (0 : Fin 2) = (i 0).val / 128 := congrFun ht 0
  have q1 : win1_5.index t (1 : Fin 2) = (i 1).val / 512 := congrFun ht 1
  refine ⟨t, flush1_5 t, ?_⟩
  rw [mem_blk1]
  intro a
  match a with
  | ⟨0, _⟩ => show win1_5.index t (0 : Fin 2) * 128 ≤ (i 0).val ∧ (i 0).val < win1_5.index t (0 : Fin 2) * 128 + 128; omega
  | ⟨1, _⟩ => show win1_5.index t (1 : Fin 2) * 512 ≤ (i 1).val ∧ (i 1).val < win1_5.index t (1 : Fin 2) * 512 + 512; omega

/-- The output array after the launch is `gate1` of the arrays the launch found. -/
theorem final1 (c : Dev nD) : (Hand.dat1 V c).arrAt 5 cfg1.N = gate1 V c :=
  (Hand.dat1 V c).arrAt_eq_of_cover 5 (gate1 V c) (fun t _ => flushed1_eq V c t) (cover1)

/-- Entry by entry: the launch leaves the specification's gate of its five arrays. -/
theorem gate1_final (c : Dev nD) (p : Fin 1024) (n : Fin 4096) :
    (Hand.dat1 V c).arrAt 5 cfg1.N (ix2 p n)
      = Cert.Spec.gate (Ideal.ofBits .f32 0x3E4CCCCD#32) (Ideal.ofBits .f32 0x3F000000#32) (Ideal.ofBits .f32 0x00000000#32) (Ideal.ofBits .f32 0x3F800000#32)
    (fun (p : Fin 1024) (k : Fin 4096) => V c main_v54 (ix2 p k)) (fun (p : Fin 1024) (k : Fin 4096) => V c main_v55 (ix2 p k))
    (fun (k n : Fin 4096) => V c main_v49 (ix2 k n)) (fun (k n : Fin 4096) => V c main_v52 (ix2 k n))
    (fun (n : Fin 4096) => V c main_v43 (ix2 (0 : Fin 1) n)) p n :=
  congrFun (final1 V c) (ix2 p n)

end Cert.KernelIdeal.Val

end
-- ==== Proof.KI.HhValue.lean ====
/-
  The third kernel region's output array after the run, at the ideal values, as one function of the arrays
  the region finds on a core.

  The region walks an 8 × 8 grid of points; at the point with row block i and column block j it writes back
  the [128, 512] tile (i, j) of its output.  The tile is the body's stored value of the eight blocks loaded
  there: rows i of the input x, of the reset gate r and of the old state h (all 4096 columns), columns j of the
  two matrices K and R (all 4096 rows) and of the bias row, and tile (i, j) of the update gate z and of h.
  Entry (a, b) of the stored tile is z·h + (1 − z)·tanh ((∑ₖ x·K + ∑ₖ (r·h)·R) + bias) read at row
  i·128 + a and column j·512 + b of the arrays: each block entry is its array's entry at block index × block
  size + the entry's own coordinate.  So every point writes its tile of ONE function of the arrays, the tiles
  cover the array (entry (p, n) lies in the tile with i = p / 128, j = n / 512), and the array ends holding
  that function everywhere.
-/
import proofs.«115772_j51677046505498_1_alg».proof.Proof.KI.Hh2
import proofs.«115772_j51677046505498_1_alg».proof.Proof.PayloadAt
import proofs.«115772_j51677046505498_1_alg».proof.Proof.Spec
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets, however spelt. -/
theorem hz_hh : (![0, 0] : Fin 2 → Nat) = fun _ => 0 := funext fun a => by fin_cases a <;> rfl

/-- The new state from the update gate z, the old state h, the input rows x, the reset gate r, the
    candidate's two matrices and its bias row: z ∘ h + (1 − z) ∘ cand, entry by entry. -/
def hhState (th : EReal → EReal) (one : EReal) (z h x r : Fin 1024 → Fin 4096 → EReal)
    (K R : Fin 4096 → Fin 4096 → EReal) (b : Fin 4096 → EReal) (p : Fin 1024) (n : Fin 4096) : EReal :=
  z p n * h p n + (one - z p n) * Cert.Spec.cand th x h r K R b p n

/-- The printed index maps, decided over the grid: the row windows move with the output's row block and
    stay at column block 0, the matrix and bias windows move with its column block and stay at row block 0,
    the two tile windows move with both; the output's block indices stay below 8. -/
theorem idx_facts_hh : ∀ t : Fin cfg2.N,
    win2_0.index t (0 : Fin 2) = win2_8.index t (0 : Fin 2) ∧ win2_0.index t (1 : Fin 2) = 0
    ∧ win2_1.index t (0 : Fin 2) = 0 ∧ win2_1.index t (1 : Fin 2) = win2_8.index t (1 : Fin 2)
    ∧ win2_2.index t (0 : Fin 2) = win2_8.index t (0 : Fin 2) ∧ win2_2.index t (1 : Fin 2) = 0
    ∧ win2_3.index t (0 : Fin 2) = win2_8.index t (0 : Fin 2) ∧ win2_3.index t (1 : Fin 2) = 0
    ∧ win2_4.index t (0 : Fin 2) = 0 ∧ win2_4.index t (1 : Fin 2) = win2_8.index t (1 : Fin 2)
    ∧ win2_5.index t (0 : Fin 2) = win2_8.index t (0 : Fin 2) ∧ win2_5.index t (1 : Fin 2) = win2_8.index t (1 : Fin 2)
    ∧ win2_6.index t (0 : Fin 2) = win2_8.index t (0 : Fin 2) ∧ win2_6.index t (1 : Fin 2) = win2_8.index t (1 : Fin 2)
    ∧ win2_7.index t (0 : Fin 2) = 0 ∧ win2_7.index t (1 : Fin 2) = win2_8.index t (1 : Fin 2)
    ∧ win2_8.index t (0 : Fin 2) ≤ 7 ∧ win2_8.index t (1 : Fin 2) ≤ 7 :=
  (by decide +kernel : ∀ t : Fin grid2.N, _)

/-- Every pair of block indices is some point's. -/
theorem idx_onto_hh : ∀ (q0 : Fin 8) (q1 : Fin 8), ∃ t : Fin cfg2.N, win2_8.index t = ![q0.val, q1.val] :=
  (by decide +kernel : ∀ (q0 : Fin 8) (q1 : Fin 8), ∃ t : Fin grid2.N, win2_8.index t = ![q0.val, q1.val])

/-- ONE POINT, over variables: if each loaded block is its array's block at row block i0 and column block j0
    (the row windows at column block 0, the matrix and bias windows at row block 0), the stored block's entry
    (a, b) is the new state at row i0·128 + a and column j0·512 + b. -/
theorem hh_point (x0 : Vec Ideal S128x4096 .bf16) (x1 : Vec Ideal S4096x512 .bf16) (x2 x3 : Vec Ideal S128x4096 .f32)
    (x4 : Vec Ideal S4096x512 .bf16) (x5 x6 : Vec Ideal S128x512 .f32) (x7 : Vec Ideal S1x512 .f32)
    (X Rg H Z : S1024x4096.Idx → EReal) (K R : S4096x4096.Idx → EReal) (B : S1x4096.Idx → EReal)
    (i0 j0 : ℕ) (hi0 : i0 ≤ 7) (hj0 : j0 ≤ 7)
    (h0 : ∀ (a : Fin 128) (k : Fin 4096), x0 (ix2 a k) = X (ix2 (⟨i0 * 128 + a.val, by omega⟩ : Fin 1024) k))
    (h1 : ∀ (k : Fin 4096) (b : Fin 512), x1 (ix2 k b) = K (ix2 k (⟨j0 * 512 + b.val, by omega⟩ : Fin 4096)))
    (h2 : ∀ (a : Fin 128) (k : Fin 4096), x2 (ix2 a k) = Rg (ix2 (⟨i0 * 128 + a.val, by omega⟩ : Fin 1024) k))
    (h3 : ∀ (a : Fin 128) (k : Fin 4096), x3 (ix2 a k) = H (ix2 (⟨i0 * 128 + a.val, by omega⟩ : Fin 1024) k))
    (h4 : ∀ (k : Fin 4096) (b : Fin 512), x4 (ix2 k b) = R (ix2 k (⟨j0 * 512 + b.val, by omega⟩ : Fin 4096)))
    (h5 : ∀ (a : Fin 128) (b : Fin 512), x5 (ix2 a b) = Z (ix2 (⟨i0 * 128 + a.val, by omega⟩ : Fin 1024) (⟨j0 * 512 + b.val, by omega⟩ : Fin 4096)))
    (h6 : ∀ (a : Fin 128) (b : Fin 512), x6 (ix2 a b) = H (ix2 (⟨i0 * 128 + a.val, by omega⟩ : Fin 1024) (⟨j0 * 512 + b.val, by omega⟩ : Fin 4096)))
    (h7 : ∀ (b : Fin 512), x7 (ix2 (0 : Fin 1) b) = B (ix2 (0 : Fin 1) (⟨j0 * 512 + b.val, by omega⟩ : Fin 4096)))
    (a : Fin 128) (b : Fin 512) :
    k2_pay1 (F := Ideal) x2 x3 x0 x1 x4 x7 x5 x6 (ix2 a b)
      = hhState Ideal.tanh (Ideal.ofBits .f32 0x3F800000#32) (fun p n => Z (ix2 p n)) (fun p n => H (ix2 p n))
          (fun p k => X (ix2 p k)) (fun p k => Rg (ix2 p k)) (fun k n => K (ix2 k n)) (fun k n => R (ix2 k n))
          (fun n => B (ix2 (0 : Fin 1) n)) (⟨i0 * 128 + a.val, by omega⟩ : Fin 1024) (⟨j0 * 512 + b.val, by omega⟩ : Fin 4096) := by
  rw [Pay.hh_at]
  unfold hhState Cert.Spec.cand Cert.Spec.pre Cert.Spec.dot
  simp only [h0, h1, h2, h3, h4, h5, h6, h7]

/-! ## Each input block is its array's block -/

/-- The input rows' block at a point, entry (a, k): the array's entry at row block i0. -/
theorem iblk_hh_0 (c : Dev nD) (t : Fin cfg2.N) (i0 : ℕ) (hi : i0 ≤ 7) (e0 : win2_0.index t (0 : Fin 2) = i0) (e1 : win2_0.index t (1 : Fin 2) = 0)
    (a : Fin 128) (k : Fin 4096) :
    (Hand.iblk2 V c 0 t : Vec Ideal S128x4096 .bf16) (ix2 a k)
      = (V c main_v54 : S1024x4096.Idx → EReal) (ix2 (⟨i0 * 128 + a.val, by omega⟩ : Fin 1024) k) := by
  unfold Hand.iblk2
  rw [View.read_apply]
  show V c main_v54 _ = V c main_v54 _
  congr 1
  funext ax
  apply Fin.ext
  match ax with
  | ⟨0, _⟩ => show win2_0.index t (0 : Fin 2) * 128 + 1 * a.val = i0 * 128 + a.val; rw [e0]; omega
  | ⟨1, _⟩ => show win2_0.index t (1 : Fin 2) * 4096 + 1 * k.val = k.val; rw [e1]; omega

/-- The input matrix's block at a point, entry (k, b): the array's entry at column block j0. -/
theorem iblk_hh_1 (c : Dev nD) (t : Fin cfg2.N) (j0 : ℕ) (hj : j0 ≤ 7) (e0 : win2_1.index t (0 : Fin 2) = 0) (e1 : win2_1.index t (1 : Fin 2) = j0)
    (k : Fin 4096) (b : Fin 512) :
    (Hand.iblk2 V c 1 t : Vec Ideal S4096x512 .bf16) (ix2 k b)
      = (V c main_v50 : S4096x4096.Idx → EReal) (ix2 k (⟨j0 * 512 + b.val, by omega⟩ : Fin 4096)) := by
  unfold Hand.iblk2
  rw [View.read_apply]
  show V c main_v50 _ = V c main_v50 _
  congr 1
  funext ax
  apply Fin.ext
  match ax with
  | ⟨0, _⟩ => show win2_1.index t (0 : Fin 2) * 4096 + 1 * k.val = k.val; rw [e0]; omega
  | ⟨1, _⟩ => show win2_1.index t (1 : Fin 2) * 512 + 1 * b.val = j0 * 512 + b.val; rw [e1]; omega

/-- The reset gate's block at a point, entry (a, k): the array's entry at row block i0. -/
theorem iblk_hh_2 (c : Dev nD) (t : Fin cfg2.N) (i0 : ℕ) (hi : i0 ≤ 7) (e0 : win2_2.index t (0 : Fin 2) = i0) (e1 : win2_2.index t (1 : Fin 2) = 0)
    (a : Fin 128) (k : Fin 4096) :
    (Hand.iblk2 V c 2 t : Vec Ideal S128x4096 .f32) (ix2 a k)
      = (V c main_v57 : S1024x4096.Idx → EReal) (ix2 (⟨i0 * 128 + a.val, by omega⟩ : Fin 1024) k) := by
  unfold Hand.iblk2
  rw [View.read_apply]
  show V c main_v57 _ = V c main_v57 _
  congr 1
  funext ax
  apply Fin.ext
  match ax with
  | ⟨0, _⟩ => show win2_2.index t (0 : Fin 2) * 128 + 1 * a.val = i0 * 128 + a.val; rw [e0]; omega
  | ⟨1, _⟩ => show win2_2.index t (1 : Fin 2) * 4096 + 1 * k.val = k.val; rw [e1]; omega

/-- The old state's row block at a point, entry (a, k): the array's entry at row block i0. -/
theorem iblk_hh_3 (c : Dev nD) (t : Fin cfg2.N) (i0 : ℕ) (hi : i0 ≤ 7) (e0 : win2_3.index t (0 : Fin 2) = i0) (e1 : win2_3.index t (1 : Fin 2) = 0)
    (a : Fin 128) (k : Fin 4096) :
    (Hand.iblk2 V c 3 t : Vec Ideal S128x4096 .f32) (ix2 a k)
      = (V c main_arg1 : S1024x4096.Idx → EReal) (ix2 (⟨i0 * 128 + a.val, by omega⟩ : Fin 1024) k) := by
  unfold Hand.iblk2
  rw [View.read_apply]
  show V c main_arg1 _ = V c main_arg1 _
  congr 1
  funext ax
  apply Fin.ext
  match ax with
  | ⟨0, _⟩ => show win2_3.index t (0 : Fin 2) * 128 + 1 * a.val = i0 * 128 + a.val; rw [e0]; omega
  | ⟨1, _⟩ => show win2_3.index t (1 : Fin 2) * 4096 + 1 * k.val = k.val; rw [e1]; omega

/-- The state matrix's block at a point, entry (k, b): the array's entry at column block j0. -/
theorem iblk_hh_4 (c : Dev nD) (t : Fin cfg2.N) (j0 : ℕ) (hj : j0 ≤ 7) (e0 : win2_4.index t (0 : Fin 2) = 0) (e1 : win2_4.index t (1 : Fin 2) = j0)
    (k : Fin 4096) (b : Fin 512) :
    (Hand.iblk2 V c 4 t : Vec Ideal S4096x512 .bf16) (ix2 k b)
      = (V c main_v53 : S4096x4096.Idx → EReal) (ix2 k (⟨j0 * 512 + b.val, by omega⟩ : Fin 4096)) := by
  unfold Hand.iblk2
  rw [View.read_apply]
  show V c main_v53 _ = V c main_v53 _
  congr 1
  funext ax
  apply Fin.ext
  match ax with
  | ⟨0, _⟩ => show win2_4.index t (0 : Fin 2) * 4096 + 1 * k.val = k.val; rw [e0]; omega
  | ⟨1, _⟩ => show win2_4.index t (1 : Fin 2) * 512 + 1 * b.val = j0 * 512 + b.val; rw [e1]; omega

/-- The update gate's block at a point, entry (a, b): the array's entry at row block i0 and column block j0. -/
theorem iblk_hh_5 (c : Dev nD) (t : Fin cfg2.N) (i0 j0 : ℕ) (hi : i0 ≤ 7) (hj : j0 ≤ 7) (e0 : win2_5.index t (0 : Fin 2) = i0) (e1 : win2_5.index t (1 : Fin 2) = j0)
    (a : Fin 128) (b : Fin 512) :
    (Hand.iblk2 V c 5 t : Vec Ideal S128x512 .f32) (ix2 a b)
      = (V c main_v56 : S1024x4096.Idx → EReal) (ix2 (⟨i0 * 128 + a.val, by omega⟩ : Fin 1024) (⟨j0 * 512 + b.val, by omega⟩ : Fin 4096)) := by
  unfold Hand.iblk2
  rw [View.read_apply]
  show V c main_v56 _ = V c main_v56 _
  congr 1
  funext ax
  apply Fin.ext
  match ax with
  | ⟨0, _⟩ => show win2_5.index t (0 : Fin 2) * 128 + 1 * a.val = i0 * 128 + a.val; rw [e0]; omega
  | ⟨1, _⟩ => show win2_5.index t (1 : Fin 2) * 512 + 1 * b.val = j0 * 512 + b.val; rw [e1]; omega

/-- The old state's tile block at a point, entry (a, b): the array's entry at row block i0 and column block j0. -/
theorem iblk_hh_6 (c : Dev nD) (t : Fin cfg2.N) (i0 j0 : ℕ) (hi : i0 ≤ 7) (hj : j0 ≤ 7) (e0 : win2_6.index t (0 : Fin 2) = i0) (e1 : win2_6.index t (1 : Fin 2) = j0)
    (a : Fin 128) (b : Fin 512) :
    (Hand.iblk2 V c 6 t : Vec Ideal S128x512 .f32) (ix2 a b)
      = (V c main_arg1 : S1024x4096.Idx → EReal) (ix2 (⟨i0 * 128 + a.val, by omega⟩ : Fin 1024) (⟨j0 * 512 + b.val, by omega⟩ : Fin 4096)) := by
  unfold Hand.iblk2
  rw [View.read_apply]
  show V c main_arg1 _ = V c main_arg1 _
  congr 1
  funext ax
  apply Fin.ext
  match ax with
  | ⟨0, _⟩ => show win2_6.index t (0 : Fin 2) * 128 + 1 * a.val = i0 * 128 + a.val; rw [e0]; omega
  | ⟨1, _⟩ => show win2_6.index t (1 : Fin 2) * 512 + 1 * b.val = j0 * 512 + b.val; rw [e1]; omega

/-- The bias window's block at a point, entry (0, b): the bias row's entry at column block j0. -/
theorem iblk_hh_7 (c : Dev nD) (t : Fin cfg2.N) (j0 : ℕ) (hj : j0 ≤ 7) (e0 : win2_7.index t (0 : Fin 2) = 0) (e1 : win2_7.index t (1 : Fin 2) = j0)
    (b : Fin 512) :
    (Hand.iblk2 V c 7 t : Vec Ideal S1x512 .f32) (ix2 (0 : Fin 1) b)
      = (V c main_v47 : S1x4096.Idx → EReal) (ix2 (0 : Fin 1) (⟨j0 * 512 + b.val, by omega⟩ : Fin 4096)) := by
  unfold Hand.iblk2
  rw [View.read_apply]
  show V c main_v47 _ = V c main_v47 _
  congr 1
  funext ax
  apply Fin.ext
  match ax with
  | ⟨0, _⟩ => show win2_7.index t (0 : Fin 2) * 1 + 1 * (0 : Fin 1).val = (0 : Fin 1).val; rw [e0]; omega
  | ⟨1, _⟩ => show win2_7.index t (1 : Fin 2) * 512 + 1 * b.val = j0 * 512 + b.val; rw [e1]; omega

/-! ## From the blocks to the array -/

/-- The new state as ONE function of the arrays the region finds on core c, index by index. -/
def hhG (c : Dev nD) : S1024x4096.Idx → EReal := fun i =>
  hhState Ideal.tanh (Ideal.ofBits .f32 0x3F800000#32)
    (fun p n => (V c main_v56 : S1024x4096.Idx → EReal) (ix2 p n)) (fun p n => (V c main_arg1 : S1024x4096.Idx → EReal) (ix2 p n))
    (fun p k => (V c main_v54 : S1024x4096.Idx → EReal) (ix2 p k)) (fun p k => (V c main_v57 : S1024x4096.Idx → EReal) (ix2 p k))
    (fun k n => (V c main_v50 : S4096x4096.Idx → EReal) (ix2 k n)) (fun k n => (V c main_v53 : S4096x4096.Idx → EReal) (ix2 k n))
    (fun n => (V c main_v47 : S1x4096.Idx → EReal) (ix2 (0 : Fin 1) n)) (i 0) (i 1)

/-- WHAT POINT t WRITES BACK is block t of that function. -/
theorem flushed_hh (c : Dev nD) (t : Fin cfg2.N) :
    (Hand.dat2 (F := Ideal) V c).flushed 8 t = ((cfg2.win 8).blk t).view.read (Elt Ideal) (hhG V c) := by
  show (cfg2.win 8).cut (grid2.coords t) ((Hand.dat2 (F := Ideal) V c).after 8 t) = _
  rw [Hand.after2_8]
  unfold Hand.out2_8
  rw [View.canon_unit_zero hz_hh]
  simp only [View.ld_unit_zero (S := S128x4096) hz_hh, View.ld_unit_zero (S := S4096x512) hz_hh,
    View.ld_unit_zero (S := S128x512) hz_hh, View.ld_unit_zero (S := S1x512) hz_hh]
  obtain ⟨e00, e01, e10, e11, e20, e21, e30, e31, e40, e41, e50, e51, e60, e61, e70, e71, b0, b1⟩ := idx_facts_hh t
  funext j
  have hj0 : (j 0).val < 128 := (j 0).isLt
  have hj1 : (j 1).val < 512 := (j 1).isLt
  have hL : (win2_8.xinj (grid2.coords t) j : S128x512.Idx) = ix2 (⟨(j 0).val, hj0⟩ : Fin 128) (⟨(j 1).val, hj1⟩ : Fin 512) :=
    funext fun a => by match a with | ⟨0, _⟩ => rfl | ⟨1, _⟩ => rfl
  have hR : (((cfg2.win 8).blk t).view.emb j : S1024x4096.Idx)
      = ix2 (⟨win2_8.index t (0 : Fin 2) * 128 + (j 0).val, by omega⟩ : Fin 1024) (⟨win2_8.index t (1 : Fin 2) * 512 + (j 1).val, by omega⟩ : Fin 4096) := by
    funext a; apply Fin.ext
    match a with
    | ⟨0, _⟩ => show win2_8.index t (0 : Fin 2) * 128 + 1 * (j 0).val = win2_8.index t (0 : Fin 2) * 128 + (j 0).val; omega
    | ⟨1, _⟩ => show win2_8.index t (1 : Fin 2) * 512 + 1 * (j 1).val = win2_8.index t (1 : Fin 2) * 512 + (j 1).val; omega
  show k2_pay1 (F := Ideal) (Hand.iblk2 V c 2 t) (Hand.iblk2 V c 3 t) (Hand.iblk2 V c 0 t) (Hand.iblk2 V c 1 t) (Hand.iblk2 V c 4 t)
      (Hand.iblk2 V c 7 t) (Hand.iblk2 V c 5 t) (Hand.iblk2 V c 6 t) (win2_8.xinj (grid2.coords t) j)
    = hhG V c (((cfg2.win 8).blk t).view.emb j)
  rw [hL, hR]
  exact hh_point (Hand.iblk2 V c 0 t) (Hand.iblk2 V c 1 t) (Hand.iblk2 V c 2 t) (Hand.iblk2 V c 3 t) (Hand.iblk2 V c 4 t)
    (Hand.iblk2 V c 5 t) (Hand.iblk2 V c 6 t) (Hand.iblk2 V c 7 t)
    (V c main_v54) (V c main_v57) (V c main_arg1) (V c main_v56) (V c main_v50) (V c main_v53) (V c main_v47)
    (win2_8.index t (0 : Fin 2)) (win2_8.index t (1 : Fin 2)) b0 b1
    (iblk_hh_0 V c t _ b0 e00 e01) (iblk_hh_1 V c t _ b1 e10 e11) (iblk_hh_2 V c t _ b0 e20 e21) (iblk_hh_3 V c t _ b0 e30 e31)
    (iblk_hh_4 V c t _ b1 e40 e41) (iblk_hh_5 V c t _ _ b0 b1 e50 e51) (iblk_hh_6 V c t _ _ b0 b1 e60 e61) (iblk_hh_7 V c t _ b1 e70 e71)
    ⟨(j 0).val, hj0⟩ ⟨(j 1).val, hj1⟩

/-- An index of the array is in point t's block iff each coordinate is in the block's range on its axis. -/
theorem mem_blk_hh (t : Fin cfg2.N) (i : S1024x4096.Idx) :
    i ∈ ((cfg2.win 8).blk t).view.set ↔ ∀ a : Fin 2, win2_8.index t a * S128x512.size a ≤ (i a).val ∧ (i a).val < win2_8.index t a * S128x512.size a + S128x512.size a := by
  show i ∈ ((View.whole main_v58).slice (win2_8.rect t)).set ↔ _
  rw [View.set_slice_whole, Rect.mem_set_unit]
  exact Iff.rfl

/-- THE COVER: entry (p, n) lies in the block of the point whose row block is p / 128 and column block n / 512. -/
theorem cover_hh (i : S1024x4096.Idx) :
    ∃ t : Fin cfg2.N, (cfg2.win 8).flush t = true ∧ i ∈ ((cfg2.win 8).blk t).view.set := by
  have hi0 : (i 0).val < 1024 := (i 0).isLt
  have hi1 : (i 1).val < 4096 := (i 1).isLt
  obtain ⟨t, ht⟩ := idx_onto_hh ⟨(i 0).val / 128, by omega⟩ ⟨(i 1).val / 512, by omega⟩
  have q0 : win2_8.index t (0 : Fin 2) = (i 0).val / 128 := congrFun ht 0
  have q1 : win2_8.index t (1 : Fin 2) = (i 1).val / 512 := congrFun ht 1
  refine ⟨t, flush2_8 t, ?_⟩
  rw [mem_blk_hh]
  intro a
  match a with
  | ⟨0, _⟩ => show win2_8.index t (0 : Fin 2) * 128 ≤ (i 0).val ∧ (i 0).val < win2_8.index t (0 : Fin 2) * 128 + 128; omega
  | ⟨1, _⟩ => show win2_8.index t (1 : Fin 2) * 512 ≤ (i 1).val ∧ (i 1).val < win2_8.index t (1 : Fin 2) * 512 + 512; omega

/-- THE ARRAY after the region: the new state, as one function of the arrays the region finds. -/
theorem hh_array (c : Dev nD) : (Hand.dat2 (F := Ideal) V c).arrAt 8 cfg2.N = hhG V c :=
  (Hand.dat2 (F := Ideal) V c).arrAt_eq_of_cover 8 (hhG V c) (fun t _ => flushed_hh V c t) cover_hh

/-- The same at an entry (p, n). -/
theorem hh_final (c : Dev nD) (p : Fin 1024) (n : Fin 4096) :
    (Hand.dat2 (F := Ideal) V c).arrAt 8 cfg2.N (ix2 p n)
      = hhState Ideal.tanh (Ideal.ofBits .f32 0x3F800000#32)
          (fun p n => V c main_v56 (ix2 p n)) (fun p n => V c main_arg1 (ix2 p n))
          (fun p k => V c main_v54 (ix2 p k)) (fun p k => V c main_v57 (ix2 p k))
          (fun k n => V c main_v50 (ix2 k n)) (fun k n => V c main_v53 (ix2 k n))
          (fun n => V c main_v47 (ix2 (0 : Fin 1) n)) p n :=
  congrFun (hh_array V c) (ix2 p n)

end Cert.KernelIdeal.Val

end
-- ==== Proof.KI.HostValues.lean ====
/-
  What the host operations at the head of @main leave in the buffers the three kernels read, at the ideal
  instance, as terms of the argument arrays.

  The 56 operations cut square windows out of the four weight arrays, negate some, join them into six
  4096 × 4096 block matrices of the form [[A, −B], [B, A]], lay pairs of bias windows end to end into three rows
  of 4096 entries and give each row a leading unit axis, and round the two data arrays and the six matrices to a
  narrower float type. Over the extended reals the rounding is the identity, so the two data buffers hold the
  argument arrays themselves and the six matrix buffers hold the block matrices, which are the six matrices the
  specification of the reference is stated over; a bias buffer read at (0, n) is the bias row read at n.
-/
import proofs.«115772_j51677046505498_1_alg».proof.Proof.Gen.KernelIdeal.Regions
import proofs.«115772_j51677046505498_1_alg».proof.Proof.RefIsSpec
import Idealize.ShloMosaic.Lib.StableHlo.Run
import Idealize.ShloMosaic.Lib.ValueLayout
import Idealize.ShloMosaic.PureOps.Ideal

noncomputable section

namespace Cert.KernelIdeal.Val

open Idealize.ShloMosaic Idealize.ShloMosaic.TcCoe Idealize.SL.Sem Idealize.ShloMosaic.StableHlo
open Idealize.ShloMosaic.ValueIdx (ix1 ix2 eq_ix2 shapeCast_a_1a_apply)

variable (m : (ℓ : Loc nD τ sig) → Buf (Elt Ideal) ℓ) (c : Dev nD)

/-! ## The two data arrays: rounded copies of arguments 0 and 1 -/

/-- The input rows as the kernels read them are argument 0. -/
theorem V1_x : (Gen.V1 m c main_v54 : S1024x4096.Idx → EReal) = m ((c.tc : Thread nD τ).loc main_arg0) := by
  dsimp only [Gen.V1, Gen.V0, Gen.hostOps0]
  after_results_simp
  rfl

/-- The previous state as the first two kernels read it is argument 1. -/
theorem V1_h : (Gen.V1 m c main_v55 : S1024x4096.Idx → EReal) = m ((c.tc : Thread nD τ).loc main_arg1) := by
  dsimp only [Gen.V1, Gen.V0, Gen.hostOps0]
  after_results_simp
  rfl

/-- No host operation writes an argument: the third kernel reads argument 1 as launched. -/
theorem V1_arg1 : Gen.V1 m c main_arg1 = m ((c.tc : Thread nD τ).loc main_arg1) :=
  Gen.V1_of m c main_arg1 (by decide)

/-! ## The six block matrices -/

/-- The update gate's input matrix. -/
theorem V1_Kz : (Gen.V1 m c main_v48 : S4096x4096.Idx → EReal) = Cert.RefSpec.Kz (m ((c.tc : Thread nD τ).loc main_arg2)) (m ((c.tc : Thread nD τ).loc main_arg3)) := by
  dsimp only [Gen.V1, Gen.V0, Gen.hostOps0]
  after_results_simp
  rfl

/-- The reset gate's input matrix. -/
theorem V1_Kr : (Gen.V1 m c main_v49 : S4096x4096.Idx → EReal) = Cert.RefSpec.Kr (m ((c.tc : Thread nD τ).loc main_arg2)) (m ((c.tc : Thread nD τ).loc main_arg3)) := by
  dsimp only [Gen.V1, Gen.V0, Gen.hostOps0]
  after_results_simp
  rfl

/-- The candidate's input matrix. -/
theorem V1_Kh : (Gen.V1 m c main_v50 : S4096x4096.Idx → EReal) = Cert.RefSpec.Kh (m ((c.tc : Thread nD τ).loc main_arg2)) (m ((c.tc : Thread nD τ).loc main_arg3)) := by
  dsimp only [Gen.V1, Gen.V0, Gen.hostOps0]
  after_results_simp
  rfl

/-- The update gate's state matrix. -/
theorem V1_Rz : (Gen.V1 m c main_v51 : S4096x4096.Idx → EReal) = Cert.RefSpec.Rz (m ((c.tc : Thread nD τ).loc main_arg4)) (m ((c.tc : Thread nD τ).loc main_arg5)) := by
  dsimp only [Gen.V1, Gen.V0, Gen.hostOps0]
  after_results_simp
  rfl

/-- The reset gate's state matrix. -/
theorem V1_Rr : (Gen.V1 m c main_v52 : S4096x4096.Idx → EReal) = Cert.RefSpec.Rr (m ((c.tc : Thread nD τ).loc main_arg4)) (m ((c.tc : Thread nD τ).loc main_arg5)) := by
  dsimp only [Gen.V1, Gen.V0, Gen.hostOps0]
  after_results_simp
  rfl

/-- The candidate's state matrix. -/
theorem V1_Rh : (Gen.V1 m c main_v53 : S4096x4096.Idx → EReal) = Cert.RefSpec.Rh (m ((c.tc : Thread nD τ).loc main_arg4)) (m ((c.tc : Thread nD τ).loc main_arg5)) := by
  dsimp only [Gen.V1, Gen.V0, Gen.hostOps0]
  after_results_simp
  rfl

/-! ## The three bias rows

Each buffer is a row of 4096 entries given a leading unit axis; row-major order sends (0, n) to n. -/

/-- The update gate's bias row. -/
theorem V1_bz (n : Fin 4096) : (Gen.V1 m c main_v39 : S1x4096.Idx → EReal) (ix2 (0 : Fin 1) n)
    = Cert.RefSpec.bz (m ((c.tc : Thread nD τ).loc main_arg6)) (m ((c.tc : Thread nD τ).loc main_arg7)) (ix1 n) := by
  have e : (Gen.V1 m c main_v39 : S1x4096.Idx → EReal)
      = shapeCast S1x4096 (Cert.RefSpec.bz (m ((c.tc : Thread nD τ).loc main_arg6)) (m ((c.tc : Thread nD τ).loc main_arg7))) Gen.shapeCasts_S4096_S1x4096 := by
    dsimp only [Gen.V1, Gen.V0, Gen.hostOps0]
    after_results_simp
    rfl
  exact (congrFun e _).trans (shapeCast_a_1a_apply _ _ 0 n)

/-- The reset gate's bias row. -/
theorem V1_br (n : Fin 4096) : (Gen.V1 m c main_v43 : S1x4096.Idx → EReal) (ix2 (0 : Fin 1) n)
    = Cert.RefSpec.br (m ((c.tc : Thread nD τ).loc main_arg6)) (m ((c.tc : Thread nD τ).loc main_arg7)) (ix1 n) := by
  have e : (Gen.V1 m c main_v43 : S1x4096.Idx → EReal)
      = shapeCast S1x4096 (Cert.RefSpec.br (m ((c.tc : Thread nD τ).loc main_arg6)) (m ((c.tc : Thread nD τ).loc main_arg7))) Gen.shapeCasts_S4096_S1x4096 := by
    dsimp only [Gen.V1, Gen.V0, Gen.hostOps0]
    after_results_simp
    rfl
  exact (congrFun e _).trans (shapeCast_a_1a_apply _ _ 0 n)

/-- The candidate's bias row. -/
theorem V1_bh (n : Fin 4096) : (Gen.V1 m c main_v47 : S1x4096.Idx → EReal) (ix2 (0 : Fin 1) n)
    = Cert.RefSpec.bh (m ((c.tc : Thread nD τ).loc main_arg6)) (m ((c.tc : Thread nD τ).loc main_arg7)) (ix1 n) := by
  have e : (Gen.V1 m c main_v47 : S1x4096.Idx → EReal)
      = shapeCast S1x4096 (Cert.RefSpec.bh (m ((c.tc : Thread nD τ).loc main_arg6)) (m ((c.tc : Thread nD τ).loc main_arg7))) Gen.shapeCasts_S4096_S1x4096 := by
    dsimp only [Gen.V1, Gen.V0, Gen.hostOps0]
    after_results_simp
    rfl
  exact (congrFun e _).trans (shapeCast_a_1a_apply _ _ 0 n)

end Cert.KernelIdeal.Val

end
-- ==== Proof.KI.Bridge.lean ====
/-
  The kernel program's result is the specification.

  The program runs three launches one after the other.  The first two each leave a gate array: the hard sigmoid of
  (x·K + h·R) + b over the whole arrays the launch finds.  The third reads both gate arrays together with the
  input rows, the old state, the candidate's two matrices and its bias row, and leaves  z ∘ h + (1 − z) ∘ cand.
  Between launches only the finished launch's output array changes; every other array is what the host operations
  left before the first launch: the two data arrays are the first two arguments, the six matrices are the six block
  matrices the reference's specification is stated over, and each bias array read at (0, n) is the matching bias
  row read at n.  Substituting these equations array by array into the third launch's array gives the
  specification's new state at every entry; no arithmetic law is used.
-/
import proofs.«115772_j51677046505498_1_alg».proof.Proof.Spec
import proofs.«115772_j51677046505498_1_alg».proof.Proof.RefIsSpec
import proofs.«115772_j51677046505498_1_alg».proof.Proof.KI.Vals
import proofs.«115772_j51677046505498_1_alg».proof.Proof.KI.GateValue
import proofs.«115772_j51677046505498_1_alg».proof.Proof.KI.HhValue
import proofs.«115772_j51677046505498_1_alg».proof.Proof.KI.HostValues
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.ValueIdx (ix1 ix2 eq_ix2)

variable (m : (ℓ : Loc nD τ sig) → Buf (Elt Ideal) ℓ) (c : Dev nD)

/-! ## Equal arrays give equal gates and equal states -/

/-- The gate depends on its five arrays only through their entries. -/
theorem gate_congr (c₂ c₅ lo hi : EReal) {x x' h h' : Fin 1024 → Fin 4096 → EReal}
    {K K' R R' : Fin 4096 → Fin 4096 → EReal} {b b' : Fin 4096 → EReal}
    (hx : ∀ p k, x p k = x' p k) (hh : ∀ p k, h p k = h' p k) (hK : ∀ k n, K k n = K' k n)
    (hR : ∀ k n, R k n = R' k n) (hb : ∀ n, b n = b' n) (p : Fin 1024) (n : Fin 4096) :
    Cert.Spec.gate c₂ c₅ lo hi x h K R b p n = Cert.Spec.gate c₂ c₅ lo hi x' h' K' R' b' p n := by
  obtain rfl : x = x' := funext fun p => funext fun k => hx p k
  obtain rfl : h = h' := funext fun p => funext fun k => hh p k
  obtain rfl : K = K' := funext fun k => funext fun n => hK k n
  obtain rfl : R = R' := funext fun k => funext fun n => hR k n
  obtain rfl : b = b' := funext hb
  rfl

/-- So does the new state, through the entries of its seven arrays. -/
theorem hhState_congr (th : EReal → EReal) (one : EReal) {z z' h h' x x' r r' : Fin 1024 → Fin 4096 → EReal}
    {K K' R R' : Fin 4096 → Fin 4096 → EReal} {b b' : Fin 4096 → EReal}
    (hz : ∀ p n, z p n = z' p n) (hh : ∀ p n, h p n = h' p n) (hx : ∀ p k, x p k = x' p k) (hr : ∀ p k, r p k = r' p k)
    (hK : ∀ k n, K k n = K' k n) (hR : ∀ k n, R k n = R' k n) (hb : ∀ n, b n = b' n) (p : Fin 1024) (n : Fin 4096) :
    hhState th one z h x r K R b p n = hhState th one z' h' x' r' K' R' b' p n := by
  obtain rfl : z = z' := funext fun p => funext fun n => hz p n
  obtain rfl : h = h' := funext fun p => funext fun n => hh p n
  obtain rfl : x = x' := funext fun p => funext fun k => hx p k
  obtain rfl : r = r' := funext fun p => funext fun k => hr p k
  obtain rfl : K = K' := funext fun k => funext fun n => hK k n
  obtain rfl : R = R' := funext fun k => funext fun n => hR k n
  obtain rfl : b = b' := funext hb
  rfl

/-! ## What changes between launches: one array each -/

/-- After the first launch the update gate's array holds what the launch left … -/
theorem W2_z : Hand.W2 m c main_v56 = Hand.res0 m c := by
  unfold Hand.W2; exact Function.update_self _ _ _
/-- … and every other array is as the host operations left it. -/
theorem W2_of (b : Ref sig .tc) (h : b ≠ main_v56) : Hand.W2 m c b = Hand.W1 m c b :=
  Function.update_of_ne (Hand.ne56 b h) _ _
/-- After the second launch the reset gate's array holds what that launch left … -/
theorem W3_r : Hand.W3 m c main_v57 = Hand.res1 m c := by
  unfold Hand.W3; exact Function.update_self _ _ _
/-- … and every other array is as the first launch left it. -/
theorem W3_of (b : Ref sig .tc) (h : b ≠ main_v57) : Hand.W3 m c b = Hand.W2 m c b :=
  Function.update_of_ne (Hand.ne57 b h) _ _

/-! ## The two gate arrays over the argument arrays -/

/-- The first launch's array at an entry: the specification's update gate of the arguments. -/
theorem res0_at (p : Fin 1024) (n : Fin 4096) :
    (Hand.res0 m c : S1024x4096.Idx → EReal) (ix2 p n) =
      Cert.Spec.gate (Ideal.ofBits .f32 0x3E4CCCCD#32) (Ideal.ofBits .f32 0x3F000000#32) (Ideal.ofBits .f32 0x00000000#32) (Ideal.ofBits .f32 0x3F800000#32)
      (fun (p : Fin 1024) (k : Fin 4096) => (m ((c.tc : Thread nD τ).loc main_arg0)) (ix2 p k)) (fun (p : Fin 1024) (k : Fin 4096) => (m ((c.tc : Thread nD τ).loc main_arg1)) (ix2 p k))
      (fun (k n : Fin 4096) => Cert.RefSpec.Kz (m ((c.tc : Thread nD τ).loc main_arg2)) (m ((c.tc : Thread nD τ).loc main_arg3)) (ix2 k n)) (fun (k n : Fin 4096) => Cert.RefSpec.Rz (m ((c.tc : Thread nD τ).loc main_arg4)) (m ((c.tc : Thread nD τ).loc main_arg5)) (ix2 k n))
      (fun (n : Fin 4096) => Cert.RefSpec.bz (m ((c.tc : Thread nD τ).loc main_arg6)) (m ((c.tc : Thread nD τ).loc main_arg7)) (ix1 n)) p n := by
  unfold Hand.res0
  rw [gate0_final (Hand.atTc (Hand.W1 m)) c p n]
  dsimp only [Hand.atTc, Hand.W1]
  exact gate_congr _ _ _ _ (fun p k => congrFun (V1_x m c) (ix2 p k)) (fun p k => congrFun (V1_h m c) (ix2 p k))
    (fun k n => congrFun (V1_Kz m c) (ix2 k n)) (fun k n => congrFun (V1_Rz m c) (ix2 k n)) (fun n => V1_bz m c n) p n

/-- The second launch finds the five arrays it reads as the host operations left them, so its array at an entry is
    the specification's reset gate of the arguments. -/
theorem res1_at (p : Fin 1024) (n : Fin 4096) :
    (Hand.res1 m c : S1024x4096.Idx → EReal) (ix2 p n) =
      Cert.Spec.gate (Ideal.ofBits .f32 0x3E4CCCCD#32) (Ideal.ofBits .f32 0x3F000000#32) (Ideal.ofBits .f32 0x00000000#32) (Ideal.ofBits .f32 0x3F800000#32)
      (fun (p : Fin 1024) (k : Fin 4096) => (m ((c.tc : Thread nD τ).loc main_arg0)) (ix2 p k)) (fun (p : Fin 1024) (k : Fin 4096) => (m ((c.tc : Thread nD τ).loc main_arg1)) (ix2 p k))
      (fun (k n : Fin 4096) => Cert.RefSpec.Kr (m ((c.tc : Thread nD τ).loc main_arg2)) (m ((c.tc : Thread nD τ).loc main_arg3)) (ix2 k n)) (fun (k n : Fin 4096) => Cert.RefSpec.Rr (m ((c.tc : Thread nD τ).loc main_arg4)) (m ((c.tc : Thread nD τ).loc main_arg5)) (ix2 k n))
      (fun (n : Fin 4096) => Cert.RefSpec.br (m ((c.tc : Thread nD τ).loc main_arg6)) (m ((c.tc : Thread nD τ).loc main_arg7)) (ix1 n)) p n := by
  unfold Hand.res1
  rw [gate1_final (Hand.atTc (Hand.W2 m)) c p n]
  dsimp only [Hand.atTc]
  rw [W2_of m c main_v54 (by decide), W2_of m c main_v55 (by decide), W2_of m c main_v49 (by decide),
    W2_of m c main_v52 (by decide), W2_of m c main_v43 (by decide)]
  dsimp only [Hand.W1]
  exact gate_congr _ _ _ _ (fun p k => congrFun (V1_x m c) (ix2 p k)) (fun p k => congrFun (V1_h m c) (ix2 p k))
    (fun k n => congrFun (V1_Kr m c) (ix2 k n)) (fun k n => congrFun (V1_Rr m c) (ix2 k n)) (fun n => V1_br m c n) p n

/-! ## The seven arrays the third launch finds -/

/-- The update gate's array, at an entry. -/
theorem W3_z (p : Fin 1024) (n : Fin 4096) : (Hand.W3 m c main_v56 : S1024x4096.Idx → EReal) (ix2 p n) =
      Cert.Spec.gate (Ideal.ofBits .f32 0x3E4CCCCD#32) (Ideal.ofBits .f32 0x3F000000#32) (Ideal.ofBits .f32 0x00000000#32) (Ideal.ofBits .f32 0x3F800000#32)
      (fun (p : Fin 1024) (k : Fin 4096) => (m ((c.tc : Thread nD τ).loc main_arg0)) (ix2 p k)) (fun (p : Fin 1024) (k : Fin 4096) => (m ((c.tc : Thread nD τ).loc main_arg1)) (ix2 p k))
      (fun (k n : Fin 4096) => Cert.RefSpec.Kz (m ((c.tc : Thread nD τ).loc main_arg2)) (m ((c.tc : Thread nD τ).loc main_arg3)) (ix2 k n)) (fun (k n : Fin 4096) => Cert.RefSpec.Rz (m ((c.tc : Thread nD τ).loc main_arg4)) (m ((c.tc : Thread nD τ).loc main_arg5)) (ix2 k n))
      (fun (n : Fin 4096) => Cert.RefSpec.bz (m ((c.tc : Thread nD τ).loc main_arg6)) (m ((c.tc : Thread nD τ).loc main_arg7)) (ix1 n)) p n :=
  (congrFun ((W3_of m c main_v56 (by decide)).trans (W2_z m c)) _).trans (res0_at m c p n)

/-- The reset gate's array, at an entry. -/
theorem W3_rgate (p : Fin 1024) (n : Fin 4096) : (Hand.W3 m c main_v57 : S1024x4096.Idx → EReal) (ix2 p n) =
      Cert.Spec.gate (Ideal.ofBits .f32 0x3E4CCCCD#32) (Ideal.ofBits .f32 0x3F000000#32) (Ideal.ofBits .f32 0x00000000#32) (Ideal.ofBits .f32 0x3F800000#32)
      (fun (p : Fin 1024) (k : Fin 4096) => (m ((c.tc : Thread nD τ).loc main_arg0)) (ix2 p k)) (fun (p : Fin 1024) (k : Fin 4096) => (m ((c.tc : Thread nD τ).loc main_arg1)) (ix2 p k))
      (fun (k n : Fin 4096) => Cert.RefSpec.Kr (m ((c.tc : Thread nD τ).loc main_arg2)) (m ((c.tc : Thread nD τ).loc main_arg3)) (ix2 k n)) (fun (k n : Fin 4096) => Cert.RefSpec.Rr (m ((c.tc : Thread nD τ).loc main_arg4)) (m ((c.tc : Thread nD τ).loc main_arg5)) (ix2 k n))
      (fun (n : Fin 4096) => Cert.RefSpec.br (m ((c.tc : Thread nD τ).loc main_arg6)) (m ((c.tc : Thread nD τ).loc main_arg7)) (ix1 n)) p n :=
  (congrFun (W3_r m c) _).trans (res1_at m c p n)

/-- The input rows. -/
theorem W3_x : (Hand.W3 m c main_v54 : S1024x4096.Idx → EReal) = m ((c.tc : Thread nD τ).loc main_arg0) :=
  (W3_of m c main_v54 (by decide)).trans ((W2_of m c main_v54 (by decide)).trans (V1_x m c))

/-- The old state. -/
theorem W3_h : (Hand.W3 m c main_arg1 : S1024x4096.Idx → EReal) = m ((c.tc : Thread nD τ).loc main_arg1) :=
  (W3_of m c main_arg1 (by decide)).trans ((W2_of m c main_arg1 (by decide)).trans (V1_arg1 m c))

/-- The candidate's input matrix. -/
theorem W3_Kh : (Hand.W3 m c main_v50 : S4096x4096.Idx → EReal) = Cert.RefSpec.Kh (m ((c.tc : Thread nD τ).loc main_arg2)) (m ((c.tc : Thread nD τ).loc main_arg3)) :=
  (W3_of m c main_v50 (by decide)).trans ((W2_of m c main_v50 (by decide)).trans (V1_Kh m c))

/-- The candidate's state matrix. -/
theorem W3_Rh : (Hand.W3 m c main_v53 : S4096x4096.Idx → EReal) = Cert.RefSpec.Rh (m ((c.tc : Thread nD τ).loc main_arg4)) (m ((c.tc : Thread nD τ).loc main_arg5)) :=
  (W3_of m c main_v53 (by decide)).trans ((W2_of m c main_v53 (by decide)).trans (V1_Rh m c))

/-- The candidate's bias row, read at (0, n). -/
theorem W3_bh (n : Fin 4096) : (Hand.W3 m c main_v47 : S1x4096.Idx → EReal) (ix2 (0 : Fin 1) n)
    = Cert.RefSpec.bh (m ((c.tc : Thread nD τ).loc main_arg6)) (m ((c.tc : Thread nD τ).loc main_arg7)) (ix1 n) :=
  (congrFun ((W3_of m c main_v47 (by decide)).trans (W2_of m c main_v47 (by decide))) _).trans (V1_bh m c n)

/-! ## The result -/

/-- What the third launch leaves in the result's array is the specification of the eight argument arrays. -/
theorem result_is_spec :
    (Hand.res2 (F := Ideal) m c : S1024x4096.Idx → EReal)
      = Cert.RefSpec.spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext i
  obtain ⟨p, n, rfl⟩ : ∃ (p : Fin 1024) (n : Fin 4096), i = ix2 p n := ⟨i 0, i 1, eq_ix2 i⟩
  rw [Cert.RefSpec.spec_apply]
  unfold Hand.res2
  rw [hh_final (Hand.atTc (Hand.W3 m)) c p n]
  dsimp only [Hand.atTc]
  show _ = hhState Ideal.tanh (Ideal.ofBits .f32 0x3F800000#32)
      (Cert.Spec.gate (Ideal.ofBits .f32 0x3E4CCCCD#32) (Ideal.ofBits .f32 0x3F000000#32) (Ideal.ofBits .f32 0x00000000#32) (Ideal.ofBits .f32 0x3F800000#32)
      (fun (p : Fin 1024) (k : Fin 4096) => (m ((c.tc : Thread nD τ).loc main_arg0)) (ix2 p k)) (fun (p : Fin 1024) (k : Fin 4096) => (m ((c.tc : Thread nD τ).loc main_arg1)) (ix2 p k))
      (fun (k n : Fin 4096) => Cert.RefSpec.Kz (m ((c.tc : Thread nD τ).loc main_arg2)) (m ((c.tc : Thread nD τ).loc main_arg3)) (ix2 k n)) (fun (k n : Fin 4096) => Cert.RefSpec.Rz (m ((c.tc : Thread nD τ).loc main_arg4)) (m ((c.tc : Thread nD τ).loc main_arg5)) (ix2 k n))
      (fun (n : Fin 4096) => Cert.RefSpec.bz (m ((c.tc : Thread nD τ).loc main_arg6)) (m ((c.tc : Thread nD τ).loc main_arg7)) (ix1 n)))
      (fun (p : Fin 1024) (k : Fin 4096) => (m ((c.tc : Thread nD τ).loc main_arg1)) (ix2 p k)) (fun (p : Fin 1024) (k : Fin 4096) => (m ((c.tc : Thread nD τ).loc main_arg0)) (ix2 p k))
      (Cert.Spec.gate (Ideal.ofBits .f32 0x3E4CCCCD#32) (Ideal.ofBits .f32 0x3F000000#32) (Ideal.ofBits .f32 0x00000000#32) (Ideal.ofBits .f32 0x3F800000#32)
      (fun (p : Fin 1024) (k : Fin 4096) => (m ((c.tc : Thread nD τ).loc main_arg0)) (ix2 p k)) (fun (p : Fin 1024) (k : Fin 4096) => (m ((c.tc : Thread nD τ).loc main_arg1)) (ix2 p k))
      (fun (k n : Fin 4096) => Cert.RefSpec.Kr (m ((c.tc : Thread nD τ).loc main_arg2)) (m ((c.tc : Thread nD τ).loc main_arg3)) (ix2 k n)) (fun (k n : Fin 4096) => Cert.RefSpec.Rr (m ((c.tc : Thread nD τ).loc main_arg4)) (m ((c.tc : Thread nD τ).loc main_arg5)) (ix2 k n))
      (fun (n : Fin 4096) => Cert.RefSpec.br (m ((c.tc : Thread nD τ).loc main_arg6)) (m ((c.tc : Thread nD τ).loc main_arg7)) (ix1 n)))
      (fun (k n : Fin 4096) => Cert.RefSpec.Kh (m ((c.tc : Thread nD τ).loc main_arg2)) (m ((c.tc : Thread nD τ).loc main_arg3)) (ix2 k n)) (fun (k n : Fin 4096) => Cert.RefSpec.Rh (m ((c.tc : Thread nD τ).loc main_arg4)) (m ((c.tc : Thread nD τ).loc main_arg5)) (ix2 k n)) (fun (n : Fin 4096) => Cert.RefSpec.bh (m ((c.tc : Thread nD τ).loc main_arg6)) (m ((c.tc : Thread nD τ).loc main_arg7)) (ix1 n)) p n
  exact hhState_congr _ _ (fun p n => W3_z m c p n) (fun p n => congrFun (W3_h m c) (ix2 p n))
    (fun p k => congrFun (W3_x m c) (ix2 p k)) (fun p k => W3_rgate m c p k)
    (fun k n => congrFun (W3_Kh m c) (ix2 k n)) (fun k n => congrFun (W3_Rh m c) (ix2 k n)) (fun n => W3_bh m c n) p n

end Cert.KernelIdeal.Val

end
-- ==== Proof.lean ====
/-
  A complex-valued GRU cell, in its real block form, computed two ways.

  The kernel program builds, on the host, six 4096 × 4096 block matrices [[A, −B], [B, A]] and three bias rows out of
  the weight and bias arrays, and then launches three kernels over an 8 × 8 grid of 128 × 512 output tiles: the update
  gate z and the reset gate r, each the hard sigmoid min 1 (max 0 (0.2 · ((x·K + h·R) + b) + 0.5)), and the new
  state z ∘ h + (1 − z) ∘ tanh ((x·K + (r ∘ h)·R) + b), whose two gate operands are the first two kernels' outputs.
  The reference computes the same cell with whole-array products, adding each bias before the state product:
  (x·K + b) + h·R.

  Read over the extended reals, with every change of float format the identity and every product the plain sum over
  the contracted axis, the two are one function of the eight argument arrays (`Cert.RefSpec.spec`): the host
  operations that build the matrices and bias rows are the same on both sides and are carried as opaque arrays, the
  constants are the same words, and the only difference is the grouping of three addends, which commutativity and
  associativity of addition settle on all extended reals (`Cert.Spec.pre_comm`).  No finiteness is used: the
  precondition is never opened.

  The frames.  Each kernel region is entered from the valuation of the core's unscoped buffers that the item before
  it left and changes it at its output buffer only; the third region reads the previous state through two windows,
  holding half of that buffer's share through each.  The program's run is the composition of the host stretch and the
  three regions, at the word-level instance and at the ideal one alike.  The reference has no kernel: its frame is its
  run with the result dropped.
-/
import proofs.«115772_j51677046505498_1_alg».proof.Defs
import proofs.«115772_j51677046505498_1_alg».proof.Proof.Gen.Kernel
import proofs.«115772_j51677046505498_1_alg».proof.Proof.Gen.KernelIdeal
import proofs.«115772_j51677046505498_1_alg».proof.Proof.Gen.ReferenceIdeal
import proofs.«115772_j51677046505498_1_alg».proof.Proof.Gen.ReferenceIdeal.Run
import proofs.«115772_j51677046505498_1_alg».proof.Proof.Gen.ReferenceIdeal.Read
import proofs.«115772_j51677046505498_1_alg».proof.Proof.Gen.Pre_finite_inputs
import proofs.«115772_j51677046505498_1_alg».proof.Proof.RefIsSpec
import proofs.«115772_j51677046505498_1_alg».proof.Proof.K.Records
import proofs.«115772_j51677046505498_1_alg».proof.Proof.KI.Records
import proofs.«115772_j51677046505498_1_alg».proof.Proof.KI.Bridge
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification of the arguments in their result, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.res2 (F := Ideal) m c, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.RefSpec.res_is_spec, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.KernelIdeal.Val.result_is_spec m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
